-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v170) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024x6 : Shape := ⟨3, ![32, 1024, 6]⟩
abbrev S3x6x128 : Shape := ⟨3, ![3, 6, 128]⟩
abbrev S128 : Shape := ⟨1, ![128]⟩
abbrev S3x128x512 : Shape := ⟨3, ![3, 128, 512]⟩
abbrev S512 : Shape := ⟨1, ![512]⟩
abbrev S3x512x1024 : Shape := ⟨3, ![3, 512, 1024]⟩
abbrev S1024 : Shape := ⟨1, ![1024]⟩
abbrev S1024x512 : Shape := ⟨2, ![1024, 512]⟩
abbrev S512x128 : Shape := ⟨2, ![512, 128]⟩
abbrev S128x40 : Shape := ⟨2, ![128, 40]⟩
abbrev S40 : Shape := ⟨1, ![40]⟩
abbrev S_ : Shape := ⟨0, ![]⟩

class Facts : Prop where
  bcast_S_S32x1024x6 : S_.BroadcastsInDim S32x1024x6 (![] : Fin 0 → Fin S32x1024x6.rank)
  reducesTo_S32x1024x6_S_d0_1_2 : S32x1024x6.ReducesTo [0, 1, 2] S_
  h_S_ : 0 < S_.numel
  bcast_S_S3x6x128 : S_.BroadcastsInDim S3x6x128 (![] : Fin 0 → Fin S3x6x128.rank)
  reducesTo_S3x6x128_S_d0_1_2 : S3x6x128.ReducesTo [0, 1, 2] S_
  bcast_S_S128 : S_.BroadcastsInDim S128 (![] : Fin 0 → Fin S128.rank)
  reducesTo_S128_S_d0 : S128.ReducesTo [0] S_
  bcast_S_S3x128x512 : S_.BroadcastsInDim S3x128x512 (![] : Fin 0 → Fin S3x128x512.rank)
  reducesTo_S3x128x512_S_d0_1_2 : S3x128x512.ReducesTo [0, 1, 2] S_
  bcast_S_S512 : S_.BroadcastsInDim S512 (![] : Fin 0 → Fin S512.rank)
  reducesTo_S512_S_d0 : S512.ReducesTo [0] S_
  bcast_S_S3x512x1024 : S_.BroadcastsInDim S3x512x1024 (![] : Fin 0 → Fin S3x512x1024.rank)
  reducesTo_S3x512x1024_S_d0_1_2 : S3x512x1024.ReducesTo [0, 1, 2] S_
  bcast_S_S1024 : S_.BroadcastsInDim S1024 (![] : Fin 0 → Fin S1024.rank)
  reducesTo_S1024_S_d0 : S1024.ReducesTo [0] S_
  bcast_S_S1024x512 : S_.BroadcastsInDim S1024x512 (![] : Fin 0 → Fin S1024x512.rank)
  reducesTo_S1024x512_S_d0_1 : S1024x512.ReducesTo [0, 1] S_
  bcast_S_S512x128 : S_.BroadcastsInDim S512x128 (![] : Fin 0 → Fin S512x128.rank)
  reducesTo_S512x128_S_d0_1 : S512x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part3 {F : FTy → Type} [FloatOps F] (main_arg11 : FVec F S128x40 .f32) (main_arg12 : FVec F S40 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x40 .f32 := Host.absf main_arg11
  let main_cst_20 : FVec F S_ .f32 := constant S_ .f32 0x7F800000#32
  let main_v55 : FVec F S128x40 .f32 := broadcastInDim S128x40 ![] bcast_S_S128x40 main_cst_20
  let main_v56 : IVec S128x40 1 := cmpf .olt main_v54 main_v55
  let main_c_21 : IVec S_ 1 := constantI S_ 1 1#1
  let main_v57 : IVec S_ 1 := (fun x v => Host.reduce IntOp.andi x v reducesTo_S128x40_S_d0_1 h_S_) main_v56 main_c_21
  let main_v58 : IVec S_ 1 := andi main_v53 main_v57
  let main_v59 : FVec F S40 .f32 := Host.absf main_arg12
  let main_cst_22 : FVec F S_ .f32 := constant S_ .f32 0x7F800000#32
  let main_v60 : FVec F S40 .f32 := broadcastInDim S40 ![] bcast_S_S40 main_cst_22
  let main_v61 : IVec S40 1 := cmpf .olt main_v59 main_v60
  let main_c_23 : IVec S_ 1 := constantI S_ 1 1#1
  let main_v62 : IVec S_ 1 := (fun x v => Host.reduce IntOp.andi x v reducesTo_S40_S_d0 h_S_) main_v61 main_c_23
  let main_v63 : IVec S_ 1 := andi main_v58 main_v62
  main_v63

def fn_part2 {F : FTy → Type} [FloatOps F] (main_arg7 : FVec F S1024x512 .f32) (main_arg8 : FVec F S512 .f32) (main_arg9 : FVec F S512x128 .f32) (main_arg10 : FVec F S128 .f32) (main_arg11 : FVec F S128x40 .f32) (main_arg12 : FVec F S40 .f32) (main_v33 : IVec S_ 1) : IVec S_ 1 :=
  let main_v34 : FVec F S1024x512 .f32 := Host.absf main_arg7
  let main_cst_12 : FVec F S_ .f32 := constant S_ .f32 0x7F800000#32
  let main_v35 : FVec F S1024x512 .f32 := broadcastInDim S1024x512 ![] bcast_S_S1024x512 main_cst_12
  let main_v36 : IVec S1024x512 1 := cmpf .olt main_v34 main_v35
  let main_c_13 : IVec S_ 1 := constantI S_ 1 1#1
  let main_v37 : IVec S_ 1 := (fun x v => Host.reduce IntOp.andi x v reducesTo_S1024x512_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x128 .f32 := Host.absf main_arg9
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_v48 main_v49 main_v50

def fn_part1 {F : FTy → Type} [FloatOps F] (main_arg4 : FVec F S512 .f32) (main_arg5 : FVec F S3x512x1024 .f32) (main_arg6 : FVec F S1024 .f32) (main_arg7 : FVec F S1024x512 .f32) (main_arg8 : FVec F S512 .f32) (main_arg9 : FVec F S512x128 .f32) (main_arg10 : FVec F S128 .f32) (main_arg11 : FVec F S128x40 .f32) (main_arg12 : FVec F S40 .f32) (main_v13 : IVec S_ 1) (main_v16 : IVec S3x128x512 1) : IVec S_ 1 :=
  let main_c_5 : IVec S_ 1 := constantI S_ 1 1#1
  let main_v17 : IVec S_ 1 := (fun x v => Host.reduce IntOp.andi x v reducesTo_S3x128x512_S_d0_1_2 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S3x512x1024 .f32 := Host.absf main_arg5
  let main_cst_8 : FVec F S_ .f32 := constant S_ .f32 0x7F800000#32
  let main_v25 : FVec F S3x512x1024 .f32 := broadcastInDim S3x512x1024 ![] bcast_S_S3x512x1024 main_cst_8
  let main_v26 : IVec S3x512x1024 1 := cmpf .olt main_v24 main_v25
  let main_c_9 : IVec S_ 1 := constantI S_ 1 1#1
  let main_v27 : IVec S_ 1 := (fun x v => Host.reduce IntOp.andi x v reducesTo_S3x512x1024_S_d0_1_2 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_arg11 main_arg12 main_v33

def fn {F : FTy → Type} [FloatOps F] (main_arg0 : FVec F S32x1024x6 .f32) (main_arg1 : FVec F S3x6x128 .f32) (main_arg2 : FVec F S128 .f32) (main_arg3 : FVec F S3x128x512 .f32) (main_arg4 : FVec F S512 .f32) (main_arg5 : FVec F S3x512x1024 .f32) (main_arg6 : FVec F S1024 .f32) (main_arg7 : FVec F S1024x512 .f32) (main_arg8 : FVec F S512 .f32) (main_arg9 : FVec F S512x128 .f32) (main_arg10 : FVec F S128 .f32) (main_arg11 : FVec F S128x40 .f32) (main_arg12 : FVec F S40 .f32) : IVec S_ 1 :=
  let main_v0 : FVec F S32x1024x6 .f32 := Host.absf main_arg0
  let main_cst : FVec F S_ .f32 := constant S_ .f32 0x7F800000#32
  let main_v1 : FVec F S32x1024x6 .f32 := broadcastInDim S32x1024x6 ![] bcast_S_S32x1024x6 main_cst
  let main_v2 : IVec S32x1024x6 1 := cmpf .olt main_v0 main_v1
  let main_c : IVec S_ 1 := constantI S_ 1 1#1
  let main_v3 : IVec S_ 1 := (fun x v => Host.reduce IntOp.andi x v reducesTo_S32x1024x6_S_d0_1_2 h_S_) main_v2 main_c
  let main_v4 : FVec F S3x6x128 .f32 := Host.absf main_arg1
  let main_cst_0 : FVec F S_ .f32 := constant S_ .f32 0x7F800000#32
  let main_v5 : FVec F S3x6x128 .f32 := broadcastInDim S3x6x128 ![] bcast_S_S3x6x128 main_cst_0
  let main_v6 : IVec S3x6x128 1 := cmpf .olt main_v4 main_v5
  let main_c_1 : IVec S_ 1 := constantI S_ 1 1#1
  let main_v7 : IVec S_ 1 := (fun x v => Host.reduce IntOp.andi x v reducesTo_S3x6x128_S_d0_1_2 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S3x128x512 .f32 := Host.absf main_arg3
  let main_cst_4 : FVec F S_ .f32 := constant S_ .f32 0x7F800000#32
  let main_v15 : FVec F S3x128x512 .f32 := broadcastInDim S3x128x512 ![] bcast_S_S3x128x512 main_cst_4
  let main_v16 : IVec S3x128x512 1 := cmpf .olt main_v14 main_v15
  fn_part1 (F := F) main_arg4 main_arg5 main_arg6 main_arg7 main_arg8 main_arg9 main_arg10 main_arg11 main_arg12 main_v13 main_v16
-- ==== Kernel.lean ====
abbrev S32x1024x6 : Shape := ⟨3, ![32, 1024, 6]⟩
abbrev S3x6x128 : Shape := ⟨3, ![3, 6, 128]⟩
abbrev S128 : Shape := ⟨1, ![128]⟩
abbrev S3x128x512 : Shape := ⟨3, ![3, 128, 512]⟩
abbrev S512 : Shape := ⟨1, ![512]⟩
abbrev S3x512x1024 : Shape := ⟨3, ![3, 512, 1024]⟩
abbrev S1024 : Shape := ⟨1, ![1024]⟩
abbrev S1024x512 : Shape := ⟨2, ![1024, 512]⟩
abbrev S512x128 : Shape := ⟨2, ![512, 128]⟩
abbrev S128x40 : Shape := ⟨2, ![128, 40]⟩
abbrev S40 : Shape := ⟨1, ![40]⟩
abbrev S_ : Shape := ⟨0, ![]⟩
abbrev S32x1024x8 : Shape := ⟨3, ![32, 1024, 8]⟩
abbrev S3x8x128 : Shape := ⟨3, ![3, 8, 128]⟩
abbrev S32x1x1024 : Shape := ⟨3, ![32, 1, 1024]⟩
abbrev S1x1024x8 : Shape := ⟨3, ![1, 1024, 8]⟩
abbrev S1x1x1024 : Shape := ⟨3, ![1, 1, 1024]⟩
abbrev S1024x8 : Shape := ⟨2, ![1024, 8]⟩
abbrev S1024x1024 : Shape := ⟨2, ![1024, 1024]⟩
abbrev S1024x1 : Shape := ⟨2, ![1024, 1]⟩
abbrev S1x1024 : Shape := ⟨2, ![1, 1024]⟩
abbrev S1x8x128 : Shape := ⟨3, ![1, 8, 128]⟩
abbrev S8x128 : Shape := ⟨2, ![8, 128]⟩
abbrev S1024x128 : Shape := ⟨2, ![1024, 128]⟩
abbrev S1x128 : Shape := ⟨2, ![1, 128]⟩
abbrev S1x128x512 : Shape := ⟨3, ![1, 128, 512]⟩
abbrev S128x512 : Shape := ⟨2, ![128, 512]⟩
abbrev S1x512 : Shape := ⟨2, ![1, 512]⟩
abbrev S1x512x1024 : Shape := ⟨3, ![1, 512, 1024]⟩
abbrev S512x1024 : Shape := ⟨2, ![512, 1024]⟩
abbrev S32x1024 : Shape := ⟨2, ![32, 1024]⟩
abbrev S32x40 : Shape := ⟨2, ![32, 40]⟩
abbrev S32x512 : Shape := ⟨2, ![32, 512]⟩
abbrev S32x128 : Shape := ⟨2, ![32, 128]⟩
abbrev S1x40 : Shape := ⟨2, ![1, 40]⟩

abbrev nBuf : Space → Nat
  | .hbm => 22
  | .vmem => 18
  | .smem => 0
  | _ => 0

abbrev bufTy : (tb : Table) → Fin (tcTables nBuf tb) → BufTy
  | .hbm, ⟨0, _⟩ => ⟨S32x1024x6, .f32⟩
  | .hbm, ⟨1, _⟩ => ⟨S3x6x128, .f32⟩
  | .hbm, ⟨2, _⟩ => ⟨S128, .f32⟩
  | .hbm, ⟨3, _⟩ => ⟨S3x128x512, .f32⟩
  | .hbm, ⟨4, _⟩ => ⟨S512, .f32⟩
  | .hbm, ⟨5, _⟩ => ⟨S3x512x1024, .f32⟩
  | .hbm, ⟨6, _⟩ => ⟨S1024, .f32⟩
  | .hbm, ⟨7, _⟩ => ⟨S1024x512, .f32⟩
  | .hbm, ⟨8, _⟩ => ⟨S512, .f32⟩
  | .hbm, ⟨9, _⟩ => ⟨S512x128, .f32⟩
  | .hbm, ⟨10, _⟩ => ⟨S128, .f32⟩
  | .hbm, ⟨11, _⟩ => ⟨S128x40, .f32⟩
  | .hbm, ⟨12, _⟩ => ⟨S40, .f32⟩
  | .hbm, ⟨13, _⟩ => ⟨S_, .i32⟩
  | .hbm, ⟨14, _⟩ => ⟨S_, .f32⟩
  | .hbm, ⟨15, _⟩ => ⟨S32x1024x8, .f32⟩
  | .hbm, ⟨16, _⟩ => ⟨S_, .i32⟩
  | .hbm, ⟨17, _⟩ => ⟨S_, .f32⟩
  | .hbm, ⟨18, _⟩ => ⟨S3x8x128, .f32⟩
  | .hbm, ⟨19, _⟩ => ⟨S32x1x1024, .f32⟩
  | .hbm, ⟨20, _⟩ => ⟨S32x1024, .f32⟩
  | .hbm, ⟨21, _⟩ => ⟨S32x40, .f32⟩
  | .local _ .vmem, ⟨0, _⟩ => ⟨S1x1024x8, .f32⟩
  | .local _ .vmem, ⟨1, _⟩ => ⟨S1x1024x8, .f32⟩
  | .local _ .vmem, ⟨2, _⟩ => ⟨S3x8x128, .f32⟩
  | .local _ .vmem, ⟨3, _⟩ => ⟨S128, .f32⟩
  | .local _ .vmem, ⟨4, _⟩ => ⟨S3x128x512, .f32⟩
  | .local _ .vmem, ⟨5, _⟩ => ⟨S512, .f32⟩
  | .local _ .vmem, ⟨6, _⟩ => ⟨S3x512x1024, .f32⟩
  | .local _ .vmem, ⟨7, _⟩ => ⟨S1024, .f32⟩
  | .local _ .vmem, ⟨8, _⟩ => ⟨S1x1x1024, .f32⟩
  | .local _ .vmem, ⟨9, _⟩ => ⟨S1x1x1024, .f32⟩
  | .local _ .vmem, ⟨10, _⟩ => ⟨S32x1024, .f32⟩
  | .local _ .vmem, ⟨11, _⟩ => ⟨S1024x512, .f32⟩
  | .local _ .vmem, ⟨12, _⟩ => ⟨S512, .f32⟩
  | .local _ .vmem, ⟨13, _⟩ => ⟨S512x128, .f32⟩
  | .local _ .vmem, ⟨14, _⟩ => ⟨S128, .f32⟩
  | .local _ .vmem, ⟨15, _⟩ => ⟨S128x40, .f32⟩
  | .local _ .vmem, ⟨16, _⟩ => ⟨S40, .f32⟩
  | .local _ .vmem, ⟨17, _⟩ => ⟨S32x40, .f32⟩
  | _, _ => ⟨S32x1024x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_c : Ref sig .tc := ⟨.hbm, 13, rfl⟩
abbrev main_call0_v0 : Ref sig .tc := ⟨.hbm, 14, rfl⟩
abbrev main_v0 : Ref sig .tc := ⟨.hbm, 15, rfl⟩
abbrev main_c_0 : Ref sig .tc := ⟨.hbm, 16, rfl⟩
abbrev main_call1_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S3x128x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x512x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![1], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S32x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1024x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x40 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S40 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S32x40 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

class Facts₀ : Prop where
  pads_S32x1024x6_S32x1024x8_000_000_020 : S32x1024x6.Pads (![0, 0, 0] : Fin 3 → Nat) ![0, 0, 2] ![0, 0, 0] S32x1024x8
  h_S_ : 0 < S_.numel
  pads_S3x6x128_S3x8x128_000_020_000 : S3x6x128.Pads (![0, 0, 0] : Fin 3 → Nat) ![0, 2, 0] ![0, 0, 0] S3x8x128
  inb_S1x1024x8_S1x1024x8_0_0_0 : ∀ a, (![0, 0, 0] : Fin 3 → Nat) a + S1x1024x8.size a ≤ S1x1024x8.size a
  h_S1x1024x8 : 0 < S1x1024x8.numel
  shapeCasts_S1x1024x8_S1024x8 : S1x1024x8.ShapeCasts S1024x8
  inb_S3x8x128_S3x8x128_0_0_0 : ∀ a, (![0, 0, 0] : Fin 3 → Nat) a + S3x8x128.size a ≤ S3x8x128.size a
  h_S3x8x128 : 0 < S3x8x128.numel
  shapeCasts_S3x8x128_S3x8x128 : S3x8x128.ShapeCasts S3x8x128
  inb_S128_S128_0 : ∀ a, (![0] : Fin 1 → Nat) a + S128.size a ≤ S128.size a
  h_S128 : 0 < S128.numel
  reduces_S1024x8_S1024 : S1024x8.Reduces [1] S1024
  shapeCasts_S1024_S1024x1 : S1024.ShapeCasts S1024x1
  broadcasts_S1024x1_S1024x1024 : S1024x1.Broadcasts S1024x1024
  shapeCasts_S1024_S1x1024 : S1024.ShapeCasts S1x1024
  broadcasts_S1x1024_S1024x1024 : S1x1024.Broadcasts S1024x1024
  reduces_S1024x1024_S1024 : S1024x1024.Reduces [1] S1024
  bitsLt_bf16_f32 : FTy.bits .bf16 < FTy.bits .f32
  slices_S3x8x128_o0_0_0_S1x8x128 : S3x8x128.Slices ![0, 0, 0] S1x8x128
  shapeCasts_S1x8x128_S8x128 : S1x8x128.ShapeCasts S8x128
  slices_S3x8x128_o1_0_0_S1x8x128 : S3x8x128.Slices ![1, 0, 0] S1x8x128
  slices_S3x8x128_o2_0_0_S1x8x128 : S3x8x128.Slices ![2, 0, 0] S1x8x128
  shapeCasts_S128_S1x128 : S128.ShapeCasts S1x128
  broadcasts_S1x128_S1024x128 : S1x128.Broadcasts S1024x128
  inb_S3x128x512_S3x128x512_0_0_0 : ∀ a, (![0, 0, 0] : Fin 3 → Nat) a + S3x128x512.size a ≤ S3x128x512.size a
  h_S3x128x512 : 0 < S3x128x512.numel
  inb_S512_S512_0 : ∀ a, (![0] : Fin 1 → Nat) a + S512.size a ≤ S512.size a
  h_S512 : 0 < S512.numel
  reduces_S1024x128_S1024 : S1024x128.Reduces [1] S1024
  slices_S3x128x512_o0_0_0_S1x128x512 : S3x128x512.Slices ![0, 0, 0] S1x128x512
  shapeCasts_S1x128x512_S128x512 : S1x128x512.ShapeCasts S128x512
  slices_S3x128x512_o1_0_0_S1x128x512 : S3x128x512.Slices ![1, 0, 0] S1x128x512
  slices_S3x128x512_o2_0_0_S1x128x512 : S3x128x512.Slices ![2, 0, 0] S1x128x512
  shapeCasts_S512_S1x512 : S512.ShapeCasts S1x512
  broadcasts_S1x512_S1024x512 : S1x512.Broadcasts S1024x512
  inb_S3x512x1024_S3x512x1024_0_0_0 : ∀ a, (![0, 0, 0] : Fin 3 → Nat) a + S3x512x1024.size a ≤ S3x512x1024.size a
  h_S3x512x1024 : 0 < S3x512x1024.numel
  inb_S1024_S1024_0 : ∀ a, (![0] : Fin 1 → Nat) a + S1024.size a ≤ S1024.size a
  h_S1024 : 0 < S1024.numel
  reduces_S1024x512_S1024 : S1024x512.Reduces [1] S1024
  slices_S3x512x1024_o0_0_0_S1x512x1024 : S3x512x1024.Slices ![0, 0, 0] S1x512x1024
  shapeCasts_S1x512x1024_S512x1024 : S1x512x1024.ShapeCasts S512x1024
  slices_S3x512x1024_o1_0_0_S1x512x1024 : S3x512x1024.Slices ![1, 0, 0] S1x512x1024
  slices_S3x512x1024_o2_0_0_S1x512x1024 : S3x512x1024.Slices ![2, 0, 0] S1x512x1024
  reduces_S1024x1024_S1024_2 : S1024x1024.Reduces [0] S1024
  inb_S1x1x1024_S1x1x1024_0_0_0 : ∀ a, (![0, 0, 0] : Fin 3 → Nat) a + S1x1x1024.size a ≤ S1x1x1024.size a
  h_S1x1x1024 : 0 < S1x1x1024.numel
  shapeCasts_S1x1x1024_S1x1024 : S1x1x1024.ShapeCasts S1x1024
  shapeCasts_S1x1024_S1x1x1024 : S1x1024.ShapeCasts S1x1x1024
  shapeCasts_S32x1x1024_S32x1024 : S32x1x1024.ShapeCasts S32x1024
  inb_S32x1024_S32x1024_0_0 : ∀ a, (![0, 0] : Fin 2 → Nat) a + S32x1024.size a ≤ S32x1024.size a
  h_S32x1024 : 0 < S32x1024.numel
  shapeCasts_S32x1024_S32x1024 : S32x1024.ShapeCasts S32x1024
  inb_S1024x512_S1024x512_0_0 : ∀ a, (![0, 0] : Fin 2 → Nat) a + S1024x512.size a ≤ S1024x512.size a
  h_S1024x512 : 0 < S1024x512.numel
  inb_S512x128_S512x128_0_0 : ∀ a, (![0, 0] : Fin 2 → Nat) a + S512x128.size a ≤ S512x128.size a
  h_S512x128 : 0 < S512x128.numel
  inb_S128x40_S128x40_0_0 : ∀ a, (![0, 0] : Fin 2 → Nat) a + S128x40.size a ≤ S128x40.size a
  h_S128x40 : 0 < S128x40.numel
  inb_S40_S40_0 : ∀ a, (![0] : Fin 1 → Nat) a + S40.size a ≤ S40.size a
  h_S40 : 0 < S40.numel
  broadcasts_S1x512_S32x512 : S1x512.Broadcasts S32x512
  broadcasts_S1x128_S32x128 : S1x128.Broadcasts S32x128
  shapeCasts_S40_S1x40 : S40.ShapeCasts S1x40
  broadcasts_S1x40_S32x40 : S1x40.Broadcasts S32x40
  inb_S32x40_S32x40_0_0 : ∀ a, (![0, 0] : Fin 2 → Nat) a + S32x40.size a ≤ S32x40.size a
  h_S32x40 : 0 < S32x40.numel
  dot_S1024x8_S1024x8_S1024x1024_1_1_0_0_n_n_wf : DotDims.WF S1024x8 S1024x8 S1024x1024 [1] [1] [0] [0] [] []
  dot_S1024x1024_S1024x8_S1024x8_1_0_0_1_n_n_wf : DotDims.WF S1024x1024 S1024x8 S1024x8 [1] [0] [0] [1] [] []
  dot_S1024x8_S8x128_S1024x128_1_0_0_1_n_n_wf : DotDims.WF S1024x8 S8x128 S1024x128 [1] [0] [0] [1] [] []
  dot_S1024x128_S1024x128_S1024x1024_1_1_0_0_n_n_wf : DotDims.WF S1024x128 S1024x128 S1024x1024 [1] [1] [0] [0] [] []
  dot_S1024x1024_S1024x128_S1024x128_1_0_0_1_n_n_wf : DotDims.WF S1024x1024 S1024x128 S1024x128 [1] [0] [0] [1] [] []
  dot_S1024x128_S128x512_S1024x512_1_0_0_1_n_n_wf : DotDims.WF S1024x128 S128x512 S1024x512 [1] [0] [0] [1] [] []
  dot_S1024x512_S1024x512_S1024x1024_1_1_0_0_n_n_wf : DotDims.WF S1024x512 S1024x512 S1024x1024 [1] [1] [0] [0] [] []
  dot_S1024x1024_S1024x512_S1024x512_1_0_0_1_n_n_wf : DotDims.WF S1024x1024 S1024x512 S1024x512 [1] [0] [0] [1] [] []
  dot_S1024x512_S512x1024_S1024x1024_1_0_0_1_n_n_wf : DotDims.WF S1024x512 S512x1024 S1024x1024 [1] [0] [0] [1] [] []
  dot_S32x1024_S1024x512_S32x512_1_0_0_1_n_n_wf : DotDims.WF S32x1024 S1024x512 S32x512 [1] [0] [0] [1] [] []
  dot_S32x512_S512x128_S32x128_1_0_0_1_n_n_wf : DotDims.WF S32x512 S512x128 S32x128 [1] [0] [0] [1] [] []
  dot_S32x128_S128x40_S32x40_1_0_0_1_n_n_wf : DotDims.WF S32x128 S128x40 S32x40 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x8.size a ≤ S32x1024x8.size a
  hwx0_0 : ∀ i : grid0.Coords, EltTy.bits .f32 = 32 ∨ (Rect.block (s := S32x1024x8) S1x1024x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x8x128.size a ≤ S3x8x128.size a
  hwx0_1 : ∀ i : grid0.Coords, EltTy.bits .f32 = 32 ∨ (Rect.block (s := S3x8x128) S3x8x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S3x128x512.size a ≤ S3x128x512.size a
  hwx0_3 : ∀ i : grid0.Coords, EltTy.bits .f32 = 32 ∨ (Rect.block (s := S3x128x512) S3x128x512.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512.size a ≤ S512.size a
  hwx0_4 : ∀ i : grid0.Coords, EltTy.bits .f32 = 32 ∨ (Rect.block (s := S512) S512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S3x512x1024.size a ≤ S3x512x1024.size a
  hwx0_5 : ∀ i : grid0.Coords, EltTy.bits .f32 = 32 ∨ (Rect.block (s := S3x512x1024) S3x512x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1024.size a ≤ S1024.size a
  hwx0_6 : ∀ i : grid0.Coords, EltTy.bits .f32 = 32 ∨ (Rect.block (s := S1024) S1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x1024.size a ≤ S32x1x1024.size a
  hwx0_7 : ∀ i : grid0.Coords, EltTy.bits .f32 = 32 ∨ (Rect.block (s := S32x1x1024) S1x1x1024.size (cc0_transform_7 i) (hinb0_7 i)).WholeWords (EltTy.packing .f32)
  hrank1 : 0 < grid1.rank
  hstage1_0 : ∀ j, (stage1_0 j).IsWhole
  nbuf1_0 : grid1.bufCount reads1_0 true = 1
  hreads1_0 : ∀ i i' : grid1.Coords, (∀ a, reads1_0 a = true → i a = i' a) → cc1_transform_0 i = cc1_transform_0 i'
  hinb1_0 : ∀ (i : grid1.Coords) a, (cc1_transform_0 i a + 1) * S32x1024.size a ≤ S32x1024.size a
  hwx1_0 : ∀ i : grid1.Coords, EltTy.bits .f32 = 32 ∨ (Rect.block (s := S32x1024) S32x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x512.size a ≤ S1024x512.size a
  hwx1_1 : ∀ i : grid1.Coords, EltTy.bits .f32 = 32 ∨ (Rect.block (s := S1024x512) S1024x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S512.size a ≤ S512.size a
  hwx1_2 : ∀ i : grid1.Coords, EltTy.bits .f32 = 32 ∨ (Rect.block (s := S512) S512.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S512x128.size a ≤ S512x128.size a
  hwx1_3 : ∀ i : grid1.Coords, EltTy.bits .f32 = 32 ∨ (Rect.block (s := S512x128) S512x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x40.size a ≤ S128x40.size a
  hwx1_5 : ∀ i : grid1.Coords, EltTy.bits .f32 = 32 ∨ (Rect.block (s := S128x40) S128x40.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S40.size a ≤ S40.size a
  hwx1_6 : ∀ i : grid1.Coords, EltTy.bits .f32 = 32 ∨ (Rect.block (s := S40) S40.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S32x40.size a ≤ S32x40.size a
  hwx1_7 : ∀ i : grid1.Coords, EltTy.bits .f32 = 32 ∨ (Rect.block (s := S32x40) S32x40.size (cc1_transform_7 i) (hinb1_7 i)).WholeWords (EltTy.packing .f32)

variable [Facts₀]

def dot_S1024x8_S1024x8_S1024x1024_1_1_0_0_n_n : DotDims S1024x8 S1024x8 S1024x1024 where
  lhsContracting := [1]
  rhsContracting := [1]
  lhsNonContracting := [0]
  rhsNonContracting := [0]
  lhsBatch := []
  rhsBatch := []
  wf := dot_S1024x8_S1024x8_S1024x1024_1_1_0_0_n_n_wf
def dot_S1024x1024_S1024x8_S1024x8_1_0_0_1_n_n : DotDims S1024x1024 S1024x8 S1024x8 where
  lhsContracting := [1]
  rhsContracting := [0]
  lhsNonContracting := [0]
  rhsNonContracting := [1]
  lhsBatch := []
  rhsBatch := []
  wf := dot_S1024x1024_S1024x8_S1024x8_1_0_0_1_n_n_wf
def dot_S1024x8_S8x128_S1024x128_1_0_0_1_n_n : DotDims S1024x8 S8x128 S1024x128 where
  lhsContracting := [1]
  rhsContracting := [0]
  lhsNonContracting := [0]
  rhsNonContracting := [1]
  lhsBatch := []
  rhsBatch := []
  wf := dot_S1024x8_S8x128_S1024x128_1_0_0_1_n_n_wf
def dot_S1024x128_S1024x128_S1024x1024_1_1_0_0_n_n : DotDims S1024x128 S1024x128 S1024x1024 where
  lhsContracting := [1]
  rhsContracting := [1]
  lhsNonContracting := [0]
  rhsNonContracting := [0]
  lhsBatch := []
  rhsBatch := []
  wf := dot_S1024x128_S1024x128_S1024x1024_1_1_0_0_n_n_wf
def dot_S1024x1024_S1024x128_S1024x128_1_0_0_1_n_n : DotDims S1024x1024 S1024x128 S1024x128 where
  lhsContracting := [1]
  rhsContracting := [0]
  lhsNonContracting := [0]
  rhsNonContracting := [1]
  lhsBatch := []
  rhsBatch := []
  wf := dot_S1024x1024_S1024x128_S1024x128_1_0_0_1_n_n_wf
def dot_S1024x128_S128x512_S1024x512_1_0_0_1_n_n : DotDims S1024x128 S128x512 S1024x512 where
  lhsContracting := [1]
  rhsContracting := [0]
  lhsNonContracting := [0]
  rhsNonContracting := [1]
  lhsBatch := []
  rhsBatch := []
  wf := dot_S1024x128_S128x512_S1024x512_1_0_0_1_n_n_wf
def dot_S1024x512_S1024x512_S1024x1024_1_1_0_0_n_n : DotDims S1024x512 S1024x512 S1024x1024 where
  lhsContracting := [1]
  rhsContracting := [1]
  lhsNonContracting := [0]
  rhsNonContracting := [0]
  lhsBatch := []
  rhsBatch := []
  wf := dot_S1024x512_S1024x512_S1024x1024_1_1_0_0_n_n_wf
def dot_S1024x1024_S1024x512_S1024x512_1_0_0_1_n_n : DotDims S1024x1024 S1024x512 S1024x512 where
  lhsContracting := [1]
  rhsContracting := [0]
  lhsNonContracting := [0]
  rhsNonContracting := [1]
  lhsBatch := []
  rhsBatch := []
  wf := dot_S1024x1024_S1024x512_S1024x512_1_0_0_1_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S32x128_S128x40_S32x40_1_0_0_1_n_n : DotDims S32x128 S128x40 S32x40 where
  lhsContracting := [1]
  rhsContracting := [0]
  lhsNonContracting := [0]
  rhsNonContracting := [1]
  lhsBatch := []
  rhsBatch := []
  wf := dot_S32x128_S128x40_S32x40_1_0_0_1_n_n_wf

abbrev win0_0 : Pipeline.Window sig grid0 :=
  Pipeline.Window.ofSpec (Memref.whole main_v0) S1x1024x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S3x8x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S3x128x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S3x512x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v2) S1x1x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v3) S32x1024.size cc1_transform_0 reads1_0 false true 1 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S1024x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg9) S512x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg10) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg11) S128x40.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg12) S40.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v4) S32x40.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

class Facts : Prop extends Facts₀ where

variable [Facts]
-- ==== ReferenceIdeal.lean ====
abbrev S32x1024x6 : Shape := ⟨3, ![32, 1024, 6]⟩
abbrev S3x6x128 : Shape := ⟨3, ![3, 6, 128]⟩
abbrev S128 : Shape := ⟨1, ![128]⟩
abbrev S3x128x512 : Shape := ⟨3, ![3, 128, 512]⟩
abbrev S512 : Shape := ⟨1, ![512]⟩
abbrev S3x512x1024 : Shape := ⟨3, ![3, 512, 1024]⟩
abbrev S1024 : Shape := ⟨1, ![1024]⟩
abbrev S1024x512 : Shape := ⟨2, ![1024, 512]⟩
abbrev S512x128 : Shape := ⟨2, ![512, 128]⟩
abbrev S128x40 : Shape := ⟨2, ![128, 40]⟩
abbrev S40 : Shape := ⟨1, ![40]⟩
abbrev S32x1024x1024 : Shape := ⟨3, ![32, 1024, 1024]⟩
abbrev S_ : Shape := ⟨0, ![]⟩
abbrev S32x1024 : Shape := ⟨2, ![32, 1024]⟩
abbrev S32x1024x1 : Shape := ⟨3, ![32, 1024, 1]⟩
abbrev S32x1x1024 : Shape := ⟨3, ![32, 1, 1024]⟩
abbrev S1024x1024 : Shape := ⟨2, ![1024, 1024]⟩
abbrev S1x1024x1024 : Shape := ⟨3, ![1, 1024, 1024]⟩
abbrev S1x6x128 : Shape := ⟨3, ![1, 6, 128]⟩
abbrev S6x128 : Shape := ⟨2, ![6, 128]⟩
abbrev S32x1024x128 : Shape := ⟨3, ![32, 1024, 128]⟩
abbrev S1x1x128 : Shape := ⟨3, ![1, 1, 128]⟩
abbrev S1x128x512 : Shape := ⟨3, ![1, 128, 512]⟩
abbrev S128x512 : Shape := ⟨2, ![128, 512]⟩
abbrev S32x1024x512 : Shape := ⟨3, ![32, 1024, 512]⟩
abbrev S1x1x512 : Shape := ⟨3, ![1, 1, 512]⟩
abbrev S1x512x1024 : Shape := ⟨3, ![1, 512, 1024]⟩
abbrev S512x1024 : Shape := ⟨2, ![512, 1024]⟩
abbrev S1x1x1024 : Shape := ⟨3, ![1, 1, 1024]⟩
abbrev S32x512 : Shape := ⟨2, ![32, 512]⟩
abbrev S1x512 : Shape := ⟨2, ![1, 512]⟩
abbrev S32x128 : Shape := ⟨2, ![32, 128]⟩
abbrev S1x128 : Shape := ⟨2, ![1, 128]⟩
abbrev S32x40 : Shape := ⟨2, ![32, 40]⟩
abbrev S1x40 : Shape := ⟨2, ![1, 40]⟩

abbrev nBuf : Space → Nat
  | .hbm => 213
  | .vmem => 0
  | .smem => 0
  | _ => 0

abbrev hbmTy0_0 (i : Nat) : BufTy := match i % 128 with
  | 0 => ⟨S32x1024x6, .f32⟩
  | 1 => ⟨S3x6x128, .f32⟩
  | 2 => ⟨S128, .f32⟩
  | 3 => ⟨S3x128x512, .f32⟩
  | 4 => ⟨S512, .f32⟩
  | 5 => ⟨S3x512x1024, .f32⟩
  | 6 => ⟨S1024, .f32⟩
  | 7 => ⟨S1024x512, .f32⟩
  | 8 => ⟨S512, .f32⟩
  | 9 => ⟨S512x128, .f32⟩
  | 10 => ⟨S128, .f32⟩
  | 11 => ⟨S128x40, .f32⟩
  | 12 => ⟨S40, .f32⟩
  | 13 => ⟨S32x1024x1024, .f32⟩
  | 14 => ⟨S32x1024x6, .f32⟩
  | 15 => ⟨S_, .f32⟩
  | 16 => ⟨S32x1024, .f32⟩
  | 17 => ⟨S32x1024x1, .f32⟩
  | 18 => ⟨S_, .f32⟩
  | 19 => ⟨S32x1024x1024, .f32⟩
  | 20 => ⟨S32x1024x1024, .f32⟩
  | 21 => ⟨S32x1024x1024, .f32⟩
  | 22 => ⟨S32x1024x1024, .f32⟩
  | 23 => ⟨S32x1x1024, .f32⟩
  | 24 => ⟨S32x1024x1024, .f32⟩
  | 25 => ⟨S32x1024x1024, .f32⟩
  | 26 => ⟨S32x1024x1024, .f32⟩
  | 27 => ⟨S32x1024x1024, .f32⟩
  | 28 => ⟨S_, .f32⟩
  | 29 => ⟨S32x1024, .f32⟩
  | 30 => ⟨S32x1024, .f32⟩
  | 31 => ⟨S_, .f32⟩
  | 32 => ⟨S32x1024, .f32⟩
  | 33 => ⟨S32x1024, .f32⟩
  | 34 => ⟨S1024x1024, .i32⟩
  | 35 => ⟨S1024x1024, .i32⟩
  | 36 => ⟨S_, .i32⟩
  | 37 => ⟨S1024x1024, .i32⟩
  | 38 => ⟨S1024x1024, .i32⟩
  | 39 => ⟨S1024x1024, .i1⟩
  | 40 => ⟨S1024x1024, .f32⟩
  | 41 => ⟨S32x1024x1, .f32⟩
  | 42 => ⟨S32x1024x1024, .f32⟩
  | 43 => ⟨S32x1024x1024, .f32⟩
  | 44 => ⟨S32x1x1024, .f32⟩
  | 45 => ⟨S32x1024x1024, .f32⟩
  | 46 => ⟨S32x1024x1024, .f32⟩
  | 47 => ⟨S1x1024x1024, .f32⟩
  | 48 => ⟨S32x1024x1024, .f32⟩
  | 49 => ⟨S32x1024x1024, .f32⟩
  | 50 => ⟨S32x1024x6, .f32⟩
  | 51 => ⟨S1x6x128, .f32⟩
  | 52 => ⟨S6x128, .f32⟩
  | 53 => ⟨S32x1024x128, .f32⟩
  | 54 => ⟨S1x6x128, .f32⟩
  | 55 => ⟨S6x128, .f32⟩
  | 56 => ⟨S32x1024x128, .f32⟩
  | 57 => ⟨S32x1024x128, .f32⟩
  | 58 => ⟨S32x1024x6, .f32⟩
  | 59 => ⟨S_, .f32⟩
  | 60 => ⟨S32x1024x6, .f32⟩
  | 61 => ⟨S32x1024x6, .f32⟩
  | 62 => ⟨S32x1024x6, .f32⟩
  | 63 => ⟨S1x6x128, .f32⟩
  | 64 => ⟨S6x128, .f32⟩
  | 65 => ⟨S32x1024x128, .f32⟩
  | 66 => ⟨S32x1024x128, .f32⟩
  | 67 => ⟨S1x1x128, .f32⟩
  | 68 => ⟨S32x1024x128, .f32⟩
  | 69 => ⟨S32x1024x128, .f32⟩
  | 70 => ⟨S_, .f32⟩
  | 71 => ⟨S32x1024x128, .f32⟩
  | 72 => ⟨S32x1024x128, .f32⟩
  | 73 => ⟨S32x1024x1024, .f32⟩
  | 74 => ⟨S32x1024x128, .f32⟩
  | 75 => ⟨S_, .f32⟩
  | 76 => ⟨S32x1024, .f32⟩
  | 77 => ⟨S32x1024x1, .f32⟩
  | 78 => ⟨S_, .f32⟩
  | 79 => ⟨S32x1024x1024, .f32⟩
  | 80 => ⟨S32x1024x1024, .f32⟩
  | 81 => ⟨S32x1024x1024, .f32⟩
  | 82 => ⟨S32x1024x1024, .f32⟩
  | 83 => ⟨S32x1x1024, .f32⟩
  | 84 => ⟨S32x1024x1024, .f32⟩
  | 85 => ⟨S32x1024x1024, .f32⟩
  | 86 => ⟨S32x1024x1024, .f32⟩
  | 87 => ⟨S32x1024x1024, .f32⟩
  | 88 => ⟨S_, .f32⟩
  | 89 => ⟨S32x1024, .f32⟩
  | 90 => ⟨S32x1024, .f32⟩
  | 91 => ⟨S_, .f32⟩
  | 92 => ⟨S32x1024, .f32⟩
  | 93 => ⟨S32x1024, .f32⟩
  | 94 => ⟨S1024x1024, .i32⟩
  | 95 => ⟨S1024x1024, .i32⟩
  | 96 => ⟨S_, .i32⟩
  | 97 => ⟨S1024x1024, .i32⟩
  | 98 => ⟨S1024x1024, .i32⟩
  | 99 => ⟨S1024x1024, .i1⟩
  | 100 => ⟨S1024x1024, .f32⟩
  | 101 => ⟨S32x1024x1, .f32⟩
  | 102 => ⟨S32x1024x1024, .f32⟩
  | 103 => ⟨S32x1024x1024, .f32⟩
  | 104 => ⟨S32x1x1024, .f32⟩
  | 105 => ⟨S32x1024x1024, .f32⟩
  | 106 => ⟨S32x1024x1024, .f32⟩
  | 107 => ⟨S1x1024x1024, .f32⟩
  | 108 => ⟨S32x1024x1024, .f32⟩
  | 109 => ⟨S32x1024x1024, .f32⟩
  | 110 => ⟨S32x1024x128, .f32⟩
  | 111 => ⟨S1x128x512, .f32⟩
  | 112 => ⟨S128x512, .f32⟩
  | 113 => ⟨S32x1024x512, .f32⟩
  | 114 => ⟨S1x128x512, .f32⟩
  | 115 => ⟨S128x512, .f32⟩
  | 116 => ⟨S32x1024x512, .f32⟩
  | 117 => ⟨S32x1024x512, .f32⟩
  | 118 => ⟨S32x1024x128, .f32⟩
  | 119 => ⟨S_, .f32⟩
  | 120 => ⟨S32x1024x128, .f32⟩
  | 121 => ⟨S32x1024x128, .f32⟩
  | 122 => ⟨S32x1024x128, .f32⟩
  | 123 => ⟨S1x128x512, .f32⟩
  | 124 => ⟨S128x512, .f32⟩
  | 125 => ⟨S32x1024x512, .f32⟩
  | 126 => ⟨S32x1024x512, .f32⟩
  | 127 => ⟨S1x1x512, .f32⟩
  | _ => ⟨S32x1024x6, .f32⟩

abbrev hbmTy0_1 (i : Nat) : BufTy := match i % 128 with
  | 0 => ⟨S32x1024x512, .f32⟩
  | 1 => ⟨S32x1024x512, .f32⟩
  | 2 => ⟨S_, .f32⟩
  | 3 => ⟨S32x1024x512, .f32⟩
  | 4 => ⟨S32x1024x512, .f32⟩
  | 5 => ⟨S32x1024x1024, .f32⟩
  | 6 => ⟨S32x1024x512, .f32⟩
  | 7 => ⟨S_, .f32⟩
  | 8 => ⟨S32x1024, .f32⟩
  | 9 => ⟨S32x1024x1, .f32⟩
  | 10 => ⟨S_, .f32⟩
  | 11 => ⟨S32x1024x1024, .f32⟩
  | 12 => ⟨S32x1024x1024, .f32⟩
  | 13 => ⟨S32x1024x1024, .f32⟩
  | 14 => ⟨S32x1024x1024, .f32⟩
  | 15 => ⟨S32x1x1024, .f32⟩
  | 16 => ⟨S32x1024x1024, .f32⟩
  | 17 => ⟨S32x1024x1024, .f32⟩
  | 18 => ⟨S32x1024x1024, .f32⟩
  | 19 => ⟨S32x1024x1024, .f32⟩
  | 20 => ⟨S_, .f32⟩
  | 21 => ⟨S32x1024, .f32⟩
  | 22 => ⟨S32x1024, .f32⟩
  | 23 => ⟨S_, .f32⟩
  | 24 => ⟨S32x1024, .f32⟩
  | 25 => ⟨S32x1024, .f32⟩
  | 26 => ⟨S1024x1024, .i32⟩
  | 27 => ⟨S1024x1024, .i32⟩
  | 28 => ⟨S_, .i32⟩
  | 29 => ⟨S1024x1024, .i32⟩
  | 30 => ⟨S1024x1024, .i32⟩
  | 31 => ⟨S1024x1024, .i1⟩
  | 32 => ⟨S1024x1024, .f32⟩
  | 33 => ⟨S32x1024x1, .f32⟩
  | 34 => ⟨S32x1024x1024, .f32⟩
  | 35 => ⟨S32x1024x1024, .f32⟩
  | 36 => ⟨S32x1x1024, .f32⟩
  | 37 => ⟨S32x1024x1024, .f32⟩
  | 38 => ⟨S32x1024x1024, .f32⟩
  | 39 => ⟨S1x1024x1024, .f32⟩
  | 40 => ⟨S32x1024x1024, .f32⟩
  | 41 => ⟨S32x1024x1024, .f32⟩
  | 42 => ⟨S32x1024x512, .f32⟩
  | 43 => ⟨S1x512x1024, .f32⟩
  | 44 => ⟨S512x1024, .f32⟩
  | 45 => ⟨S32x1024x1024, .f32⟩
  | 46 => ⟨S1x512x1024, .f32⟩
  | 47 => ⟨S512x1024, .f32⟩
  | 48 => ⟨S32x1024x1024, .f32⟩
  | 49 => ⟨S32x1024x1024, .f32⟩
  | 50 => ⟨S32x1024x512, .f32⟩
  | 51 => ⟨S_, .f32⟩
  | 52 => ⟨S32x1024x512, .f32⟩
  | 53 => ⟨S32x1024x512, .f32⟩
  | 54 => ⟨S32x1024x512, .f32⟩
  | 55 => ⟨S1x512x1024, .f32⟩
  | 56 => ⟨S512x1024, .f32⟩
  | 57 => ⟨S32x1024x1024, .f32⟩
  | 58 => ⟨S32x1024x1024, .f32⟩
  | 59 => ⟨S1x1x1024, .f32⟩
  | 60 => ⟨S32x1024x1024, .f32⟩
  | 61 => ⟨S32x1024x1024, .f32⟩
  | 62 => ⟨S_, .f32⟩
  | 63 => ⟨S32x1024x1024, .f32⟩
  | 64 => ⟨S32x1024x1024, .f32⟩
  | 65 => ⟨S_, .f32⟩
  | 66 => ⟨S32x1024, .f32⟩
  | 67 => ⟨S32x512, .f32⟩
  | 68 => ⟨S1x512, .f32⟩
  | 69 => ⟨S32x512, .f32⟩
  | 70 => ⟨S32x512, .f32⟩
  | 71 => ⟨S_, .f32⟩
  | 72 => ⟨S32x512, .f32⟩
  | 73 => ⟨S32x512, .f32⟩
  | 74 => ⟨S32x128, .f32⟩
  | 75 => ⟨S1x128, .f32⟩
  | 76 => ⟨S32x128, .f32⟩
  | 77 => ⟨S32x128, .f32⟩
  | 78 => ⟨S_, .f32⟩
  | 79 => ⟨S32x128, .f32⟩
  | 80 => ⟨S32x128, .f32⟩
  | 81 => ⟨S32x40, .f32⟩
  | 82 => ⟨S1x40, .f32⟩
  | 83 => ⟨S32x40, .f32⟩
  | 84 => ⟨S32x40, .f32⟩
  | _ => ⟨S32x1024x6, .f32⟩

abbrev hbmTy (i : Nat) : BufTy := match i / 128 with
  | 0 => hbmTy0_0 i
  | 1 => hbmTy0_1 i
  | _ => ⟨S32x1024x6, .f32⟩

abbrev bufTy : (tb : Table) → Fin (tcTables nBuf tb) → BufTy
  | .hbm, ⟨i, _⟩ => hbmTy i
  | _, _ => ⟨S32x1024x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_cst_1 : Ref sig .tc := ⟨.hbm, 28, rfl⟩
abbrev main_v13 : Ref sig .tc := ⟨.hbm, 29, rfl⟩
abbrev main_v14 : Ref sig .tc := ⟨.hbm, 30, rfl⟩
abbrev main_cst_2 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_c : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_3 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_call0_cst : Ref sig .tc := ⟨.hbm, 70, rfl⟩
abbrev main_call0_v0 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_4 : Ref sig .tc := ⟨.hbm, 75, rfl⟩
abbrev main_v54 : Ref sig .tc := ⟨.hbm, 76, rfl⟩
abbrev main_v55 : Ref sig .tc := ⟨.hbm, 77, rfl⟩
abbrev main_cst_5 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_cst_6 : Ref sig .tc := ⟨.hbm, 88, rfl⟩
abbrev main_v65 : Ref sig .tc := ⟨.hbm, 89, rfl⟩
abbrev main_v66 : Ref sig .tc := ⟨.hbm, 90, rfl⟩
abbrev main_cst_7 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_c_8 : Ref sig .tc := ⟨.hbm, 96, rfl⟩
abbrev main_v71 : Ref sig .tc := ⟨.hbm, 97, rfl⟩
abbrev main_v72 : Ref sig .tc := ⟨.hbm, 98, rfl⟩
abbrev main_v73 : Ref sig .tc := ⟨.hbm, 99, rfl⟩
abbrev main_v74 : Ref sig .tc := ⟨.hbm, 100, rfl⟩
abbrev main_v75 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩
abbrev main_v81 : Ref sig .tc := ⟨.hbm, 107, rfl⟩
abbrev main_v82 : Ref sig .tc := ⟨.hbm, 108, rfl⟩
abbrev main_v83 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_v89 : Ref sig .tc := ⟨.hbm, 115, rfl⟩
abbrev main_v90 : Ref sig .tc := ⟨.hbm, 116, rfl⟩
abbrev main_v91 : Ref sig .tc := ⟨.hbm, 117, rfl⟩
abbrev main_v92 : Ref sig .tc := ⟨.hbm, 118, rfl⟩
abbrev main_cst_9 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩
abbrev main_v99 : Ref sig .tc := ⟨.hbm, 126, rfl⟩
abbrev main_v100 : Ref sig .tc := ⟨.hbm, 127, rfl⟩
abbrev main_v101 : Ref sig .tc := ⟨.hbm, 128, rfl⟩
abbrev main_v102 : Ref sig .tc := ⟨.hbm, 129, rfl⟩
abbrev main_call1_cst : Ref sig .tc := ⟨.hbm, 130, rfl⟩
abbrev main_call1_v0 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_cst_10 : Ref sig .tc := ⟨.hbm, 135, rfl⟩
abbrev main_v106 : Ref sig .tc := ⟨.hbm, 136, rfl⟩
abbrev main_v107 : Ref sig .tc := ⟨.hbm, 137, rfl⟩
abbrev main_cst_11 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_cst_12 : Ref sig .tc := ⟨.hbm, 148, rfl⟩
abbrev main_v117 : Ref sig .tc := ⟨.hbm, 149, rfl⟩
abbrev main_v118 : Ref sig .tc := ⟨.hbm, 150, rfl⟩
abbrev main_cst_13 : Ref sig .tc := ⟨.hbm, 151, rfl⟩
abbrev main_v119 : Ref sig .tc := ⟨.hbm, 152, rfl⟩
abbrev main_v120 : Ref sig .tc := ⟨.hbm, 153, rfl⟩
abbrev main_v121 : Ref sig .tc := ⟨.hbm, 154, rfl⟩
abbrev main_v122 : Ref sig .tc := ⟨.hbm, 155, rfl⟩
abbrev main_c_14 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_cst_15 : Ref sig .tc := ⟨.hbm, 179, rfl⟩
abbrev main_v145 : Ref sig .tc := ⟨.hbm, 180, rfl⟩
abbrev main_v146 : Ref sig .tc := ⟨.hbm, 181, rfl⟩
abbrev main_v147 : Ref sig .tc := ⟨.hbm, 182, rfl⟩
abbrev main_v148 : Ref sig .tc := ⟨.hbm, 183, rfl⟩
abbrev main_v149 : Ref sig .tc := ⟨.hbm, 184, rfl⟩
abbrev main_v150 : Ref sig .tc := ⟨.hbm, 185, rfl⟩
abbrev main_v151 : Ref sig .tc := ⟨.hbm, 186, rfl⟩
abbrev main_v152 : Ref sig .tc := ⟨.hbm, 187, rfl⟩
abbrev main_v153 : Ref sig .tc := ⟨.hbm, 188, rfl⟩
abbrev main_v154 : Ref sig .tc := ⟨.hbm, 189, rfl⟩
abbrev main_call2_cst : Ref sig .tc := ⟨.hbm, 190, rfl⟩
abbrev main_call2_v0 : Ref sig .tc := ⟨.hbm, 191, rfl⟩
abbrev main_v155 : Ref sig .tc := ⟨.hbm, 192, rfl⟩
abbrev main_cst_16 : Ref sig .tc := ⟨.hbm, 193, rfl⟩
abbrev main_v156 : Ref sig .tc := ⟨.hbm, 194, rfl⟩
abbrev main_v157 : Ref sig .tc := ⟨.hbm, 195, rfl⟩
abbrev main_v158 : Ref sig .tc := ⟨.hbm, 196, rfl⟩
abbrev main_v159 : Ref sig .tc := ⟨.hbm, 197, rfl⟩
abbrev main_v160 : Ref sig .tc := ⟨.hbm, 198, rfl⟩
abbrev main_call3_cst : Ref sig .tc := ⟨.hbm, 199, rfl⟩
abbrev main_call3_v0 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_call4_cst : Ref sig .tc := ⟨.hbm, 206, rfl⟩
abbrev main_call4_v0 : Ref sig .tc := ⟨.hbm, 207, rfl⟩
abbrev main_v166 : Ref sig .tc := ⟨.hbm, 208, rfl⟩
abbrev main_v167 : Ref sig .tc := ⟨.hbm, 209, rfl⟩
abbrev main_v168 : Ref sig .tc := ⟨.hbm, 210, rfl⟩
abbrev main_v169 : Ref sig .tc := ⟨.hbm, 211, rfl⟩
abbrev main_v170 : Ref sig .tc := ⟨.hbm, 212, rfl⟩

abbrev nD : Nat := 1
abbrev τ : Topo := Topo.v7x

variable {F : FTy → Type} [FloatOps F]

class Facts₀ : Prop where
  reducesTo_S32x1024x6_S32x1024_d2 : S32x1024x6.ReducesTo [2] S32x1024
  h_S_ : 0 < S_.numel
  bcast_S32x1024_S32x1024x1_0_1 : S32x1024.BroadcastsInDim S32x1024x1 (![0, 1] : Fin 2 → Fin S32x1024x1.rank)
  bcast_S_S32x1024x1024 : S_.BroadcastsInDim S32x1024x1024 (![] : Fin 0 → Fin S32x1024x1024.rank)
  bcast_S32x1024x1_S32x1024x1024_0_1_2 : S32x1024x1.BroadcastsInDim S32x1024x1024 (![0, 1, 2] : Fin 3 → Fin S32x1024x1024.rank)
  bcast_S32x1024_S32x1x1024_0_2 : S32x1024.BroadcastsInDim S32x1x1024 (![0, 2] : Fin 2 → Fin S32x1x1024.rank)
  bcast_S32x1x1024_S32x1024x1024_0_1_2 : S32x1x1024.BroadcastsInDim S32x1024x1024 (![0, 1, 2] : Fin 3 → Fin S32x1024x1024.rank)
  reducesTo_S32x1024x1024_S32x1024_d2 : S32x1024x1024.ReducesTo [2] S32x1024
  bcast_S_S32x1024 : S_.BroadcastsInDim S32x1024 (![] : Fin 0 → Fin S32x1024.rank)
  bcast_S_S1024x1024 : S_.BroadcastsInDim S1024x1024 (![] : Fin 0 → Fin S1024x1024.rank)
  bcast_S1024x1024_S1x1024x1024_1_2 : S1024x1024.BroadcastsInDim S1x1024x1024 (![1, 2] : Fin 2 → Fin S1x1024x1024.rank)
  bcast_S1x1024x1024_S32x1024x1024_0_1_2 : S1x1024x1024.BroadcastsInDim S32x1024x1024 (![0, 1, 2] : Fin 3 → Fin S32x1024x1024.rank)
  slices_S3x6x128_S1x6x128_0_0_0 : S3x6x128.Slices ![0, 0, 0] S1x6x128
  shapeCasts_S1x6x128_S6x128 : S1x6x128.ShapeCasts S6x128
  slices_S3x6x128_S1x6x128_1_0_0 : S3x6x128.Slices ![1, 0, 0] S1x6x128
  bcast_S_S32x1024x6 : S_.BroadcastsInDim S32x1024x6 (![] : Fin 0 → Fin S32x1024x6.rank)
  slices_S3x6x128_S1x6x128_2_0_0 : S3x6x128.Slices ![2, 0, 0] S1x6x128
  bcast_S128_S1x1x128_2 : S128.BroadcastsInDim S1x1x128 (![2] : Fin 1 → Fin S1x1x128.rank)
  bcast_S1x1x128_S32x1024x128_0_1_2 : S1x1x128.BroadcastsInDim S32x1024x128 (![0, 1, 2] : Fin 3 → Fin S32x1024x128.rank)
  bcast_S_S32x1024x128 : S_.BroadcastsInDim S32x1024x128 (![] : Fin 0 → Fin S32x1024x128.rank)
  reducesTo_S32x1024x128_S32x1024_d2 : S32x1024x128.ReducesTo [2] S32x1024
  slices_S3x128x512_S1x128x512_0_0_0 : S3x128x512.Slices ![0, 0, 0] S1x128x512
  shapeCasts_S1x128x512_S128x512 : S1x128x512.ShapeCasts S128x512
  slices_S3x128x512_S1x128x512_1_0_0 : S3x128x512.Slices ![1, 0, 0] S1x128x512
  slices_S3x128x512_S1x128x512_2_0_0 : S3x128x512.Slices ![2, 0, 0] S1x128x512
  bcast_S512_S1x1x512_2 : S512.BroadcastsInDim S1x1x512 (![2] : Fin 1 → Fin S1x1x512.rank)
  bcast_S1x1x512_S32x1024x512_0_1_2 : S1x1x512.BroadcastsInDim S32x1024x512 (![0, 1, 2] : Fin 3 → Fin S32x1024x512.rank)
  bcast_S_S32x1024x512 : S_.BroadcastsInDim S32x1024x512 (![] : Fin 0 → Fin S32x1024x512.rank)
  reducesTo_S32x1024x512_S32x1024_d2 : S32x1024x512.ReducesTo [2] S32x1024
  slices_S3x512x1024_S1x512x1024_0_0_0 : S3x512x1024.Slices ![0, 0, 0] S1x512x1024
  shapeCasts_S1x512x1024_S512x1024 : S1x512x1024.ShapeCasts S512x1024
  slices_S3x512x1024_S1x512x1024_1_0_0 : S3x512x1024.Slices ![1, 0, 0] S1x512x1024
  slices_S3x512x1024_S1x512x1024_2_0_0 : S3x512x1024.Slices ![2, 0, 0] S1x512x1024
  bcast_S1024_S1x1x1024_2 : S1024.BroadcastsInDim S1x1x1024 (![2] : Fin 1 → Fin S1x1x1024.rank)
  bcast_S1x1x1024_S32x1024x1024_0_1_2 : S1x1x1024.BroadcastsInDim S32x1024x1024 (![0, 1, 2] : Fin 3 → Fin S32x1024x1024.rank)
  reducesTo_S32x1024x1024_S32x1024_d1 : S32x1024x1024.ReducesTo [1] S32x1024
  bcast_S512_S1x512_1 : S512.BroadcastsInDim S1x512 (![1] : Fin 1 → Fin S1x512.rank)
  bcast_S1x512_S32x512_0_1 : S1x512.BroadcastsInDim S32x512 (![0, 1] : Fin 2 → Fin S32x512.rank)
  bcast_S_S32x512 : S_.BroadcastsInDim S32x512 (![] : Fin 0 → Fin S32x512.rank)
  bcast_S128_S1x128_1 : S128.BroadcastsInDim S1x128 (![1] : Fin 1 → Fin S1x128.rank)
  bcast_S1x128_S32x128_0_1 : S1x128.BroadcastsInDim S32x128 (![0, 1] : Fin 2 → Fin S32x128.rank)
  bcast_S_S32x128 : S_.BroadcastsInDim S32x128 (![] : Fin 0 → Fin S32x128.rank)
  bcast_S40_S1x40_1 : S40.BroadcastsInDim S1x40 (![1] : Fin 1 → Fin S1x40.rank)
  bcast_S1x40_S32x40_0_1 : S1x40.BroadcastsInDim S32x40 (![0, 1] : Fin 2 → Fin S32x40.rank)
  dot_S32x1024x6_S32x1024x6_S32x1024x1024_2_2_1_1_0_0_wf : DotDims.WF S32x1024x6 S32x1024x6 S32x1024x1024 [2] [2] [1] [1] [0] [0]
  dot_S32x1024x1024_S32x1024x6_S32x1024x6_2_1_1_2_0_0_wf : DotDims.WF S32x1024x1024 S32x1024x6 S32x1024x6 [2] [1] [1] [2] [0] [0]
  dot_S32x1024x6_S6x128_S32x1024x128_2_0_01_1_n_n_wf : DotDims.WF S32x1024x6 S6x128 S32x1024x128 [2] [0] [0, 1] [1] [] []
  dot_S32x1024x128_S32x1024x128_S32x1024x1024_2_2_1_1_0_0_wf : DotDims.WF S32x1024x128 S32x1024x128 S32x1024x1024 [2] [2] [1] [1] [0] [0]
  dot_S32x1024x1024_S32x1024x128_S32x1024x128_2_1_1_2_0_0_wf : DotDims.WF S32x1024x1024 S32x1024x128 S32x1024x128 [2] [1] [1] [2] [0] [0]
  dot_S32x1024x128_S128x512_S32x1024x512_2_0_01_1_n_n_wf : DotDims.WF S32x1024x128 S128x512 S32x1024x512 [2] [0] [0, 1] [1] [] []
  dot_S32x1024x512_S32x1024x512_S32x1024x1024_2_2_1_1_0_0_wf : DotDims.WF S32x1024x512 S32x1024x512 S32x1024x1024 [2] [2] [1] [1] [0] [0]
  dot_S32x1024x1024_S32x1024x512_S32x1024x512_2_1_1_2_0_0_wf : DotDims.WF S32x1024x1024 S32x1024x512 S32x1024x512 [2] [1] [1] [2] [0] [0]
  dot_S32x1024x512_S512x1024_S32x1024x1024_2_0_01_1_n_n_wf : DotDims.WF S32x1024x512 S512x1024 S32x1024x1024 [2] [0] [0, 1] [1] [] []
  dot_S32x1024_S1024x512_S32x512_1_0_0_1_n_n_wf : DotDims.WF S32x1024 S1024x512 S32x512 [1] [0] [0] [1] [] []
  dot_S32x512_S512x128_S32x128_1_0_0_1_n_n_wf : DotDims.WF S32x512 S512x128 S32x128 [1] [0] [0] [1] [] []
  dot_S32x128_S128x40_S32x40_1_0_0_1_n_n_wf : DotDims.WF S32x128 S128x40 S32x40 [1] [0] [0] [1] [] []

variable [Facts₀]

def dot_S32x1024x6_S32x1024x6_S32x1024x1024_2_2_1_1_0_0 : DotDims S32x1024x6 S32x1024x6 S32x1024x1024 where
  lhsContracting := [2]
  rhsContracting := [2]
  lhsNonContracting := [1]
  rhsNonContracting := [1]
  lhsBatch := [0]
  rhsBatch := [0]
  wf := dot_S32x1024x6_S32x1024x6_S32x1024x1024_2_2_1_1_0_0_wf
def dot_S32x1024x1024_S32x1024x6_S32x1024x6_2_1_1_2_0_0 : DotDims S32x1024x1024 S32x1024x6 S32x1024x6 where
  lhsContracting := [2]
  rhsContracting := [1]
  lhsNonContracting := [1]
  rhsNonContracting := [2]
  lhsBatch := [0]
  rhsBatch := [0]
  wf := dot_S32x1024x1024_S32x1024x6_S32x1024x6_2_1_1_2_0_0_wf
def dot_S32x1024x6_S6x128_S32x1024x128_2_0_01_1_n_n : DotDims S32x1024x6 S6x128 S32x1024x128 where
  lhsContracting := [2]
  rhsContracting := [0]
  lhsNonContracting := [0, 1]
  rhsNonContracting := [1]
  lhsBatch := []
  rhsBatch := []
  wf := dot_S32x1024x6_S6x128_S32x1024x128_2_0_01_1_n_n_wf
def dot_S32x1024x128_S32x1024x128_S32x1024x1024_2_2_1_1_0_0 : DotDims S32x1024x128 S32x1024x128 S32x1024x1024 where
  lhsContracting := [2]
  rhsContracting := [2]
  lhsNonContracting := [1]
  rhsNonContracting := [1]
  lhsBatch := [0]
  rhsBatch := [0]
  wf := dot_S32x1024x128_S32x1024x128_S32x1024x1024_2_2_1_1_0_0_wf
def dot_S32x1024x1024_S32x1024x128_S32x1024x128_2_1_1_2_0_0 : DotDims S32x1024x1024 S32x1024x128 S32x1024x128 where
  lhsContracting := [2]
  rhsContracting := [1]
  lhsNonContracting := [1]
  rhsNonContracting := [2]
  lhsBatch := [0]
  rhsBatch := [0]
  wf := dot_S32x1024x1024_S32x1024x128_S32x1024x128_2_1_1_2_0_0_wf
def dot_S32x1024x128_S128x512_S32x1024x512_2_0_01_1_n_n : DotDims S32x1024x128 S128x512 S32x1024x512 where
  lhsContracting := [2]
  rhsContracting := [0]
  lhsNonContracting := [0, 1]
  rhsNonContracting := [1]
  lhsBatch := []
  rhsBatch := []
  wf := dot_S32x1024x128_S128x512_S32x1024x512_2_0_01_1_n_n_wf
def dot_S32x1024x512_S32x1024x512_S32x1024x1024_2_2_1_1_0_0 : DotDims S32x1024x512 S32x1024x512 S32x1024x1024 where
  lhsContracting := [2]
  rhsContracting := [2]
  lhsNonContracting := [1]
  rhsNonContracting := [1]
  lhsBatch := [0]
  rhsBatch := [0]
  wf := dot_S32x1024x512_S32x1024x512_S32x1024x1024_2_2_1_1_0_0_wf
def dot_S32x1024x1024_S32x1024x512_S32x1024x512_2_1_1_2_0_0 : DotDims S32x1024x1024 S32x1024x512 S32x1024x512 where
  lhsContracting := [2]
  rhsContracting := [1]
  lhsNonContracting := [1]
  rhsNonContracting := [2]
  lhsBatch := [0]
  rhsBatch := [0]
  wf := dot_S32x1024x1024_S32x1024x512_S32x1024x512_2_1_1_2_0_0_wf
def dot_S32x1024x512_S512x1024_S32x1024x1024_2_0_01_1_n_n : DotDims S32x1024x512 S512x1024 S32x1024x1024 where
  lhsContracting := [2]
  rhsContracting := [0]
  lhsNonContracting := [0, 1]
  rhsNonContracting := [1]
  lhsBatch := []
  rhsBatch := []
  wf := dot_S32x1024x512_S512x1024_S32x1024x1024_2_0_01_1_n_n_wf
def dot_S32x1024_S1024x512_S32x512_1_0_0_1_n_n : DotDims S32x1024 S1024x512 S32x512 where
  lhsContracting := [1]
  rhsContracting := [0]
  lhsNonContracting := [0]
  rhsNonContracting := [1]
  lhsBatch := []
  rhsBatch := []
  wf := dot_S32x1024_S1024x512_S32x512_1_0_0_1_n_n_wf
def dot_S32x512_S512x128_S32x128_1_0_0_1_n_n : DotDims S32x512 S512x128 S32x128 where
  lhsContracting := [1]
  rhsContracting := [0]
  lhsNonContracting := [0]
  rhsNonContracting := [1]
  lhsBatch := []
  rhsBatch := []
  wf := dot_S32x512_S512x128_S32x128_1_0_0_1_n_n_wf
def dot_S32x128_S128x40_S32x40_1_0_0_1_n_n : DotDims S32x128 S128x40 S32x40 where
  lhsContracting := [1]
  rhsContracting := [0]
  lhsNonContracting := [0]
  rhsNonContracting := [1]
  lhsBatch := []
  rhsBatch := []
  wf := dot_S32x128_S128x40_S32x40_1_0_0_1_n_n_wf

class Facts : Prop extends Facts₀ where

variable [Facts]
-- ==== Proof.KernelRun.lean ====
/-
  The idealized kernel's run with its result named.

  The program is a chain of segments: four short stretches of host operations (two constants and the two zero
  paddings), the region of the fused three-layer kernel over the 32 clouds, one reshape, and the region of the
  perceptron kernel.  The contents of every buffer at each segment boundary are a fold from the launch memory;
  `W7` is the last of them.  Every weakly fair execution terminates with every unscoped buffer at `W7`; read at
  the result buffer that is the run's value, and read at the arguments it is the launch memory.
-/
import proofs.«171429_j17910013625104_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates with the result buffer at the last boundary's contents and the
    arguments as launched. -/
theorem run_value : θ_run defs (onTc (τ := τ) (main (F := F))) ⟨m, fun _ => 0, ρ⟩ (fun r => ∀ c : Dev nD,
      r.2.mem ((c.tc : Thread nD τ).loc main_v4) = W7 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v4 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c),
       (h c _ (mem_uc main_arg9 (by decide))).trans (W7_main_arg9 m ρ c),
       (h c _ (mem_uc main_arg10 (by decide))).trans (W7_main_arg10 m ρ c),
       (h c _ (mem_uc main_arg11 (by decide))).trans (W7_main_arg11 m ρ c),
       (h c _ (mem_uc main_arg12 (by decide))).trans (W7_main_arg12 m ρ c)⟩)

end Cert.KernelIdeal.RunValue

end
-- ==== Proof.KernelArrays.lean ====
/-
  What the two regions leave in their output arrays, as functions of the arrays they find at entry.

  The perceptron region has one grid point and every window's block is its whole array, so its output array ends
  holding the body's result on the arrays as found.  The fused three-layer region has 32 points; point `b` reads cloud `b` of
  the padded input and the whole weight and bias arrays, and writes row `b` of the pooled array, so the pooled array ends
  holding, row by row, the body's result on that row's cloud.
-/
import proofs.«171429_j17910013625104_2_alg».proof.Proof.Gen.KernelIdeal.Frame
import Idealize.ShloMosaic.Lib.Pipeline.Value

set_option maxRecDepth 16384

noncomputable section

namespace Cert.KernelIdeal.ArrValue

open Cert.KernelIdeal Cert.KernelIdeal.Gen Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## The perceptron region: one point, whole-array blocks -/

/-- Every window of the perceptron region sits at block index zero on every axis, at its one grid point. -/
theorem idx1 : ∀ t : Fin cfg1.N,
    win1_0.index t (0 : Fin 2) = 0 ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = 0 ∧ win1_3.index t (1 : Fin 2) = 0
    ∧ win1_4.index t (0 : Fin 1) = 0
    ∧ win1_5.index t (0 : Fin 2) = 0 ∧ win1_5.index t (1 : Fin 2) = 0
    ∧ win1_6.index t (0 : Fin 1) = 0
    ∧ win1_7.index t (0 : Fin 2) = 0 ∧ win1_7.index t (1 : Fin 2) = 0 :=
  (by decide +kernel : ∀ t : Fin grid1.N, _)

theorem iblk1_0 (c : Dev nD) (t : Fin cfg1.N) : iblk1 V c 0 t = V c main_v3 := by
  obtain ⟨e0, e1, -⟩ := idx1 t
  funext j
  show V c main_v3 (((cfg1.win 0).blk t).view.emb j) = V c main_v3 j
  refine congrArg _ (funext fun a => Fin.ext ?_)
  match a with
  | ⟨0, _⟩ => show win1_0.index t (0 : Fin 2) * 32 + 1 * (j 0).val = (j 0).val; omega
  | ⟨1, _⟩ => show win1_0.index t (1 : Fin 2) * 1024 + 1 * (j 1).val = (j 1).val; omega

theorem iblk1_1 (c : Dev nD) (t : Fin cfg1.N) : iblk1 V c 1 t = V c main_arg7 := by
  obtain ⟨-, -, f10, f11, f2, f30, f31, f4, f50, f51, f6, -⟩ := idx1 t
  funext j
  show V c main_arg7 (((cfg1.win 1).blk t).view.emb j) = V c main_arg7 j
  refine congrArg _ (funext fun a => Fin.ext ?_)
  match a with
  | ⟨0, _⟩ => show win1_1.index t (0 : Fin 2) * 1024 + 1 * (j 0).val = (j 0).val; omega
  | ⟨1, _⟩ => show win1_1.index t (1 : Fin 2) * 512 + 1 * (j 1).val = (j 1).val; omega

theorem iblk1_2 (c : Dev nD) (t : Fin cfg1.N) : iblk1 V c 2 t = V c main_arg8 := by
  obtain ⟨-, -, f10, f11, f2, f30, f31, f4, f50, f51, f6, -⟩ := idx1 t
  funext j
  show V c main_arg8 (((cfg1.win 2).blk t).view.emb j) = V c main_arg8 j
  refine congrArg _ (funext fun a => Fin.ext ?_)
  match a with
  | ⟨0, _⟩ => show win1_2.index t (0 : Fin 1) * 512 + 1 * (j 0).val = (j 0).val; omega

theorem iblk1_3 (c : Dev nD) (t : Fin cfg1.N) : iblk1 V c 3 t = V c main_arg9 := by
  obtain ⟨-, -, f10, f11, f2, f30, f31, f4, f50, f51, f6, -⟩ := idx1 t
  funext j
  show V c main_arg9 (((cfg1.win 3).blk t).view.emb j) = V c main_arg9 j
  refine congrArg _ (funext fun a => Fin.ext ?_)
  match a with
  | ⟨0, _⟩ => show win1_3.index t (0 : Fin 2) * 512 + 1 * (j 0).val = (j 0).val; omega
  | ⟨1, _⟩ => show win1_3.index t (1 : Fin 2) * 128 + 1 * (j 1).val = (j 1).val; omega

theorem iblk1_4 (c : Dev nD) (t : Fin cfg1.N) : iblk1 V c 4 t = V c main_arg10 := by
  obtain ⟨-, -, f10, f11, f2, f30, f31, f4, f50, f51, f6, -⟩ := idx1 t
  funext j
  show V c main_arg10 (((cfg1.win 4).blk t).view.emb j) = V c main_arg10 j
  refine congrArg _ (funext fun a => Fin.ext ?_)
  match a with
  | ⟨0, _⟩ => show win1_4.index t (0 : Fin 1) * 128 + 1 * (j 0).val = (j 0).val; omega

theorem iblk1_5 (c : Dev nD) (t : Fin cfg1.N) : iblk1 V c 5 t = V c main_arg11 := by
  obtain ⟨-, -, f10, f11, f2, f30, f31, f4, f50, f51, f6, -⟩ := idx1 t
  funext j
  show V c main_arg11 (((cfg1.win 5).blk t).view.emb j) = V c main_arg11 j
  refine congrArg _ (funext fun a => Fin.ext ?_)
  match a with
  | ⟨0, _⟩ => show win1_5.index t (0 : Fin 2) * 128 + 1 * (j 0).val = (j 0).val; omega
  | ⟨1, _⟩ => show win1_5.index t (1 : Fin 2) * 40 + 1 * (j 1).val = (j 1).val; omega

theorem iblk1_6 (c : Dev nD) (t : Fin cfg1.N) : iblk1 V c 6 t = V c main_arg12 := by
  obtain ⟨-, -, f10, f11, f2, f30, f31, f4, f50, f51, f6, -⟩ := idx1 t
  funext j
  show V c main_arg12 (((cfg1.win 6).blk t).view.emb j) = V c main_arg12 j
  refine congrArg _ (funext fun a => Fin.ext ?_)
  match a with
  | ⟨0, _⟩ => show win1_6.index t (0 : Fin 1) * 40 + 1 * (j 0).val = (j 0).val; omega

/-- What the region's one point writes back is the body's result on the arrays as found, read through the output
    window's block, which is the whole array. -/
theorem flushed1_eq (c : Dev nD) (t : Fin cfg1.N) :
    (dat1 V c).flushed 7 t = ((cfg1.win 7).blk t).view.read (Elt F)
      (out1_7 (V c main_v3) (V c main_arg7) (V c main_arg8) (V c main_arg9) (V c main_arg10) (V c main_arg11) (V c main_arg12)) := by
  show (cfg1.win 7).cut (grid1.coords t) ((dat1 V c).after 7 t) = _
  rw [after1_7, iblk1_0, iblk1_1, iblk1_2, iblk1_3, iblk1_4, iblk1_5, iblk1_6]
  obtain ⟨-, -, -, -, -, -, -, -, -, -, -, g0, g1⟩ := idx1 t
  funext j
  show out1_7 (V c main_v3) (V c main_arg7) (V c main_arg8) (V c main_arg9) (V c main_arg10) (V c main_arg11) (V c main_arg12) j
    = out1_7 (V c main_v3) (V c main_arg7) (V c main_arg8) (V c main_arg9) (V c main_arg10) (V c main_arg11) (V c main_arg12) (((cfg1.win 7).blk t).view.emb j)
  refine congrArg _ (funext fun a => Fin.ext ?_)
  match a with
  | ⟨0, _⟩ => show (j 0).val = win1_7.index t (0 : Fin 2) * 32 + 1 * (j 0).val; omega
  | ⟨1, _⟩ => show (j 1).val = win1_7.index t (1 : Fin 2) * 40 + 1 * (j 1).val; omega

/-- An index of the output array is in the point's block iff each coordinate is in the block's range on its axis. -/
theorem mem_blk1 (t : Fin cfg1.N) (i : S32x40.Idx) :
    i ∈ ((cfg1.win 7).blk t).view.set ↔ ∀ a : Fin 2, win1_7.index t a * S32x40.size a ≤ (i a).val ∧ (i a).val < win1_7.index t a * S32x40.size a + S32x40.size a := by
  show i ∈ ((View.whole main_v4).slice (win1_7.rect t)).set ↔ _
  rw [View.set_slice_whole, Rect.mem_set_unit]
  exact Iff.rfl

/-- The output array after the perceptron region: the body's result on the arrays as the region finds them. -/
theorem final1 (c : Dev nD) : (dat1 V c).arrAt 7 cfg1.N
    = out1_7 (V c main_v3) (V c main_arg7) (V c main_arg8) (V c main_arg9) (V c main_arg10) (V c main_arg11) (V c main_arg12) := by
  refine (dat1 V c).arrAt_eq_of_cover 7 _ (fun t _ => flushed1_eq V c t) (fun i => ?_)
  refine ⟨t1_0, flush1_7 t1_0, ?_⟩
  rw [mem_blk1]
  obtain ⟨-, -, -, -, -, -, -, -, -, -, -, g0, g1⟩ := idx1 t1_0
  intro a
  match a with
  | ⟨0, _⟩ => show win1_7.index t1_0 (0 : Fin 2) * 32 ≤ (i 0).val ∧ (i 0).val < win1_7.index t1_0 (0 : Fin 2) * 32 + 32; have hi : (i 0).val < 32 := (i 0).isLt; omega
  | ⟨1, _⟩ => show win1_7.index t1_0 (1 : Fin 2) * 40 ≤ (i 1).val ∧ (i 1).val < win1_7.index t1_0 (1 : Fin 2) * 40 + 40; have hi : (i 1).val < 40 := (i 1).isLt; omega

/-! ## The fused three-layer region: 32 points, one cloud's block each -/

/-- The region's index maps over its 32 points: the input cloud and the pooled output move with the point along
    the batch axis; every other window sits at block index zero. -/
theorem idx0 : ∀ t : Fin cfg0.N,
    win0_0.index t (0 : Fin 3) = t.val
    ∧ win0_0.index t (1 : Fin 3) = 0
    ∧ win0_0.index t (2 : Fin 3) = 0
    ∧ win0_1.index t (0 : Fin 3) = 0
    ∧ win0_1.index t (1 : Fin 3) = 0
    ∧ win0_1.index t (2 : Fin 3) = 0
    ∧ win0_2.index t (0 : Fin 1) = 0
    ∧ win0_3.index t (0 : Fin 3) = 0
    ∧ win0_3.index t (1 : Fin 3) = 0
    ∧ win0_3.index t (2 : Fin 3) = 0
    ∧ win0_4.index t (0 : Fin 1) = 0
    ∧ win0_5.index t (0 : Fin 3) = 0
    ∧ win0_5.index t (1 : Fin 3) = 0
    ∧ win0_5.index t (2 : Fin 3) = 0
    ∧ win0_6.index t (0 : Fin 1) = 0
    ∧ win0_7.index t (0 : Fin 3) = t.val
    ∧ win0_7.index t (1 : Fin 3) = 0
    ∧ win0_7.index t (2 : Fin 3) = 0 :=
  (by decide +kernel : ∀ t : Fin grid0.N, _)

theorem iblk0_1 (c : Dev nD) (t : Fin cfg0.N) : iblk0 V c 1 t = V c main_v1 := by
  obtain ⟨h0, h1, h2, h3, h4, h5, h6, h7, h8, h9, h10, h11, h12, h13, h14, h15, h16, h17⟩ := idx0 t
  funext j
  show V c main_v1 (((cfg0.win 1).blk t).view.emb j) = V c main_v1 j
  refine congrArg _ (funext fun a => Fin.ext ?_)
  match a with
  | ⟨0, _⟩ => show win0_1.index t (0 : Fin 3) * 3 + 1 * (j 0).val = (j 0).val; omega
  | ⟨1, _⟩ => show win0_1.index t (1 : Fin 3) * 8 + 1 * (j 1).val = (j 1).val; omega
  | ⟨2, _⟩ => show win0_1.index t (2 : Fin 3) * 128 + 1 * (j 2).val = (j 2).val; omega

theorem iblk0_2 (c : Dev nD) (t : Fin cfg0.N) : iblk0 V c 2 t = V c main_arg2 := by
  obtain ⟨h0, h1, h2, h3, h4, h5, h6, h7, h8, h9, h10, h11, h12, h13, h14, h15, h16, h17⟩ := idx0 t
  funext j
  show V c main_arg2 (((cfg0.win 2).blk t).view.emb j) = V c main_arg2 j
  refine congrArg _ (funext fun a => Fin.ext ?_)
  match a with
  | ⟨0, _⟩ => show win0_2.index t (0 : Fin 1) * 128 + 1 * (j 0).val = (j 0).val; omega

theorem iblk0_3 (c : Dev nD) (t : Fin cfg0.N) : iblk0 V c 3 t = V c main_arg3 := by
  obtain ⟨h0, h1, h2, h3, h4, h5, h6, h7, h8, h9, h10, h11, h12, h13, h14, h15, h16, h17⟩ := idx0 t
  funext j
  show V c main_arg3 (((cfg0.win 3).blk t).view.emb j) = V c main_arg3 j
  refine congrArg _ (funext fun a => Fin.ext ?_)
  match a with
  | ⟨0, _⟩ => show win0_3.index t (0 : Fin 3) * 3 + 1 * (j 0).val = (j 0).val; omega
  | ⟨1, _⟩ => show win0_3.index t (1 : Fin 3) * 128 + 1 * (j 1).val = (j 1).val; omega
  | ⟨2, _⟩ => show win0_3.index t (2 : Fin 3) * 512 + 1 * (j 2).val = (j 2).val; omega

theorem iblk0_4 (c : Dev nD) (t : Fin cfg0.N) : iblk0 V c 4 t = V c main_arg4 := by
  obtain ⟨h0, h1, h2, h3, h4, h5, h6, h7, h8, h9, h10, h11, h12, h13, h14, h15, h16, h17⟩ := idx0 t
  funext j
  show V c main_arg4 (((cfg0.win 4).blk t).view.emb j) = V c main_arg4 j
  refine congrArg _ (funext fun a => Fin.ext ?_)
  match a with
  | ⟨0, _⟩ => show win0_4.index t (0 : Fin 1) * 512 + 1 * (j 0).val = (j 0).val; omega

theorem iblk0_5 (c : Dev nD) (t : Fin cfg0.N) : iblk0 V c 5 t = V c main_arg5 := by
  obtain ⟨h0, h1, h2, h3, h4, h5, h6, h7, h8, h9, h10, h11, h12, h13, h14, h15, h16, h17⟩ := idx0 t
  funext j
  show V c main_arg5 (((cfg0.win 5).blk t).view.emb j) = V c main_arg5 j
  refine congrArg _ (funext fun a => Fin.ext ?_)
  match a with
  | ⟨0, _⟩ => show win0_5.index t (0 : Fin 3) * 3 + 1 * (j 0).val = (j 0).val; omega
  | ⟨1, _⟩ => show win0_5.index t (1 : Fin 3) * 512 + 1 * (j 1).val = (j 1).val; omega
  | ⟨2, _⟩ => show win0_5.index t (2 : Fin 3) * 1024 + 1 * (j 2).val = (j 2).val; omega

theorem iblk0_6 (c : Dev nD) (t : Fin cfg0.N) : iblk0 V c 6 t = V c main_arg6 := by
  obtain ⟨h0, h1, h2, h3, h4, h5, h6, h7, h8, h9, h10, h11, h12, h13, h14, h15, h16, h17⟩ := idx0 t
  funext j
  show V c main_arg6 (((cfg0.win 6).blk t).view.emb j) = V c main_arg6 j
  refine congrArg _ (funext fun a => Fin.ext ?_)
  match a with
  | ⟨0, _⟩ => show win0_6.index t (0 : Fin 1) * 1024 + 1 * (j 0).val = (j 0).val; omega

/-- Cloud `b` of a batch of padded clouds, as a 1 × 1024 × 8 block. -/
def cloud (X : S32x1024x8.Idx → Elt F .f32) (b : Fin 32) : S1x1024x8.Idx → Elt F .f32 :=
  fun y => X (fun a => match a with | ⟨0, _⟩ => b | ⟨1, _⟩ => y 1 | ⟨2, _⟩ => y 2)

/-- The pooled array the region leaves: row `b` is the body's result on cloud `b` of the input as found. -/
def pooled (c : Dev nD) : S32x1x1024.Idx → Elt F .f32 := fun i =>
  out0_7 (cloud (V c main_v0) (i 0)) (V c main_v1) (V c main_arg2) (V c main_arg3) (V c main_arg4) (V c main_arg5) (V c main_arg6)
    (fun a => match a with | ⟨0, _⟩ => (0 : Fin 1) | ⟨1, _⟩ => (0 : Fin 1) | ⟨2, _⟩ => i 2)

/-- A block value read through point `t`'s output block against an array: equal when equal entry by entry
    (stated over an arbitrary block value, so that the body's result is never opened). -/
theorem cut_read0 (O : Vec F S1x1x1024 .f32) (G : S32x1x1024.Idx → Elt F .f32) (t : Fin cfg0.N)
    (h : ∀ j : S1x1x1024.Idx, O j = G (((cfg0.win 7).blk t).view.emb j)) :
    (cfg0.win 7).cut (grid0.coords t) O = ((cfg0.win 7).blk t).view.read (Elt F) G := by
  funext j; exact h j

/-- Point `t`'s block of the input is cloud `t` of the array as found, whichever row of the output block is read. -/
theorem iblk0_0 (c : Dev nD) (t : Fin cfg0.N) (j : S1x1x1024.Idx) :
    iblk0 V c 0 t = cloud (V c main_v0) ((((cfg0.win 7).blk t).view.emb j) 0) := by
  obtain ⟨h0, h1, h2, h3, h4, h5, h6, h7, h8, h9, h10, h11, h12, h13, h14, h15, h16, h17⟩ := idx0 t
  have hj0 : (j 0).val < 1 := (j 0).isLt
  funext y
  have hy0 : (y 0).val < 1 := (y 0).isLt
  show V c main_v0 (((cfg0.win 0).blk t).view.emb y) = V c main_v0 _
  refine congrArg _ (funext fun a => Fin.ext ?_)
  match a with
  | ⟨0, _⟩ => show win0_0.index t (0 : Fin 3) * 1 + 1 * (y 0).val = win0_7.index t (0 : Fin 3) * 1 + 1 * (j 0).val; omega
  | ⟨1, _⟩ => show win0_0.index t (1 : Fin 3) * 1024 + 1 * (y 1).val = (y 1).val; omega
  | ⟨2, _⟩ => show win0_0.index t (2 : Fin 3) * 8 + 1 * (y 2).val = (y 2).val; omega

/-- An index of the 1 × 1 × 1024 block is its last coordinate beside two zeros, and the last coordinate is the one
    the block's embedding into the pooled array keeps. -/
theorem emb7_last (t : Fin cfg0.N) (j : S1x1x1024.Idx) :
    j = (fun a => match a with | ⟨0, _⟩ => (0 : Fin 1) | ⟨1, _⟩ => (0 : Fin 1) | ⟨2, _⟩ => (((cfg0.win 7).blk t).view.emb j) 2) := by
  obtain ⟨h0, h1, h2, h3, h4, h5, h6, h7, h8, h9, h10, h11, h12, h13, h14, h15, h16, h17⟩ := idx0 t
  have hj0 : (j 0).val < 1 := (j 0).isLt
  have hj1 : (j 1).val < 1 := (j 1).isLt
  refine funext fun a => Fin.ext ?_
  match a with
  | ⟨0, _⟩ => show (j 0).val = 0; omega
  | ⟨1, _⟩ => show (j 1).val = 0; omega
  | ⟨2, _⟩ => show (j 2).val = win0_7.index t (2 : Fin 3) * 1024 + 1 * (j 2).val; omega

attribute [local irreducible] out0_7 in
/-- What point `t` writes back is block `t` of the pooled array. -/
theorem flushed0_eq (c : Dev nD) (t : Fin cfg0.N) :
    (dat0 V c).flushed 7 t = ((cfg0.win 7).blk t).view.read (Elt F) (pooled V c) := by
  show (cfg0.win 7).cut (grid0.coords t) ((dat0 V c).after 7 t) = _
  rw [after0_7, iblk0_1, iblk0_2, iblk0_3, iblk0_4, iblk0_5, iblk0_6]
  refine cut_read0 _ _ t (fun j => ?_)
  unfold pooled
  rw [iblk0_0 V c t j]
  exact congrArg _ (emb7_last t j)

/-- An index of the pooled array is in point `t`'s block iff each coordinate is in the block's range on its axis. -/
theorem mem_blk0 (t : Fin cfg0.N) (i : S32x1x1024.Idx) :
    i ∈ ((cfg0.win 7).blk t).view.set ↔ ∀ a : Fin 3, win0_7.index t a * S1x1x1024.size a ≤ (i a).val ∧ (i a).val < win0_7.index t a * S1x1x1024.size a + S1x1x1024.size a := by
  show i ∈ ((View.whole main_v2).slice (win0_7.rect t)).set ↔ _
  rw [View.set_slice_whole, Rect.mem_set_unit]
  exact Iff.rfl

/-- The pooled array after the region: the 32 blocks tile it, block `b` written by point `b`. -/
theorem final0 (c : Dev nD) : (dat0 V c).arrAt 7 cfg0.N = pooled V c := by
  refine (dat0 V c).arrAt_eq_of_cover 7 _ (fun t _ => flushed0_eq V c t) (fun i => ?_)
  have hi0 : (i 0).val < 32 := (i 0).isLt
  have hi1 : (i 1).val < 1 := (i 1).isLt
  have hi2 : (i 2).val < 1024 := (i 2).isLt
  have hN : cfg0.N = 32 := N_0
  let t : Fin cfg0.N := ⟨(i 0).val, by rw [hN]; exact hi0⟩
  refine ⟨t, flush0_7 t, ?_⟩
  rw [mem_blk0]
  obtain ⟨h0, h1, h2, h3, h4, h5, h6, h7, h8, h9, h10, h11, h12, h13, h14, h15, h16, h17⟩ := idx0 t
  have ht : t.val = (i 0).val := rfl
  intro a
  match a with
  | ⟨0, _⟩ => show win0_7.index t (0 : Fin 3) * 1 ≤ (i 0).val ∧ (i 0).val < win0_7.index t (0 : Fin 3) * 1 + 1; omega
  | ⟨1, _⟩ => show win0_7.index t (1 : Fin 3) * 1 ≤ (i 1).val ∧ (i 1).val < win0_7.index t (1 : Fin 3) * 1 + 1; omega
  | ⟨2, _⟩ => show win0_7.index t (2 : Fin 3) * 1024 ≤ (i 2).val ∧ (i 2).val < win0_7.index t (2 : Fin 3) * 1024 + 1024; omega

end Cert.KernelIdeal.ArrValue

end
-- ==== Proof.ChebSpec.lean ====
/-
  The network both programs compute, as functions on the extended reals over abstract finite index types.

  One Chebyshev graph-convolution layer (three taps) takes the rows `x n` of a point cloud, builds the
  Gaussian adjacency `exp (-‖x n - x m‖²)` with the squared distance expanded as
  `‖x n‖² - 2⟨x n, x m⟩ + ‖x m‖²`, normalizes it symmetrically by the inverse square roots of the row sums
  (the degrees), and combines `x`, `L x` and `2 L (L x) - x` (with `L = I - M`, `M` the normalized
  adjacency) through three weight matrices, a bias and a maximum against zero.

  The two programs spell the layer differently.  One (`layerK`) never forms `L`: it computes
  `x - M x`, negates the distance as `0 - d`, and takes the reciprocal square root in one step.
  The other (`layerR`) forms `L = I - M` and multiplies by it, negates by `-d`, and divides one by the square
  root.  After three layers the rows are pooled by a maximum over the points and a three-layer perceptron is
  applied; those two stages are spelt the same way in both programs.
-/
import Idealize.ShloMosaic.PureOps.Ideal

noncomputable section

namespace Cert.Cheb

open Idealize.ShloMosaic

variable {N A B C : Type} [Fintype N] [Fintype A] [Fintype B] [Fintype C]

/-- The squared norm of row `n`. -/
def sq (x : N → A → EReal) (n : N) : EReal := ∑ d, x n d * x n d

/-- The inner product of rows `n` and `m`. -/
def inner (x : N → A → EReal) (n m : N) : EReal := ∑ d, x n d * x m d

/-- The squared distance between rows `n` and `m`, expanded; `two` is the constant 2 as the programs hold it. -/
def dist (two : EReal) (x : N → A → EReal) (n m : N) : EReal := sq x n - two * inner x n m + sq x m

/-- The adjacency with the distance negated by subtraction from zero. -/
def adjK (two : EReal) (x : N → A → EReal) (n m : N) : EReal := Ideal.exp (0 - dist two x n m)

/-- The adjacency with the distance negated by the unary minus. -/
def adjR (two : EReal) (x : N → A → EReal) (n m : N) : EReal := Ideal.exp (-dist two x n m)

/-- The degree of point `n`: its adjacency row summed. -/
def degK (two : EReal) (x : N → A → EReal) (n : N) : EReal := ∑ m, adjK two x n m

def degR (two : EReal) (x : N → A → EReal) (n : N) : EReal := ∑ m, adjR two x n m

/-- The symmetrically normalized adjacency, by reciprocal square roots. -/
def normK (two : EReal) (x : N → A → EReal) (n m : N) : EReal :=
  Ideal.rsqrt (degK two x n) * adjK two x n m * Ideal.rsqrt (degK two x m)

/-- The symmetrically normalized adjacency, by one over the square root. -/
def normR (two : EReal) (x : N → A → EReal) (n m : N) : EReal :=
  Ideal.div 1 (Ideal.sqrt (degR two x n)) * adjR two x n m * Ideal.div 1 (Ideal.sqrt (degR two x m))

/-- A square matrix applied to the rows: `(M a) n f = Σ m, M n m · a m f`. -/
def prop (M : N → N → EReal) (a : N → A → EReal) (n : N) (f : A) : EReal := ∑ m, M n m * a m f

/-- The rows projected by a weight matrix: `(a w) n g = Σ f, a n f · w f g`. -/
def proj (a : N → A → EReal) (w : A → B → EReal) (n : N) (g : B) : EReal := ∑ f, a n f * w f g

/-- The first-order term of the layer that never forms the Laplacian: `x - M x`. -/
def x1K (two : EReal) (x : N → A → EReal) (n : N) (f : A) : EReal := x n f - prop (normK two x) x n f

/-- Its second-order term: `2 (x₁ - M x₁) - x`. -/
def x2K (two : EReal) (x : N → A → EReal) (n : N) (f : A) : EReal :=
  two * (x1K two x n f - prop (normK two x) (x1K two x) n f) - x n f

/-- The layer that never forms the Laplacian. -/
def layerK (two : EReal) (x : N → A → EReal) (w : Fin 3 → A → B → EReal) (b : B → EReal) (n : N) (g : B) : EReal :=
  max (proj x (w 0) n g + proj (x1K two x) (w 1) n g + proj (x2K two x) (w 2) n g + b g) 0

/-- The normalized Laplacian `I - M`. -/
def lap [DecidableEq N] (two : EReal) (x : N → A → EReal) (n m : N) : EReal :=
  (if n = m then (1 : EReal) else 0) - normR two x n m

/-- The first-order term through the Laplacian: `L x`. -/
def x1R [DecidableEq N] (two : EReal) (x : N → A → EReal) (n : N) (f : A) : EReal := prop (lap two x) x n f

/-- Its second-order term: `2 L x₁ - x`. -/
def x2R [DecidableEq N] (two : EReal) (x : N → A → EReal) (n : N) (f : A) : EReal :=
  two * prop (lap two x) (x1R two x) n f - x n f

/-- The layer through the Laplacian. -/
def layerR [DecidableEq N] (two : EReal) (x : N → A → EReal) (w : Fin 3 → A → B → EReal) (b : B → EReal)
    (n : N) (g : B) : EReal :=
  max (proj x (w 0) n g + proj (x1R two x) (w 1) n g + proj (x2R two x) (w 2) n g + b g) 0

/-- The maximum over the points, feature by feature. -/
def pool (h : N → B → EReal) (g : B) : EReal := Finset.univ.sup fun n => h n g

/-- A dense layer on one row: `Σ k, v k · w k j + b j`. -/
def dense (v : A → EReal) (w : A → B → EReal) (b : B → EReal) (j : B) : EReal := (∑ k, v k * w k j) + b j

/-- A dense layer followed by the maximum against zero. -/
def denseRelu (v : A → EReal) (w : A → B → EReal) (b : B → EReal) (j : B) : EReal := max (dense v w b j) 0

/-- The perceptron head on one pooled row. -/
def head {D : Type} [Fintype D] (v : A → EReal) (w1 : A → B → EReal) (b1 : B → EReal) (w2 : B → C → EReal) (b2 : C → EReal)
    (w3 : C → D → EReal) (b3 : D → EReal) (j : D) : EReal :=
  dense (denseRelu (denseRelu v w1 b1) w2 b2) w3 b3 j

/-- An extended real that is a real number. -/
def IsReal (x : EReal) : Prop := ∃ r : ℝ, x = (r : EReal)

end Cert.Cheb

end
-- ==== Proof.ChebNet.lean ====
/-
  The two programs' networks over the literal array shapes.

  `netR` is the network through the Laplacian on a batch of 32 clouds of 1024 points with 6 coordinates.
  `poolK` is what one batch element's block computes in the form that never forms the Laplacian, on rows padded
  with two zero coordinates to 8, and `headK` is the perceptron head on the pooled 32 × 1024 array; `netK` puts
  them together: entry `(b, f)` of the pooled array is entry `(0, 0, f)` of `poolK` at block `b` of the padded input.
-/
import proofs.«171429_j17910013625104_2_alg».proof.Proof.ChebSpec
import Idealize.ShloMosaic.Lib.ValueIdx

noncomputable section

namespace Cert.Cheb

open Idealize.ShloMosaic Idealize.ShloMosaic.ValueIdx

/-- The constant 2 as both programs hold it: the binary32 word of 2.0. -/
abbrev two : EReal := Ideal.ofBits .f32 0x40000000#32

/-- The three weight matrices of a layer, from the rank-3 array that stacks them. -/
def wOf {a b : Nat} (w : (⟨3, ![3, a, b]⟩ : Shape).Idx → EReal) : Fin 3 → Fin a → Fin b → EReal := fun k f g => w (ix3 k f g)

/-- A vector from a rank-1 array. -/
def vOf {a : Nat} (v : (⟨1, ![a]⟩ : Shape).Idx → EReal) : Fin a → EReal := fun g => v (ix1 g)

/-- A matrix from a rank-2 array. -/
def mOf {a b : Nat} (w : (⟨2, ![a, b]⟩ : Shape).Idx → EReal) : Fin a → Fin b → EReal := fun k j => w (ix2 k j)

/-- The network through the Laplacian: three layers on each cloud, the maximum over its points, the head. -/
def netR (a0 : (⟨3, ![32, 1024, 6]⟩ : Shape).Idx → EReal) (a1 : (⟨3, ![3, 6, 128]⟩ : Shape).Idx → EReal)
    (a2 : (⟨1, ![128]⟩ : Shape).Idx → EReal) (a3 : (⟨3, ![3, 128, 512]⟩ : Shape).Idx → EReal)
    (a4 : (⟨1, ![512]⟩ : Shape).Idx → EReal) (a5 : (⟨3, ![3, 512, 1024]⟩ : Shape).Idx → EReal)
    (a6 : (⟨1, ![1024]⟩ : Shape).Idx → EReal) (a7 : (⟨2, ![1024, 512]⟩ : Shape).Idx → EReal)
    (a8 : (⟨1, ![512]⟩ : Shape).Idx → EReal) (a9 : (⟨2, ![512, 128]⟩ : Shape).Idx → EReal)
    (a10 : (⟨1, ![128]⟩ : Shape).Idx → EReal) (a11 : (⟨2, ![128, 40]⟩ : Shape).Idx → EReal)
    (a12 : (⟨1, ![40]⟩ : Shape).Idx → EReal) : (⟨2, ![32, 40]⟩ : Shape).Idx → EReal := fun i =>
  head (pool (layerR two (layerR two (layerR two (fun (n : Fin 1024) (d : Fin 6) => a0 (ix3 (i 0) n d)) (wOf a1) (vOf a2))
      (wOf a3) (vOf a4)) (wOf a5) (vOf a6)))
    (mOf a7) (vOf a8) (mOf a9) (vOf a10) (mOf a11) (vOf a12) (i 1)

/-- One cloud's block, rows padded to 8 coordinates: three layers that never form the Laplacian, then the maximum
    over the points, as a 1 × 1 × 1024 block. -/
def poolK (x0 : (⟨3, ![1, 1024, 8]⟩ : Shape).Idx → EReal) (x1 : (⟨3, ![3, 8, 128]⟩ : Shape).Idx → EReal)
    (x2 : (⟨1, ![128]⟩ : Shape).Idx → EReal) (x3 : (⟨3, ![3, 128, 512]⟩ : Shape).Idx → EReal)
    (x4 : (⟨1, ![512]⟩ : Shape).Idx → EReal) (x5 : (⟨3, ![3, 512, 1024]⟩ : Shape).Idx → EReal)
    (x6 : (⟨1, ![1024]⟩ : Shape).Idx → EReal) : (⟨3, ![1, 1, 1024]⟩ : Shape).Idx → EReal := fun y =>
  pool (layerK two (layerK two (layerK two (fun (n : Fin 1024) (d : Fin 8) => x0 (ix3 0 n d)) (wOf x1) (vOf x2))
      (wOf x3) (vOf x4)) (wOf x5) (vOf x6)) (y 2)

/-- The perceptron head on the pooled 32 × 1024 array. -/
def headK (p : (⟨2, ![32, 1024]⟩ : Shape).Idx → EReal) (w1 : (⟨2, ![1024, 512]⟩ : Shape).Idx → EReal)
    (b1 : (⟨1, ![512]⟩ : Shape).Idx → EReal) (w2 : (⟨2, ![512, 128]⟩ : Shape).Idx → EReal)
    (b2 : (⟨1, ![128]⟩ : Shape).Idx → EReal) (w3 : (⟨2, ![128, 40]⟩ : Shape).Idx → EReal)
    (b3 : (⟨1, ![40]⟩ : Shape).Idx → EReal) : (⟨2, ![32, 40]⟩ : Shape).Idx → EReal := fun i =>
  head (fun f : Fin 1024 => p (ix2 (i 0) f)) (mOf w1) (vOf b1) (mOf w2) (vOf b2) (mOf w3) (vOf b3) (i 1)

/-- The padded-input network: the head on the array whose entry `(b, f)` is entry `(0, 0, f)` of the block
    computed from cloud `b` of the padded input `xp` and the padded first weights `w1p`. -/
def netK (xp : (⟨3, ![32, 1024, 8]⟩ : Shape).Idx → EReal) (w1p : (⟨3, ![3, 8, 128]⟩ : Shape).Idx → EReal)
    (a2 : (⟨1, ![128]⟩ : Shape).Idx → EReal) (a3 : (⟨3, ![3, 128, 512]⟩ : Shape).Idx → EReal)
    (a4 : (⟨1, ![512]⟩ : Shape).Idx → EReal) (a5 : (⟨3, ![3, 512, 1024]⟩ : Shape).Idx → EReal)
    (a6 : (⟨1, ![1024]⟩ : Shape).Idx → EReal) (a7 : (⟨2, ![1024, 512]⟩ : Shape).Idx → EReal)
    (a8 : (⟨1, ![512]⟩ : Shape).Idx → EReal) (a9 : (⟨2, ![512, 128]⟩ : Shape).Idx → EReal)
    (a10 : (⟨1, ![128]⟩ : Shape).Idx → EReal) (a11 : (⟨2, ![128, 40]⟩ : Shape).Idx → EReal)
    (a12 : (⟨1, ![40]⟩ : Shape).Idx → EReal) : (⟨2, ![32, 40]⟩ : Shape).Idx → EReal :=
  headK (fun j => poolK (fun y => xp (ix3 (j 0) (y 1) (y 2))) w1p a2 a3 a4 a5 a6 (ix3 0 0 (j 1)))
    a7 a8 a9 a10 a11 a12

end Cert.Cheb

end
-- ==== Proof.HeadBlock.lean ====
/-
  The perceptron head as the second region computes it: three products of a block by a weight matrix into zero
  accumulators, each followed by the bias row added to every row, the first two also by the maximum against zero.
  Entry (b, j) of the result depends on row b of the pooled array only, and is the three-layer perceptron of
  that row at output j.
-/
import proofs.«171429_j17910013625104_2_alg».proof.Proof.Gen.KernelIdeal.Frame
import proofs.«171429_j17910013625104_2_alg».proof.Proof.ChebNet
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.HeadBlock

open Cert.KernelIdeal Cert.KernelIdeal.Gen Idealize.ShloMosaic Idealize.ShloMosaic.ValueIdx

/-- The product of a 32 × 1024 block and a 1024 × 512 block into the zero accumulator, at row `p` and column `q`:
    the sum over the shared axis of the products of the entries `(p, k)` and `(k, q)`. -/
theorem mm1_apply (l : FVec Ideal S32x1024 .bf16) (r : FVec Ideal S1024x512 .bf16) (p : Fin 32) (q : Fin 512) :
    matmul dot_S32x1024_S1024x512_S32x512_1_0_0_1_n_n none l r (constant S32x512 .f32 0x00000000#32) (ix2 p q)
      = ∑ k : Fin 1024, l (ix2 p k) * r (ix2 k q) := by
  simp only [matmul]
  rw [Ideal.matmul_constant_zero_apply, ← Equiv.sum_comp (contrEquiv1 dot_S32x1024_S1024x512_S32x512_1_0_0_1_n_n 1024 rfl rfl).symm]
  refine Finset.sum_congr rfl fun k _ => ?_
  have hk := contrEquiv1_symm_val dot_S32x1024_S1024x512_S32x512_1_0_0_1_n_n 1024 rfl rfl k
  have el : dot_S32x1024_S1024x512_S32x512_1_0_0_1_n_n.lhsIdx (ix2 p q) ((contrEquiv1 dot_S32x1024_S1024x512_S32x512_1_0_0_1_n_n 1024 rfl rfl).symm k) = ix2 p k :=
    funext fun a => Fin.ext (by
      match a with
      | ⟨0, _⟩ =>
        show (dot_S32x1024_S1024x512_S32x512_1_0_0_1_n_n.lhsIdx (ix2 p q) _ 0).val = p.val
        unfold DotDims.lhsIdx
        rw [dif_neg (show ¬(0 : Fin S32x1024.rank) ∈ dot_S32x1024_S1024x512_S32x512_1_0_0_1_n_n.lhsBatch by decide),
          dif_pos (show (0 : Fin S32x1024.rank) ∈ dot_S32x1024_S1024x512_S32x512_1_0_0_1_n_n.lhsNonContracting by decide)]
        rfl
      | ⟨1, _⟩ => exact (dot_S32x1024_S1024x512_S32x512_1_0_0_1_n_n.lhsIdx_val_of_single rfl (ix2 p q) _).trans hk)
  have er : dot_S32x1024_S1024x512_S32x512_1_0_0_1_n_n.rhsIdx (ix2 p q) ((contrEquiv1 dot_S32x1024_S1024x512_S32x512_1_0_0_1_n_n 1024 rfl rfl).symm k) = ix2 k q :=
    funext fun a => Fin.ext (by
      match a with
      | ⟨0, _⟩ => exact (dot_S32x1024_S1024x512_S32x512_1_0_0_1_n_n.rhsIdx_val_of_single rfl (ix2 p q) _).trans hk
      | ⟨1, _⟩ =>
        show (dot_S32x1024_S1024x512_S32x512_1_0_0_1_n_n.rhsIdx (ix2 p q) _ 1).val = q.val
        unfold DotDims.rhsIdx
        rw [dif_neg (show ¬(1 : Fin S1024x512.rank) ∈ dot_S32x1024_S1024x512_S32x512_1_0_0_1_n_n.rhsBatch by decide),
          dif_pos (show (1 : Fin S1024x512.rank) ∈ dot_S32x1024_S1024x512_S32x512_1_0_0_1_n_n.rhsNonContracting by decide)]
        rfl)
  rw [el, er]

/-- The product of a 32 × 512 block and a 512 × 128 block into the zero accumulator, at row `p` and column `q`:
    the sum over the shared axis of the products of the entries `(p, k)` and `(k, q)`. -/
theorem mm2_apply (l : FVec Ideal S32x512 .bf16) (r : FVec Ideal S512x128 .bf16) (p : Fin 32) (q : Fin 128) :
    matmul dot_S32x512_S512x128_S32x128_1_0_0_1_n_n none l r (constant S32x128 .f32 0x00000000#32) (ix2 p q)
      = ∑ k : Fin 512, l (ix2 p k) * r (ix2 k q) := by
  simp only [matmul]
  rw [Ideal.matmul_constant_zero_apply, ← Equiv.sum_comp (contrEquiv1 dot_S32x512_S512x128_S32x128_1_0_0_1_n_n 512 rfl rfl).symm]
  refine Finset.sum_congr rfl fun k _ => ?_
  have hk := contrEquiv1_symm_val dot_S32x512_S512x128_S32x128_1_0_0_1_n_n 512 rfl rfl k
  have el : dot_S32x512_S512x128_S32x128_1_0_0_1_n_n.lhsIdx (ix2 p q) ((contrEquiv1 dot_S32x512_S512x128_S32x128_1_0_0_1_n_n 512 rfl rfl).symm k) = ix2 p k :=
    funext fun a => Fin.ext (by
      match a with
      | ⟨0, _⟩ =>
        show (dot_S32x512_S512x128_S32x128_1_0_0_1_n_n.lhsIdx (ix2 p q) _ 0).val = p.val
        unfold DotDims.lhsIdx
        rw [dif_neg (show ¬(0 : Fin S32x512.rank) ∈ dot_S32x512_S512x128_S32x128_1_0_0_1_n_n.lhsBatch by decide),
          dif_pos (show (0 : Fin S32x512.rank) ∈ dot_S32x512_S512x128_S32x128_1_0_0_1_n_n.lhsNonContracting by decide)]
        rfl
      | ⟨1, _⟩ => exact (dot_S32x512_S512x128_S32x128_1_0_0_1_n_n.lhsIdx_val_of_single rfl (ix2 p q) _).trans hk)
  have er : dot_S32x512_S512x128_S32x128_1_0_0_1_n_n.rhsIdx (ix2 p q) ((contrEquiv1 dot_S32x512_S512x128_S32x128_1_0_0_1_n_n 512 rfl rfl).symm k) = ix2 k q :=
    funext fun a => Fin.ext (by
      match a with
      | ⟨0, _⟩ => exact (dot_S32x512_S512x128_S32x128_1_0_0_1_n_n.rhsIdx_val_of_single rfl (ix2 p q) _).trans hk
      | ⟨1, _⟩ =>
        show (dot_S32x512_S512x128_S32x128_1_0_0_1_n_n.rhsIdx (ix2 p q) _ 1).val = q.val
        unfold DotDims.rhsIdx
        rw [dif_neg (show ¬(1 : Fin S512x128.rank) ∈ dot_S32x512_S512x128_S32x128_1_0_0_1_n_n.rhsBatch by decide),
          dif_pos (show (1 : Fin S512x128.rank) ∈ dot_S32x512_S512x128_S32x128_1_0_0_1_n_n.rhsNonContracting by decide)]
        rfl)
  rw [el, er]

/-- The product of a 32 × 128 block and a 128 × 40 block into the zero accumulator, at row `p` and column `q`:
    the sum over the shared axis of the products of the entries `(p, k)` and `(k, q)`. -/
theorem mm3_apply (l : FVec Ideal S32x128 .bf16) (r : FVec Ideal S128x40 .bf16) (p : Fin 32) (q : Fin 40) :
    matmul dot_S32x128_S128x40_S32x40_1_0_0_1_n_n none l r (constant S32x40 .f32 0x00000000#32) (ix2 p q)
      = ∑ k : Fin 128, l (ix2 p k) * r (ix2 k q) := by
  simp only [matmul]
  rw [Ideal.matmul_constant_zero_apply, ← Equiv.sum_comp (contrEquiv1 dot_S32x128_S128x40_S32x40_1_0_0_1_n_n 128 rfl rfl).symm]
  refine Finset.sum_congr rfl fun k _ => ?_
  have hk := contrEquiv1_symm_val dot_S32x128_S128x40_S32x40_1_0_0_1_n_n 128 rfl rfl k
  have el : dot_S32x128_S128x40_S32x40_1_0_0_1_n_n.lhsIdx (ix2 p q) ((contrEquiv1 dot_S32x128_S128x40_S32x40_1_0_0_1_n_n 128 rfl rfl).symm k) = ix2 p k :=
    funext fun a => Fin.ext (by
      match a with
      | ⟨0, _⟩ =>
        show (dot_S32x128_S128x40_S32x40_1_0_0_1_n_n.lhsIdx (ix2 p q) _ 0).val = p.val
        unfold DotDims.lhsIdx
        rw [dif_neg (show ¬(0 : Fin S32x128.rank) ∈ dot_S32x128_S128x40_S32x40_1_0_0_1_n_n.lhsBatch by decide),
          dif_pos (show (0 : Fin S32x128.rank) ∈ dot_S32x128_S128x40_S32x40_1_0_0_1_n_n.lhsNonContracting by decide)]
        rfl
      | ⟨1, _⟩ => exact (dot_S32x128_S128x40_S32x40_1_0_0_1_n_n.lhsIdx_val_of_single rfl (ix2 p q) _).trans hk)
  have er : dot_S32x128_S128x40_S32x40_1_0_0_1_n_n.rhsIdx (ix2 p q) ((contrEquiv1 dot_S32x128_S128x40_S32x40_1_0_0_1_n_n 128 rfl rfl).symm k) = ix2 k q :=
    funext fun a => Fin.ext (by
      match a with
      | ⟨0, _⟩ => exact (dot_S32x128_S128x40_S32x40_1_0_0_1_n_n.rhsIdx_val_of_single rfl (ix2 p q) _).trans hk
      | ⟨1, _⟩ =>
        show (dot_S32x128_S128x40_S32x40_1_0_0_1_n_n.rhsIdx (ix2 p q) _ 1).val = q.val
        unfold DotDims.rhsIdx
        rw [dif_neg (show ¬(1 : Fin S128x40.rank) ∈ dot_S32x128_S128x40_S32x40_1_0_0_1_n_n.rhsBatch by decide),
          dif_pos (show (1 : Fin S128x40.rank) ∈ dot_S32x128_S128x40_S32x40_1_0_0_1_n_n.rhsNonContracting by decide)]
        rfl)
  rw [el, er]

/-- A bias vector of 512 entries, cast to one row and repeated down 32 rows, reads entry `q` at `(p, q)`. -/
theorem bias1_apply (v : Vec Ideal S512 .f32) (p : Fin 32) (q : Fin 512) :
    broadcastTo S32x512 (shapeCast S1x512 v shapeCasts_S512_S1x512) broadcasts_S1x512_S32x512 (ix2 p q) = v (ix1 q) :=
  (broadcastTo_1b_ab_apply _ broadcasts_S1x512_S32x512 p q).trans (shapeCast_a_1a_apply v shapeCasts_S512_S1x512 0 q)

/-- A bias vector of 128 entries, cast to one row and repeated down 32 rows, reads entry `q` at `(p, q)`. -/
theorem bias2_apply (v : Vec Ideal S128 .f32) (p : Fin 32) (q : Fin 128) :
    broadcastTo S32x128 (shapeCast S1x128 v shapeCasts_S128_S1x128) broadcasts_S1x128_S32x128 (ix2 p q) = v (ix1 q) :=
  (broadcastTo_1b_ab_apply _ broadcasts_S1x128_S32x128 p q).trans (shapeCast_a_1a_apply v shapeCasts_S128_S1x128 0 q)

/-- A bias vector of 40 entries, cast to one row and repeated down 32 rows, reads entry `q` at `(p, q)`. -/
theorem bias3_apply (v : Vec Ideal S40 .f32) (p : Fin 32) (q : Fin 40) :
    broadcastTo S32x40 (shapeCast S1x40 v shapeCasts_S40_S1x40) broadcasts_S1x40_S32x40 (ix2 p q) = v (ix1 q) :=
  (broadcastTo_1b_ab_apply _ broadcasts_S1x40_S32x40 p q).trans (shapeCast_a_1a_apply v shapeCasts_S40_S1x40 0 q)

/-- A block by a weight matrix, plus the bias row, against zero: at `(p, q)` the dense layer
    (with its maximum against zero) of row `p` of the block at output `q`. The operands' change of format is the identity on the extended reals. -/
theorem layer1_apply (x : FVec Ideal S32x1024 .f32) (w : Vec Ideal S1024x512 .f32) (b : Vec Ideal S512 .f32) (p : Fin 32) (q : Fin 512) :
    maximumf (addf (matmul dot_S32x1024_S1024x512_S32x512_1_0_0_1_n_n none (truncf .bf16 x bitsLt_bf16_f32) (truncf .bf16 w bitsLt_bf16_f32)
          (constant S32x512 .f32 0x00000000#32))
        (broadcastTo S32x512 (shapeCast S1x512 b shapeCasts_S512_S1x512) broadcasts_S1x512_S32x512))
      (broadcast S32x512 (Scalar.ofBits .f32 0x00000000#32)) (ix2 p q)
      = Cert.Cheb.denseRelu (fun k : Fin 1024 => x (ix2 p k)) (Cert.Cheb.mOf w) (Cert.Cheb.vOf b) q := by
  rw [maximumf_apply, addf_apply, mm1_apply, bias1_apply, broadcast_apply]
  rw [show (Scalar.ofBits .f32 0x00000000#32 : Ideal .f32) = 0 from Ideal.ofBits_zero_f32]
  rfl

/-- A block by a weight matrix, plus the bias row, against zero: at `(p, q)` the dense layer
    (with its maximum against zero) of row `p` of the block at output `q`. The operands' change of format is the identity on the extended reals. -/
theorem layer2_apply (x : FVec Ideal S32x512 .f32) (w : Vec Ideal S512x128 .f32) (b : Vec Ideal S128 .f32) (p : Fin 32) (q : Fin 128) :
    maximumf (addf (matmul dot_S32x512_S512x128_S32x128_1_0_0_1_n_n none (truncf .bf16 x bitsLt_bf16_f32) (truncf .bf16 w bitsLt_bf16_f32)
          (constant S32x128 .f32 0x00000000#32))
        (broadcastTo S32x128 (shapeCast S1x128 b shapeCasts_S128_S1x128) broadcasts_S1x128_S32x128))
      (broadcast S32x128 (Scalar.ofBits .f32 0x00000000#32)) (ix2 p q)
      = Cert.Cheb.denseRelu (fun k : Fin 512 => x (ix2 p k)) (Cert.Cheb.mOf w) (Cert.Cheb.vOf b) q := by
  rw [maximumf_apply, addf_apply, mm2_apply, bias2_apply, broadcast_apply]
  rw [show (Scalar.ofBits .f32 0x00000000#32 : Ideal .f32) = 0 from Ideal.ofBits_zero_f32]
  rfl

/-- A block by a weight matrix, plus the bias row: at `(p, q)` the dense layer
    of row `p` of the block at output `q`. The operands' change of format is the identity on the extended reals. -/
theorem layer3_apply (x : FVec Ideal S32x128 .f32) (w : Vec Ideal S128x40 .f32) (b : Vec Ideal S40 .f32) (p : Fin 32) (q : Fin 40) :
    addf (matmul dot_S32x128_S128x40_S32x40_1_0_0_1_n_n none (truncf .bf16 x bitsLt_bf16_f32) (truncf .bf16 w bitsLt_bf16_f32)
          (constant S32x40 .f32 0x00000000#32))
        (broadcastTo S32x40 (shapeCast S1x40 b shapeCasts_S40_S1x40) broadcasts_S1x40_S32x40) (ix2 p q)
      = Cert.Cheb.dense (fun k : Fin 128 => x (ix2 p k)) (Cert.Cheb.mOf w) (Cert.Cheb.vOf b) q := by
  rw [addf_apply, mm3_apply, bias3_apply]
  rfl

/-- The body's stored value at `(p, q)`: the three layers composed on row `p` of the pooled block. -/
theorem pay_apply (v0 : Vec Ideal S32x1024 .f32) (v2 : Vec Ideal S1024x512 .f32) (v3 : Vec Ideal S512 .f32)
    (v4 : Vec Ideal S512x128 .f32) (v5 : Vec Ideal S128 .f32) (v6 : Vec Ideal S128x40 .f32) (v7 : Vec Ideal S40 .f32)
    (p : Fin 32) (q : Fin 40) :
    k1_pay1 (F := Ideal) v0 v2 v3 v4 v5 v6 v7 (ix2 p q)
      = Cert.Cheb.head (fun f : Fin 1024 => v0 (ix2 p f)) (Cert.Cheb.mOf v2) (Cert.Cheb.vOf v3) (Cert.Cheb.mOf v4)
          (Cert.Cheb.vOf v5) (Cert.Cheb.mOf v6) (Cert.Cheb.vOf v7) q := by
  unfold k1_pay1
  refine (layer3_apply _ v6 v7 p q).trans ?_
  unfold Cert.Cheb.head
  refine congrArg (fun a => Cert.Cheb.dense a (Cert.Cheb.mOf v6) (Cert.Cheb.vOf v7) q) (funext fun k2 => ?_)
  refine (layer2_apply _ v4 v5 p k2).trans ?_
  refine congrArg (fun a => Cert.Cheb.denseRelu a (Cert.Cheb.mOf v4) (Cert.Cheb.vOf v5) k2) (funext fun k1 => ?_)
  refine (layer1_apply _ v2 v3 p k1).trans ?_
  rw [shapeCast_self]

/-- What the second region's body leaves in its output window: the perceptron head of the pooled array. -/
theorem out1_7_eq (x0 : Vec Ideal S32x1024 .f32) (x1 : Vec Ideal S1024x512 .f32) (x2 : Vec Ideal S512 .f32)
    (x3 : Vec Ideal S512x128 .f32) (x4 : Vec Ideal S128 .f32) (x5 : Vec Ideal S128x40 .f32) (x6 : Vec Ideal S40 .f32) :
    (Cert.KernelIdeal.Gen.out1_7 (F := Ideal) x0 x1 x2 x3 x4 x5 x6 : S32x40.Idx → EReal)
      = Cert.Cheb.headK x0 x1 x2 x3 x4 x5 x6 := by
  have hz2 : (![0, 0] : Fin 2 → Nat) = fun _ => 0 := by
    funext a; match a with | ⟨0, _⟩ => rfl | ⟨1, _⟩ => rfl
  have hz1 : (![0] : Fin 1 → Nat) = fun _ => 0 := by
    funext a; match a with | ⟨0, _⟩ => rfl
  unfold Cert.KernelIdeal.Gen.out1_7
  rw [View.canon_unit_zero hz2]
  simp only [View.ld_unit_zero (S := S32x1024) hz2, View.ld_unit_zero (S := S1024x512) hz2, View.ld_unit_zero (S := S512) hz1,
    View.ld_unit_zero (S := S512x128) hz2, View.ld_unit_zero (S := S128) hz1, View.ld_unit_zero (S := S128x40) hz2,
    View.ld_unit_zero (S := S40) hz1]
  funext i
  obtain ⟨p, q, rfl⟩ : ∃ (p : Fin 32) (q : Fin 40), i = ix2 p q := ⟨i 0, i 1, eq_ix2 i⟩
  exact pay_apply x0 x1 x2 x3 x4 x5 x6 p q

end Cert.KernelIdeal.HeadBlock

end
-- ==== Proof.KernelGlue.lean ====
/-
  The contents of the buffers the two regions read, and the run's value as the padded-input network.

  Before the first region the host pads the clouds from 6 to 8 coordinates and the first layer's weights from 6 to 8
  rows, with the zero that converting the integer 0 gives; the other arrays the regions read are arguments, which no
  host operation and no region writes.  Between the regions the pooled 32 × 1 × 1024 array is reshaped to 32 × 1024:
  entry `(b, f)` reads entry `(b, 0, f)`.  Put together, the result buffer ends holding the perceptron head on the
  array whose row `b` is the fused body's result on cloud `b` of the padded input.
-/
import proofs.«171429_j17910013625104_2_alg».proof.Proof.Gen.KernelIdeal.Frame
import proofs.«171429_j17910013625104_2_alg».proof.Proof.KernelArrays
import proofs.«171429_j17910013625104_2_alg».proof.Proof.HeadBlock
import proofs.«171429_j17910013625104_2_alg».proof.Proof.ChebNet
import Idealize.ShloMosaic.Lib.StableHlo.Run
import Idealize.ShloMosaic.Lib.Pipeline.Value
import Idealize.ShloMosaic.Lib.ValueIdx

set_option maxRecDepth 16384

noncomputable section

namespace Cert.KernelIdeal.Glue

open Cert.KernelIdeal Cert.KernelIdeal.Gen Idealize.ShloMosaic Idealize.ShloMosaic.TcCoe Idealize.SL.Sem
open Idealize.ShloMosaic.StableHlo Idealize.ShloMosaic.ValueIdx

variable (m : (ℓ : Loc nD τ sig) → Buf (Elt Ideal) ℓ) (ρ : Dev nD → PrngReg)

/-! ## The arrays the first region finds -/

/-- The clouds padded with two zero coordinates. -/
abbrev xpad (c : Dev nD) : S32x1024x8.Idx → EReal :=
  pad S32x1024x8 ![0, 0, 0] ![0, 0, 2] ![0, 0, 0] (m ((c : Thread nD τ).loc main_arg0)) (sitofp (F := Ideal) .f32 (constantI S_ 32 0#32))
    pads_S32x1024x6_S32x1024x8_000_000_020 h_S_

/-- The first layer's weights padded with two zero rows. -/
abbrev wpad (c : Dev nD) : S3x8x128.Idx → EReal :=
  pad S3x8x128 ![0, 0, 0] ![0, 2, 0] ![0, 0, 0] (m ((c : Thread nD τ).loc main_arg1)) (sitofp (F := Ideal) .f32 (constantI S_ 32 0#32))
    pads_S3x6x128_S3x8x128_000_020_000 h_S_

theorem V4_v0 (c : Dev nD) : V4 m ρ c main_v0 = xpad m c := by
  show StableHlo.after hostOps0_3 (StableHlo.after hostOps0_2 (StableHlo.after hostOps0_1 (StableHlo.after hostOps0 (W0 m ρ c)))) (Proc.devRef .tc main_v0) = _
  after_results
  rfl

theorem V4_v1 (c : Dev nD) : V4 m ρ c main_v1 = wpad m c := by
  show StableHlo.after hostOps0_3 (StableHlo.after hostOps0_2 (StableHlo.after hostOps0_1 (StableHlo.after hostOps0 (W0 m ρ c)))) (Proc.devRef .tc main_v1) = _
  after_results
  rfl

theorem V4_arg2 (c : Dev nD) : V4 m ρ c main_arg2 = m ((c : Thread nD τ).loc main_arg2) := by
  show StableHlo.after hostOps0_3 (StableHlo.after hostOps0_2 (StableHlo.after hostOps0_1 (StableHlo.after hostOps0 (W0 m ρ c)))) (Proc.devRef .tc main_arg2) = _
  after_results <;> rfl

theorem V4_arg3 (c : Dev nD) : V4 m ρ c main_arg3 = m ((c : Thread nD τ).loc main_arg3) := by
  show StableHlo.after hostOps0_3 (StableHlo.after hostOps0_2 (StableHlo.after hostOps0_1 (StableHlo.after hostOps0 (W0 m ρ c)))) (Proc.devRef .tc main_arg3) = _
  after_results <;> rfl

theorem V4_arg4 (c : Dev nD) : V4 m ρ c main_arg4 = m ((c : Thread nD τ).loc main_arg4) := by
  show StableHlo.after hostOps0_3 (StableHlo.after hostOps0_2 (StableHlo.after hostOps0_1 (StableHlo.after hostOps0 (W0 m ρ c)))) (Proc.devRef .tc main_arg4) = _
  after_results <;> rfl

theorem V4_arg5 (c : Dev nD) : V4 m ρ c main_arg5 = m ((c : Thread nD τ).loc main_arg5) := by
  show StableHlo.after hostOps0_3 (StableHlo.after hostOps0_2 (StableHlo.after hostOps0_1 (StableHlo.after hostOps0 (W0 m ρ c)))) (Proc.devRef .tc main_arg5) = _
  after_results <;> rfl

theorem V4_arg6 (c : Dev nD) : V4 m ρ c main_arg6 = m ((c : Thread nD τ).loc main_arg6) := by
  show StableHlo.after hostOps0_3 (StableHlo.after hostOps0_2 (StableHlo.after hostOps0_1 (StableHlo.after hostOps0 (W0 m ρ c)))) (Proc.devRef .tc main_arg6) = _
  after_results <;> rfl

/-! ## The arrays the second region finds -/

theorem V6_arg7 (c : Dev nD) : V6 m ρ c main_arg7 = m ((c : Thread nD τ).loc main_arg7) := by
  have e6 : W6 m ρ c (Proc.devRef .tc main_arg7) = W5 m ρ c (Proc.devRef .tc main_arg7) := by
    show StableHlo.after hostOps1 (W5 m ρ c) (Proc.devRef .tc main_arg7) = _
    after_results <;> rfl
  have e5 : W5 m ρ c (Proc.devRef .tc main_arg7) = W4 m ρ c (Proc.devRef .tc main_arg7) := W5_of_ne m ρ c main_arg7 (by decide)
  have e4 : W4 m ρ c (Proc.devRef .tc main_arg7) = m ((c : Thread nD τ).loc main_arg7) := by
    show StableHlo.after hostOps0_3 (StableHlo.after hostOps0_2 (StableHlo.after hostOps0_1 (StableHlo.after hostOps0 (W0 m ρ c)))) (Proc.devRef .tc main_arg7) = _
    after_results <;> rfl
  exact e6.trans (e5.trans e4)

theorem V6_arg8 (c : Dev nD) : V6 m ρ c main_arg8 = m ((c : Thread nD τ).loc main_arg8) := by
  have e6 : W6 m ρ c (Proc.devRef .tc main_arg8) = W5 m ρ c (Proc.devRef .tc main_arg8) := by
    show StableHlo.after hostOps1 (W5 m ρ c) (Proc.devRef .tc main_arg8) = _
    after_results <;> rfl
  have e5 : W5 m ρ c (Proc.devRef .tc main_arg8) = W4 m ρ c (Proc.devRef .tc main_arg8) := W5_of_ne m ρ c main_arg8 (by decide)
  have e4 : W4 m ρ c (Proc.devRef .tc main_arg8) = m ((c : Thread nD τ).loc main_arg8) := by
    show StableHlo.after hostOps0_3 (StableHlo.after hostOps0_2 (StableHlo.after hostOps0_1 (StableHlo.after hostOps0 (W0 m ρ c)))) (Proc.devRef .tc main_arg8) = _
    after_results <;> rfl
  exact e6.trans (e5.trans e4)

theorem V6_arg9 (c : Dev nD) : V6 m ρ c main_arg9 = m ((c : Thread nD τ).loc main_arg9) := by
  have e6 : W6 m ρ c (Proc.devRef .tc main_arg9) = W5 m ρ c (Proc.devRef .tc main_arg9) := by
    show StableHlo.after hostOps1 (W5 m ρ c) (Proc.devRef .tc main_arg9) = _
    after_results <;> rfl
  have e5 : W5 m ρ c (Proc.devRef .tc main_arg9) = W4 m ρ c (Proc.devRef .tc main_arg9) := W5_of_ne m ρ c main_arg9 (by decide)
  have e4 : W4 m ρ c (Proc.devRef .tc main_arg9) = m ((c : Thread nD τ).loc main_arg9) := by
    show StableHlo.after hostOps0_3 (StableHlo.after hostOps0_2 (StableHlo.after hostOps0_1 (StableHlo.after hostOps0 (W0 m ρ c)))) (Proc.devRef .tc main_arg9) = _
    after_results <;> rfl
  exact e6.trans (e5.trans e4)

theorem V6_arg10 (c : Dev nD) : V6 m ρ c main_arg10 = m ((c : Thread nD τ).loc main_arg10) := by
  have e6 : W6 m ρ c (Proc.devRef .tc main_arg10) = W5 m ρ c (Proc.devRef .tc main_arg10) := by
    show StableHlo.after hostOps1 (W5 m ρ c) (Proc.devRef .tc main_arg10) = _
    after_results <;> rfl
  have e5 : W5 m ρ c (Proc.devRef .tc main_arg10) = W4 m ρ c (Proc.devRef .tc main_arg10) := W5_of_ne m ρ c main_arg10 (by decide)
  have e4 : W4 m ρ c (Proc.devRef .tc main_arg10) = m ((c : Thread nD τ).loc main_arg10) := by
    show StableHlo.after hostOps0_3 (StableHlo.after hostOps0_2 (StableHlo.after hostOps0_1 (StableHlo.after hostOps0 (W0 m ρ c)))) (Proc.devRef .tc main_arg10) = _
    after_results <;> rfl
  exact e6.trans (e5.trans e4)

theorem V6_arg11 (c : Dev nD) : V6 m ρ c main_arg11 = m ((c : Thread nD τ).loc main_arg11) := by
  have e6 : W6 m ρ c (Proc.devRef .tc main_arg11) = W5 m ρ c (Proc.devRef .tc main_arg11) := by
    show StableHlo.after hostOps1 (W5 m ρ c) (Proc.devRef .tc main_arg11) = _
    after_results <;> rfl
  have e5 : W5 m ρ c (Proc.devRef .tc main_arg11) = W4 m ρ c (Proc.devRef .tc main_arg11) := W5_of_ne m ρ c main_arg11 (by decide)
  have e4 : W4 m ρ c (Proc.devRef .tc main_arg11) = m ((c : Thread nD τ).loc main_arg11) := by
    show StableHlo.after hostOps0_3 (StableHlo.after hostOps0_2 (StableHlo.after hostOps0_1 (StableHlo.after hostOps0 (W0 m ρ c)))) (Proc.devRef .tc main_arg11) = _
    after_results <;> rfl
  exact e6.trans (e5.trans e4)

theorem V6_arg12 (c : Dev nD) : V6 m ρ c main_arg12 = m ((c : Thread nD τ).loc main_arg12) := by
  have e6 : W6 m ρ c (Proc.devRef .tc main_arg12) = W5 m ρ c (Proc.devRef .tc main_arg12) := by
    show StableHlo.after hostOps1 (W5 m ρ c) (Proc.devRef .tc main_arg12) = _
    after_results <;> rfl
  have e5 : W5 m ρ c (Proc.devRef .tc main_arg12) = W4 m ρ c (Proc.devRef .tc main_arg12) := W5_of_ne m ρ c main_arg12 (by decide)
  have e4 : W4 m ρ c (Proc.devRef .tc main_arg12) = m ((c : Thread nD τ).loc main_arg12) := by
    show StableHlo.after hostOps0_3 (StableHlo.after hostOps0_2 (StableHlo.after hostOps0_1 (StableHlo.after hostOps0 (W0 m ρ c)))) (Proc.devRef .tc main_arg12) = _
    after_results <;> rfl
  exact e6.trans (e5.trans e4)

/-- The pooled array as the first region leaves it. -/
theorem W5_v2 (c : Dev nD) : W5 m ρ c (Proc.devRef .tc main_v2) = ArrValue.pooled (V4 m ρ) c :=
  (W5_arr m ρ c 7).trans (ArrValue.final0 (V4 m ρ) c)

/-- The reshaped pooled array: entry `(b, f)` reads entry `(b, 0, f)`. -/
theorem V6_v3_apply (c : Dev nD) (j : S32x1024.Idx) :
    V6 m ρ c main_v3 j = ArrValue.pooled (V4 m ρ) c (ix3 (j 0) (0 : Fin 1) (j 1)) := by
  have e : W6 m ρ c (Proc.devRef .tc main_v3)
      = shapeCast S32x1024 (W5 m ρ c (Proc.devRef .tc main_v2)) shapeCasts_S32x1x1024_S32x1024 := by
    show StableHlo.after hostOps1 (W5 m ρ c) (Proc.devRef .tc main_v3) = _
    after_results
    rfl
  show W6 m ρ c (Proc.devRef .tc main_v3) j = _
  rw [e, W5_v2]
  exact shapeCast_apply _ _ j (ix3 (j 0) (0 : Fin 1) (j 1)) (by
    rw [Shape.rowMajor_val_three, Shape.rowMajor_val_two]
    show ((j 0).val * 1 + 0) * 1024 + (j 1).val = (j 0).val * 1024 + (j 1).val
    omega)

/-! ## The run's value -/

section Value

attribute [local irreducible] out0_7 out1_7 Cert.Cheb.poolK Cert.Cheb.headK

/-- Row `b` of the reshaped pooled array is the three layers and the pooling on cloud `b` of the padded input —
    given that the fused body's result on its blocks is the three layers and the pooling (`h0`). -/
theorem pooled_row (c : Dev nD)
    (h0 : ∀ (x0 : Vec Ideal S1x1024x8 .f32) (x1 : Vec Ideal S3x8x128 .f32) (x2 : Vec Ideal S128 .f32) (x3 : Vec Ideal S3x128x512 .f32)
      (x4 : Vec Ideal S512 .f32) (x5 : Vec Ideal S3x512x1024 .f32) (x6 : Vec Ideal S1024 .f32),
      (out0_7 (F := Ideal) x0 x1 x2 x3 x4 x5 x6 : S1x1x1024.Idx → EReal) = Cert.Cheb.poolK x0 x1 x2 x3 x4 x5 x6)
    (j : S32x1024.Idx) :
    V6 m ρ c main_v3 j
      = Cert.Cheb.poolK (fun y => xpad m c (ix3 (j 0) (y 1) (y 2))) (wpad m c) (m ((c : Thread nD τ).loc main_arg2))
          (m ((c : Thread nD τ).loc main_arg3)) (m ((c : Thread nD τ).loc main_arg4)) (m ((c : Thread nD τ).loc main_arg5))
          (m ((c : Thread nD τ).loc main_arg6)) (ix3 (0 : Fin 1) (0 : Fin 1) (j 1)) := by
  rw [V6_v3_apply]
  unfold ArrValue.pooled
  rw [h0, V4_v0, V4_v1, V4_arg2, V4_arg3, V4_arg4, V4_arg5, V4_arg6]
  have hx : ArrValue.cloud (F := Ideal) (xpad m c) ((ix3 (j 0) (0 : Fin 1) (j 1) : S32x1x1024.Idx) 0) = fun (y : S1x1024x8.Idx) => xpad m c (ix3 (j 0) (y 1) (y 2)) := by
    funext y
    unfold ArrValue.cloud
    exact congrArg _ (funext fun a => match a with | ⟨0, _⟩ => rfl | ⟨1, _⟩ => rfl | ⟨2, _⟩ => rfl)
  have hi : (fun a : Fin 3 => match a with | ⟨0, _⟩ => (0 : Fin 1) | ⟨1, _⟩ => (0 : Fin 1) | ⟨2, _⟩ => (ix3 (j 0) (0 : Fin 1) (j 1) : S32x1x1024.Idx) 2)
      = (ix3 (0 : Fin 1) (0 : Fin 1) (j 1) : S1x1x1024.Idx) :=
    funext fun a => match a with | ⟨0, _⟩ => rfl | ⟨1, _⟩ => rfl | ⟨2, _⟩ => rfl
  rw [hx]
  exact congrArg _ hi

/-- The result buffer at the last boundary is the padded-input network of the padded clouds, the padded first
    weights and the other arguments — given `h0` as above. -/
theorem value_of (c : Dev nD)
    (h0 : ∀ (x0 : Vec Ideal S1x1024x8 .f32) (x1 : Vec Ideal S3x8x128 .f32) (x2 : Vec Ideal S128 .f32) (x3 : Vec Ideal S3x128x512 .f32)
      (x4 : Vec Ideal S512 .f32) (x5 : Vec Ideal S3x512x1024 .f32) (x6 : Vec Ideal S1024 .f32),
      (out0_7 (F := Ideal) x0 x1 x2 x3 x4 x5 x6 : S1x1x1024.Idx → EReal) = Cert.Cheb.poolK x0 x1 x2 x3 x4 x5 x6) :
    (W7 m ρ c (Proc.devRef .tc main_v4) : S32x40.Idx → EReal)
      = Cert.Cheb.netK (xpad m c) (wpad m c) (m ((c : Thread nD τ).loc main_arg2)) (m ((c : Thread nD τ).loc main_arg3))
          (m ((c : Thread nD τ).loc main_arg4)) (m ((c : Thread nD τ).loc main_arg5)) (m ((c : Thread nD τ).loc main_arg6))
          (m ((c : Thread nD τ).loc main_arg7)) (m ((c : Thread nD τ).loc main_arg8)) (m ((c : Thread nD τ).loc main_arg9))
          (m ((c : Thread nD τ).loc main_arg10)) (m ((c : Thread nD τ).loc main_arg11)) (m ((c : Thread nD τ).loc main_arg12)) := by
  have e1 : W7 m ρ c (Proc.devRef .tc main_v4) = (dat1 (V6 m ρ) c).arrAt 7 cfg1.N := W7_arr m ρ c 7
  have e2 : (V6 m ρ c main_v3 : S32x1024.Idx → EReal)
      = fun j => Cert.Cheb.poolK (fun y => xpad m c (ix3 (j 0) (y 1) (y 2))) (wpad m c) (m ((c : Thread nD τ).loc main_arg2))
          (m ((c : Thread nD τ).loc main_arg3)) (m ((c : Thread nD τ).loc main_arg4)) (m ((c : Thread nD τ).loc main_arg5))
          (m ((c : Thread nD τ).loc main_arg6)) (ix3 (0 : Fin 1) (0 : Fin 1) (j 1)) :=
    funext fun j => pooled_row m ρ c h0 j
  rw [e1, ArrValue.final1 (V6 m ρ) c, HeadBlock.out1_7_eq, V6_arg7, V6_arg8, V6_arg9, V6_arg10, V6_arg11, V6_arg12, e2]
  unfold Cert.Cheb.netK
  rfl

end Value

end Cert.KernelIdeal.Glue

end
-- ==== Proof.ChebOps.lean ====
/-
  The layer's array operations read at an index, for any extents.

  A Chebyshev layer is built from a handful of array operations besides the pointwise ones: a matrix product
  contracting the last axes of both factors (the Gram matrix of the rows), a matrix product contracting the
  last axis of the left factor with the first of the right, a sum along each row, a vector laid out as a column
  or as a row and repeated across a matrix, one matrix cut out of a stack of three, and a maximum down each
  column.  Each is read here at an entry `(i, j)` given by its coordinates, as the sum, the entry or the
  supremum it is, over any extents: the three layers differ only in their widths.
-/
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx
open scoped BigOperators

variable {α : Type}

/-! ## A vector as a column or a row, repeated across a matrix -/

/-- A vector of length `a` cast to an `a × 1` column reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column repeated across `b` columns reads, at `(p, c)`, the column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector laid out as a column and repeated across the columns: entry `(p, c)` is the vector at `p`. -/
theorem colBroadcast_apply {a b : ℕ} (x : (⟨1, ![a]⟩ : Shape).Idx → α) (h1 : (⟨1, ![a]⟩ : Shape).ShapeCasts ⟨2, ![a, 1]⟩)
    (h2 : (⟨2, ![a, 1]⟩ : Shape).Broadcasts ⟨2, ![a, b]⟩) (p : Fin a) (c : Fin b) :
    broadcastTo ⟨2, ![a, b]⟩ (shapeCast ⟨2, ![a, 1]⟩ x h1) h2 (ix2 p c) = x (ix1 p) :=
  (broadcastTo_a1_ab_apply _ h2 p c).trans (shapeCast_a_a1_apply x h1 p 0)

/-- A vector laid out as a row and repeated down the rows: entry `(p, c)` is the vector at `c`. -/
theorem rowBroadcast_apply {a b : ℕ} (x : (⟨1, ![b]⟩ : Shape).Idx → α) (h1 : (⟨1, ![b]⟩ : Shape).ShapeCasts ⟨2, ![1, b]⟩)
    (h2 : (⟨2, ![1, b]⟩ : Shape).Broadcasts ⟨2, ![a, b]⟩) (p : Fin a) (c : Fin b) :
    broadcastTo ⟨2, ![a, b]⟩ (shapeCast ⟨2, ![1, b]⟩ x h1) h2 (ix2 p c) = x (ix1 c) :=
  (broadcastTo_1b_ab_apply _ h2 p c).trans (shapeCast_a_1a_apply x h1 0 c)

/-! ## One matrix of a stack of three -/

/-- Matrix `o` cut out of a stack `[3, a, b]` and read as an `a × b` matrix: entry `(f, g)` is the stack at `(o, f, g)`. -/
theorem tap_apply {a b : ℕ} (o : ℕ) (ho : o < 3) (w : (⟨3, ![3, a, b]⟩ : Shape).Idx → α)
    (hs : (⟨3, ![3, a, b]⟩ : Shape).Slices ![o, 0, 0] ⟨3, ![1, a, b]⟩)
    (hc : (⟨3, ![1, a, b]⟩ : Shape).ShapeCasts ⟨2, ![a, b]⟩) (f : Fin a) (g : Fin b) :
    shapeCast ⟨2, ![a, b]⟩ (extractStridedSlice ⟨3, ![1, a, b]⟩ ![o, 0, 0] w hs) hc (ix2 f g) = w (ix3 (⟨o, ho⟩ : Fin 3) f g) := by
  refine (shapeCast_1ab_ab_apply _ hc f g).trans ?_
  refine extractStridedSlice_apply _ w hs _ _ fun ax => ?_
  match ax with
  | ⟨0, _⟩ => rfl
  | ⟨1, _⟩ => show f.val = 0 + f.val; rw [Nat.zero_add]
  | ⟨2, _⟩ => show g.val = 0 + g.val; rw [Nat.zero_add]

/-! ## The row sums -/

/-- The sum along each row of an `n × a` matrix, started from the zero word: at `i`, the sum of row `i`.
    (The equation `hacc` between the starting word and the sum's neutral word is stated between the two literal words.) -/
theorem rowSum_apply {n a : ℕ} (src : FVec Ideal ⟨2, ![n, a]⟩ .f32) (h : Shape.Reduces ⟨2, ![n, a]⟩ [1] ⟨1, ![n]⟩)
    (hφ : FKind.Formats .f32) (hacc : (0x00000000#32 : BitVec 32) = 0x00000000#32) (i : Fin n) :
    multiReduction (F := Ideal) .add [1] ⟨1, ![n]⟩ src 0x00000000#32 h hφ hacc (ix1 i) = ∑ k : Fin a, src (ix2 i k) := by
  refine (Ideal.multiReduction_add_single src _ h hφ hacc (ix1 i)).trans ?_
  refine Finset.sum_congr rfl fun k _ => congrArg src ?_
  funext c
  match c with
  | ⟨0, _⟩ => rfl
  | ⟨1, _⟩ => rfl

/-- The same for the whole vector of row sums. -/
theorem rowSum_eq {n a : ℕ} (src : FVec Ideal ⟨2, ![n, a]⟩ .f32) (h : Shape.Reduces ⟨2, ![n, a]⟩ [1] ⟨1, ![n]⟩)
    (hφ : FKind.Formats .f32) (hacc : (0x00000000#32 : BitVec 32) = 0x00000000#32) :
    multiReduction (F := Ideal) .add [1] ⟨1, ![n]⟩ src 0x00000000#32 h hφ hacc = fun j => ∑ k : Fin a, src (ix2 (j 0) k) := by
  funext j
  have e := rowSum_apply src h hφ hacc (j 0)
  rw [eq_ix1 j]
  exact e

/-! ## The two matrix products -/

section Products
variable {n m a : ℕ} {φ₁ φ₂ : FTy}

/-- The product of an `n × a` matrix with the transpose of an `m × a` matrix, into the zero accumulator:
    entry `(i, j)` is the inner product of row `i` of the left factor and row `j` of the right. -/
theorem matmul_nt_apply (D : DotDims ⟨2, ![n, a]⟩ ⟨2, ![m, a]⟩ ⟨2, ![n, m]⟩)
    (hlc : D.lhsContracting = [1]) (hrc : D.rhsContracting = [1]) (hln : D.lhsNonContracting = [0])
    (hrn : D.rhsNonContracting = [0]) (hlb : D.lhsBatch = []) (hrb : D.rhsBatch = [])
    (prec : Option ContractPrecision) (l : FVec Ideal ⟨2, ![n, a]⟩ φ₁) (r : FVec Ideal ⟨2, ![m, a]⟩ φ₂) (i : Fin n) (j : Fin m) :
    matmul D prec l r (constant (F := Ideal) ⟨2, ![n, m]⟩ .f32 0x00000000#32) (ix2 i j) = ∑ q : Fin a, l (ix2 i q) * r (ix2 j q) := by
  have hr : D.contr.rank = 1 := by rw [D.rank_contr, hlc]; rfl
  have hs : D.contr.size ⟨0, by omega⟩ = a := by
    rw [D.size_contr 0 (by rw [hlc]; exact Nat.one_pos)]
    have : D.lhsContracting[0]'(by rw [hlc]; exact Nat.one_pos) = (1 : Fin 2) := by simp [hlc]
    rw [this]; rfl
  refine (Ideal.matmul_constant_zero_apply D prec l r (ix2 i j)).trans ?_
  rw [← Equiv.sum_comp (contrEquiv1 D a hr hs).symm]
  refine Finset.sum_congr rfl fun k _ => ?_
  have hk := contrEquiv1_symm_val D a hr hs k
  have key : ∀ (jj : (⟨2, ![n, m]⟩ : Shape).Idx) (p q : Nat) (hp : p < 2) (hq : q < 2), p = q → (jj ⟨p, hp⟩).val = (jj ⟨q, hq⟩).val :=
    fun jj p q hp hq e => by subst e; rfl
  have el : D.lhsIdx (ix2 i j) ((contrEquiv1 D a hr hs).symm k) = ix2 i k := funext fun c => Fin.ext (by
    match c with
    | ⟨0, _⟩ =>
      unfold DotDims.lhsIdx
      rw [dif_neg (by rw [hlb]; exact List.not_mem_nil), dif_pos (by rw [hln]; exact List.mem_singleton.mpr rfl)]
      simp only [Fin.val_cast]
      exact key (ix2 i j) _ 0 _ (by decide) (by simp [hlb, hln])
    | ⟨1, _⟩ => exact (D.lhsIdx_val_of_single hlc _ _).trans hk)
  have er : D.rhsIdx (ix2 i j) ((contrEquiv1 D a hr hs).symm k) = ix2 j k := funext fun c => Fin.ext (by
    match c with
    | ⟨0, _⟩ =>
      unfold DotDims.rhsIdx
      rw [dif_neg (by rw [hrb]; exact List.not_mem_nil), dif_pos (by rw [hrn]; exact List.mem_singleton.mpr rfl)]
      simp only [Fin.val_cast]
      exact key (ix2 i j) _ 1 _ (by decide) (by simp [hlb, hln, hrn])
    | ⟨1, _⟩ => exact (D.rhsIdx_val_of_single hrc _ _).trans hk)
  rw [el, er]

/-- The product of an `n × a` matrix with an `a × m` matrix, into the zero accumulator: entry `(i, j)` is
    the sum over `q` of the left factor at `(i, q)` times the right at `(q, j)`. -/
theorem matmul_nn_apply (D : DotDims ⟨2, ![n, a]⟩ ⟨2, ![a, m]⟩ ⟨2, ![n, m]⟩)
    (hlc : D.lhsContracting = [1]) (hrc : D.rhsContracting = [0]) (hln : D.lhsNonContracting = [0])
    (hrn : D.rhsNonContracting = [1]) (hlb : D.lhsBatch = []) (hrb : D.rhsBatch = [])
    (prec : Option ContractPrecision) (l : FVec Ideal ⟨2, ![n, a]⟩ φ₁) (r : FVec Ideal ⟨2, ![a, m]⟩ φ₂) (i : Fin n) (j : Fin m) :
    matmul D prec l r (constant (F := Ideal) ⟨2, ![n, m]⟩ .f32 0x00000000#32) (ix2 i j) = ∑ q : Fin a, l (ix2 i q) * r (ix2 q j) := by
  have hr : D.contr.rank = 1 := by rw [D.rank_contr, hlc]; rfl
  have hs : D.contr.size ⟨0, by omega⟩ = a := by
    rw [D.size_contr 0 (by rw [hlc]; exact Nat.one_pos)]
    have : D.lhsContracting[0]'(by rw [hlc]; exact Nat.one_pos) = (1 : Fin 2) := by simp [hlc]
    rw [this]; rfl
  refine (Ideal.matmul_constant_zero_apply D prec l r (ix2 i j)).trans ?_
  rw [← Equiv.sum_comp (contrEquiv1 D a hr hs).symm]
  refine Finset.sum_congr rfl fun k _ => ?_
  have hk := contrEquiv1_symm_val D a hr hs k
  have key : ∀ (jj : (⟨2, ![n, m]⟩ : Shape).Idx) (p q : Nat) (hp : p < 2) (hq : q < 2), p = q → (jj ⟨p, hp⟩).val = (jj ⟨q, hq⟩).val :=
    fun jj p q hp hq e => by subst e; rfl
  have el : D.lhsIdx (ix2 i j) ((contrEquiv1 D a hr hs).symm k) = ix2 i k := funext fun c => Fin.ext (by
    match c with
    | ⟨0, _⟩ =>
      unfold DotDims.lhsIdx
      rw [dif_neg (by rw [hlb]; exact List.not_mem_nil), dif_pos (by rw [hln]; exact List.mem_singleton.mpr rfl)]
      simp only [Fin.val_cast]
      exact key (ix2 i j) _ 0 _ (by decide) (by simp [hlb, hln])
    | ⟨1, _⟩ => exact (D.lhsIdx_val_of_single hlc _ _).trans hk)
  have er : D.rhsIdx (ix2 i j) ((contrEquiv1 D a hr hs).symm k) = ix2 k j := funext fun c => Fin.ext (by
    match c with
    | ⟨0, _⟩ => exact (D.rhsIdx_val_of_single hrc _ _).trans hk
    | ⟨1, _⟩ =>
      unfold DotDims.rhsIdx
      rw [dif_neg (by rw [hrb]; exact List.not_mem_nil), dif_pos (by rw [hrn]; exact List.mem_singleton.mpr rfl)]
      simp only [Fin.val_cast]
      exact key (ix2 i j) _ 1 _ (by decide) (by simp [hlb, hln, hrn]))
  rw [el, er]

end Products

/-! ## The maximum down each column -/

/-- The word of minus infinity is the least extended real. -/
theorem ofBits_neg_inf_f32 : Ideal.ofBits .f32 0xFF800000#32 = ⊥ := by simp [Ideal.ofBits, Ideal.ieee]

/-- The maximum down each column of an `n × b` matrix, started from minus infinity: at `g`, the supremum of column `g`. -/
theorem colMax_apply {n b : ℕ} (src : FVec Ideal ⟨2, ![n, b]⟩ .f32) (h : Shape.Reduces ⟨2, ![n, b]⟩ [0] ⟨1, ![b]⟩)
    (hφ : FKind.Formats .f32) (hacc : (0xFF800000#32 : BitVec 32) = 0xFF800000#32) (g : Fin b) :
    multiReduction (F := Ideal) .maximumf [0] ⟨1, ![b]⟩ src 0xFF800000#32 h hφ hacc (ix1 g) = Finset.univ.sup fun i : Fin n => src (ix2 i g) := by
  refine (Ideal.multiReduction_maximumf_single src _ h hφ hacc (ix1 g)).trans ?_
  have e : (src ∘ h.lift (ix1 g)) = fun i : Fin n => src (ix2 i g) := funext fun i => congrArg src (by
    funext c
    match c with
    | ⟨0, _⟩ => rfl
    | ⟨1, _⟩ => rfl)
  show Finset.fold max (Ideal.ofBits .f32 0xFF800000#32) (src ∘ h.lift (ix1 g)) (Finset.univ : Finset (Fin n)) = _
  rw [e, ofBits_neg_inf_f32]
  rfl

/-- The same for the whole vector of column maxima. -/
theorem colMax_eq {n b : ℕ} (src : FVec Ideal ⟨2, ![n, b]⟩ .f32) (h : Shape.Reduces ⟨2, ![n, b]⟩ [0] ⟨1, ![b]⟩)
    (hφ : FKind.Formats .f32) (hacc : (0xFF800000#32 : BitVec 32) = 0xFF800000#32) :
    multiReduction (F := Ideal) .maximumf [0] ⟨1, ![b]⟩ src 0xFF800000#32 h hφ hacc = fun j => Finset.univ.sup fun i : Fin n => src (ix2 i (j 0)) := by
  funext j
  have e := colMax_apply src h hφ hacc (j 0)
  rw [eq_ix1 j]
  exact e

end Cert.KernelIdeal.Block

end
-- ==== Proof.ChebLayer1.lean ====
/-
  The first layer (feature widths 8 → 128) of the fused body, read entry by entry.

  The body holds the cloud as a 1024 × 8 matrix `X` (the block with its leading unit axis dropped).  Its
  terms are, in the order the body computes them: the normalized adjacency `M = D^(-1/2) A D^(-1/2)` with
  `A = exp (0 - ‖X n - X m‖²)`, the squared distance expanded through the Gram matrix `X Xᵀ` and the row sums of
  `X ∘ X`; the first-order term `X₁ = X - M X`; the partial projection `X W₀ + X₁ W₁`; and, from those, the
  second-order term `X₂ = 2 (X₁ - M X₁) - X` and the layer's output `max (X W₀ + X₁ W₁ + X₂ W₂ + b) 0`.
-/
import proofs.«171429_j17910013625104_2_alg».proof.Proof.Gen.KernelIdeal.Frame
import proofs.«171429_j17910013625104_2_alg».proof.Proof.ChebNet
import proofs.«171429_j17910013625104_2_alg».proof.Proof.ChebOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.Cheb
open scoped BigOperators

/-- The cloud's block with its leading unit axis dropped: entry `(n, d)` is the block at `(0, n, d)`. -/
theorem pay2_apply (v0 : Vec Ideal S1x1024x8 .f32) (n : Fin 1024) (d : Fin 8) :
    k0_pay2 (F := Ideal) v0 (ix2 n d) = v0 (ix3 0 n d) := by
  unfold k0_pay2
  exact shapeCast_1ab_ab_apply v0 _ n d

/-- The stack of weight matrices is taken as it is. -/
theorem pay3_eq (v2 : Vec Ideal S3x8x128 .f32) : k0_pay3 (F := Ideal) v2 = v2 := by
  unfold k0_pay3
  exact shapeCast_self v2 _

set_option maxHeartbeats 400000 in
/-- The normalized adjacency of the cloud. -/
theorem pay4_apply (v0 : Vec Ideal S1x1024x8 .f32) (n m : Fin 1024) :
    k0_pay4 (F := Ideal) v0 (ix2 n m) = normK two (fun n f => k0_pay2 (F := Ideal) v0 (ix2 n f)) n m := by
  unfold k0_pay4
  repeat rw [rowSum_eq]
  simp only [truncf_apply, mulf_apply, subf_apply, addf_apply, broadcast_apply, colBroadcast_apply, rowBroadcast_apply,
    matmul_nt_apply dot_S1024x8_S1024x8_S1024x1024_1_1_0_0_n_n rfl rfl rfl rfl rfl rfl, exp, rsqrt,
    Ideal.exp_def, Ideal.rsqrt_def, Ideal.ofBits_def, Ideal.ofBits_zero_f32]
  simp only [normK, degK, adjK, Cheb.dist, Cheb.sq, Cheb.inner]

set_option maxHeartbeats 400000 in
/-- The first-order term `X - M X`. -/
theorem pay5_apply (v0 : Vec Ideal S1x1024x8 .f32) (n : Fin 1024) (f : Fin 8) :
    k0_pay5 (F := Ideal) v0 (ix2 n f) = x1K two (fun n f => k0_pay2 (F := Ideal) v0 (ix2 n f)) n f := by
  unfold k0_pay5
  simp only [subf_apply, truncf_apply, matmul_nn_apply dot_S1024x1024_S1024x8_S1024x8_1_0_0_1_n_n rfl rfl rfl rfl rfl rfl, pay4_apply]
  simp only [x1K, prop]

/-- The same term narrowed for the matrix unit: narrowing is the identity on the extended reals. -/
theorem pay7_apply (v0 : Vec Ideal S1x1024x8 .f32) (n : Fin 1024) (f : Fin 8) :
    k0_pay7 (F := Ideal) v0 (ix2 n f) = x1K two (fun n f => k0_pay2 (F := Ideal) v0 (ix2 n f)) n f :=
  pay5_apply v0 n f

set_option maxHeartbeats 400000 in
/-- The partial projection `X W₀ + X₁ W₁`. -/
theorem pay6_apply (v0 : Vec Ideal S1x1024x8 .f32) (v2 : Vec Ideal S3x8x128 .f32) (n : Fin 1024) (g : Fin 128) :
    k0_pay6 (F := Ideal) v0 v2 (ix2 n g)
      = proj (fun n f => k0_pay2 (F := Ideal) v0 (ix2 n f)) (wOf v2 0) n g
        + proj (x1K two (fun n f => k0_pay2 (F := Ideal) v0 (ix2 n f))) (wOf v2 1) n g := by
  unfold k0_pay6
  simp only [addf_apply, truncf_apply, matmul_nn_apply dot_S1024x8_S8x128_S1024x128_1_0_0_1_n_n rfl rfl rfl rfl rfl rfl,
    tap_apply 0 (by decide), tap_apply 1 (by decide), pay5_apply, pay3_eq]
  simp only [proj, wOf]
  rfl

set_option maxHeartbeats 400000 in
/-- The layer's output, from the terms before it: whatever vectors hold the cloud `X`, its normalized adjacency, its
    first-order term (twice: once narrowed) and the partial projection, the body's remaining operations give
    `max (X W₀ + X₁ W₁ + X₂ W₂ + b) 0` with `X₂ = 2 (X₁ - M X₁) - X`. -/
theorem pay8_apply (v1 : FVec Ideal S1024x8 .f32) (v3 : FVec Ideal S3x8x128 .f32) (v4 : Vec Ideal S128 .f32)
    (v27 : FVec Ideal S1024x1024 .bf16) (v30 : FVec Ideal S1024x8 .f32) (v41 : FVec Ideal S1024x128 .f32)
    (v42 : FVec Ideal S1024x8 .bf16) (X : Fin 1024 → Fin 8 → EReal)
    (h1 : ∀ n f, v1 (ix2 n f) = X n f) (h27 : ∀ n m, v27 (ix2 n m) = normK two X n m)
    (h30 : ∀ n f, v30 (ix2 n f) = x1K two X n f) (h42 : ∀ n f, v42 (ix2 n f) = x1K two X n f)
    (h41 : ∀ n g, v41 (ix2 n g) = proj X (wOf v3 0) n g + proj (x1K two X) (wOf v3 1) n g) (n : Fin 1024) (g : Fin 128) :
    k0_pay8 (F := Ideal) v1 v3 v4 v27 v30 v41 v42 (constant (F := Ideal) S1024x8 .f32 0x00000000#32) (ix2 n g)
      = layerK two X (wOf v3) (vOf v4) n g := by
  unfold k0_pay8
  simp only [maximumf_apply, addf_apply, subf_apply, mulf_apply, truncf_apply, broadcast_apply, rowBroadcast_apply,
    matmul_nn_apply dot_S1024x8_S8x128_S1024x128_1_0_0_1_n_n rfl rfl rfl rfl rfl rfl,
    matmul_nn_apply dot_S1024x1024_S1024x8_S1024x8_1_0_0_1_n_n rfl rfl rfl rfl rfl rfl,
    tap_apply 2 (by decide), h1, h27, h30, h41, h42, Ideal.ofBits_def, Ideal.ofBits_zero_f32]
  simp only [layerK, x2K, prop, proj, wOf, vOf]
  rfl

end Cert.KernelIdeal.Block

end
-- ==== Proof.ChebLayer2.lean ====
/-
  The second layer (feature widths 128 → 512) of the fused body, read entry by entry.

  The layer's input `X` is the first layer's output, a 1024 × 128 matrix.  The terms are those of every layer:
  the normalized adjacency `M` of `X`, the first-order term `X₁ = X - M X`, the first weight matrix, and from
  them `X₂ = 2 (X₁ - M X₁) - X` and the output `max (X W₀ + X₁ W₁ + X₂ W₂ + b) 0`.
-/
import proofs.«171429_j17910013625104_2_alg».proof.Proof.Gen.KernelIdeal.Frame
import proofs.«171429_j17910013625104_2_alg».proof.Proof.ChebNet
import proofs.«171429_j17910013625104_2_alg».proof.Proof.ChebOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.Cheb
open scoped BigOperators

section Terms
variable (v1 : FVec Ideal S1024x8 .f32) (v3 : FVec Ideal S3x8x128 .f32) (v4 : Vec Ideal S128 .f32)
  (v27 : FVec Ideal S1024x1024 .bf16) (v30 : FVec Ideal S1024x8 .f32) (v41 : FVec Ideal S1024x128 .f32)
  (v42 : FVec Ideal S1024x8 .bf16) (c13 : FVec Ideal S1024x8 .f32)

set_option maxHeartbeats 400000 in
/-- The normalized adjacency of the layer's input. -/
theorem pay9_apply (n m : Fin 1024) :
    k0_pay9 (F := Ideal) v1 v3 v4 v27 v30 v41 v42 c13 (ix2 n m)
      = normK two (fun n f => k0_pay8 (F := Ideal) v1 v3 v4 v27 v30 v41 v42 c13 (ix2 n f)) n m := by
  unfold k0_pay9
  repeat rw [rowSum_eq]
  simp only [truncf_apply, mulf_apply, subf_apply, addf_apply, broadcast_apply, colBroadcast_apply, rowBroadcast_apply,
    matmul_nt_apply dot_S1024x128_S1024x128_S1024x1024_1_1_0_0_n_n rfl rfl rfl rfl rfl rfl, exp, rsqrt,
    Ideal.exp_def, Ideal.rsqrt_def, Ideal.ofBits_def, Ideal.ofBits_zero_f32]
  simp only [normK, degK, adjK, Cheb.dist, Cheb.sq, Cheb.inner]

set_option maxHeartbeats 400000 in
/-- The first-order term `X - M X`. -/
theorem pay10_apply (n : Fin 1024) (f : Fin 128) :
    k0_pay10 (F := Ideal) v1 v3 v4 v27 v30 v41 v42 c13 (ix2 n f)
      = x1K two (fun n f => k0_pay8 (F := Ideal) v1 v3 v4 v27 v30 v41 v42 c13 (ix2 n f)) n f := by
  unfold k0_pay10
  simp only [subf_apply, truncf_apply, matmul_nn_apply dot_S1024x1024_S1024x128_S1024x128_1_0_0_1_n_n rfl rfl rfl rfl rfl rfl, pay9_apply]
  simp only [x1K, prop]

/-- The input narrowed for the matrix unit: narrowing is the identity on the extended reals. -/
theorem pay12_apply (j : S1024x128.Idx) :
    k0_pay12 (F := Ideal) v1 v3 v4 v27 v30 v41 v42 c13 j = k0_pay8 (F := Ideal) v1 v3 v4 v27 v30 v41 v42 c13 j := rfl

end Terms

/-- The first weight matrix of the stack. -/
theorem pay11_apply (v59 : Vec Ideal S3x128x512 .f32) (f : Fin 128) (g : Fin 512) :
    k0_pay11 (F := Ideal) v59 (ix2 f g) = v59 (ix3 0 f g) := by
  unfold k0_pay11
  exact tap_apply 0 (by decide) v59 _ _ f g

set_option maxHeartbeats 400000 in
/-- The layer's output, from the terms before it: whatever vectors hold the input `X` (twice: once narrowed), its
    normalized adjacency, its first-order term and the first weight matrix, the body's remaining operations give
    `max (X W₀ + X₁ W₁ + X₂ W₂ + b) 0` with `X₂ = 2 (X₁ - M X₁) - X`. -/
theorem pay13_apply (v58 : FVec Ideal S1024x128 .f32) (v59 : Vec Ideal S3x128x512 .f32) (v60 : Vec Ideal S512 .f32)
    (v83 : FVec Ideal S1024x1024 .bf16) (v86 : FVec Ideal S1024x128 .f32) (v88 : FVec Ideal S128x512 .f32)
    (v89 : FVec Ideal S1024x128 .bf16) (X : Fin 1024 → Fin 128 → EReal)
    (h58 : ∀ n f, v58 (ix2 n f) = X n f) (h89 : ∀ n f, v89 (ix2 n f) = X n f)
    (h83 : ∀ n m, v83 (ix2 n m) = normK two X n m) (h86 : ∀ n f, v86 (ix2 n f) = x1K two X n f)
    (h88 : ∀ f g, v88 (ix2 f g) = v59 (ix3 0 f g)) (n : Fin 1024) (g : Fin 512) :
    k0_pay13 (F := Ideal) v58 v59 v60 v83 v86 v88 v89 (ix2 n g) = layerK two X (wOf v59) (vOf v60) n g := by
  unfold k0_pay13
  simp only [maximumf_apply, addf_apply, subf_apply, mulf_apply, truncf_apply, broadcast_apply, rowBroadcast_apply,
    matmul_nn_apply dot_S1024x128_S128x512_S1024x512_1_0_0_1_n_n rfl rfl rfl rfl rfl rfl,
    matmul_nn_apply dot_S1024x1024_S1024x128_S1024x128_1_0_0_1_n_n rfl rfl rfl rfl rfl rfl,
    tap_apply 1 (by decide), tap_apply 2 (by decide), h58, h89, h83, h86, h88, Ideal.ofBits_def, Ideal.ofBits_zero_f32]
  simp only [layerK, x2K, prop, proj, wOf, vOf]
  rfl

/-- The second layer: from the first layer's terms, the body computes the layer of the first layer's output. -/
theorem layer2_apply (v1 : FVec Ideal S1024x8 .f32) (v3 : FVec Ideal S3x8x128 .f32) (v4 : Vec Ideal S128 .f32)
    (v27 : FVec Ideal S1024x1024 .bf16) (v30 : FVec Ideal S1024x8 .f32) (v41 : FVec Ideal S1024x128 .f32)
    (v42 : FVec Ideal S1024x8 .bf16) (c13 : FVec Ideal S1024x8 .f32) (v59 : Vec Ideal S3x128x512 .f32) (v60 : Vec Ideal S512 .f32)
    (n : Fin 1024) (g : Fin 512) :
    k0_pay13 (F := Ideal) (k0_pay8 v1 v3 v4 v27 v30 v41 v42 c13) v59 v60 (k0_pay9 v1 v3 v4 v27 v30 v41 v42 c13)
        (k0_pay10 v1 v3 v4 v27 v30 v41 v42 c13) (k0_pay11 v59) (k0_pay12 v1 v3 v4 v27 v30 v41 v42 c13) (ix2 n g)
      = layerK two (fun n f => k0_pay8 (F := Ideal) v1 v3 v4 v27 v30 v41 v42 c13 (ix2 n f)) (wOf v59) (vOf v60) n g :=
  pay13_apply _ v59 v60 _ _ _ _ _ (fun _ _ => rfl) (fun n f => pay12_apply v1 v3 v4 v27 v30 v41 v42 c13 (ix2 n f))
    (pay9_apply v1 v3 v4 v27 v30 v41 v42 c13) (pay10_apply v1 v3 v4 v27 v30 v41 v42 c13) (pay11_apply v59) n g

end Cert.KernelIdeal.Block

end
-- ==== Proof.ChebLayer3.lean ====
/-
  The third layer (feature widths 512 → 1024) of the fused body and the maximum over the points, read entry by entry.

  The layer's input `X` is the second layer's output, a 1024 × 512 matrix.  Here the body keeps the adjacency
  `A = exp (0 - ‖X n - X m‖²)`, the reciprocal square roots `r` of its row sums, and `r` repeated across the
  columns, and forms `M n m = r n · A n m · r m` only inside the last stretch, which then computes the layer's output
  `max (X W₀ + X₁ W₁ + X₂ W₂ + b) 0` as the other layers do and takes its maximum down each column.
-/
import proofs.«171429_j17910013625104_2_alg».proof.Proof.Gen.KernelIdeal.Frame
import proofs.«171429_j17910013625104_2_alg».proof.Proof.ChebNet
import proofs.«171429_j17910013625104_2_alg».proof.Proof.ChebOps
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.Cheb
open scoped BigOperators

section Terms
variable (v58 : FVec Ideal S1024x128 .f32) (v59 : Vec Ideal S3x128x512 .f32) (v60 : Vec Ideal S512 .f32)
  (v83 : FVec Ideal S1024x1024 .bf16) (v86 : FVec Ideal S1024x128 .f32) (v88 : FVec Ideal S128x512 .f32)
  (v89 : FVec Ideal S1024x128 .bf16)

set_option maxHeartbeats 400000 in
/-- The adjacency of the layer's input. -/
theorem pay14_apply (n m : Fin 1024) :
    k0_pay14 (F := Ideal) v58 v59 v60 v83 v86 v88 v89 (ix2 n m)
      = adjK two (fun n f => k0_pay13 (F := Ideal) v58 v59 v60 v83 v86 v88 v89 (ix2 n f)) n m := by
  unfold k0_pay14
  repeat rw [rowSum_eq]
  simp only [mulf_apply, subf_apply, addf_apply, broadcast_apply, colBroadcast_apply, rowBroadcast_apply,
    matmul_nt_apply dot_S1024x512_S1024x512_S1024x1024_1_1_0_0_n_n rfl rfl rfl rfl rfl rfl, exp,
    Ideal.exp_def, Ideal.ofBits_def, Ideal.ofBits_zero_f32]
  simp only [adjK, Cheb.dist, Cheb.sq, Cheb.inner]

set_option maxHeartbeats 400000 in
/-- The reciprocal square roots of the degrees. -/
theorem pay15_apply (n : Fin 1024) :
    k0_pay15 (F := Ideal) v58 v59 v60 v83 v86 v88 v89 (ix1 n)
      = Ideal.rsqrt (degK two (fun n f => k0_pay13 (F := Ideal) v58 v59 v60 v83 v86 v88 v89 (ix2 n f)) n) := by
  unfold k0_pay15
  rw [rowSum_eq]
  simp only [rsqrt, Ideal.rsqrt_def, pay14_apply]
  simp only [degK]

/-- The same, repeated across the columns. -/
theorem pay16_apply (n m : Fin 1024) :
    k0_pay16 (F := Ideal) v58 v59 v60 v83 v86 v88 v89 (ix2 n m)
      = Ideal.rsqrt (degK two (fun n f => k0_pay13 (F := Ideal) v58 v59 v60 v83 v86 v88 v89 (ix2 n f)) n) := by
  unfold k0_pay16
  exact (colBroadcast_apply _ _ _ n m).trans (pay15_apply v58 v59 v60 v83 v86 v88 v89 n)

end Terms

set_option maxHeartbeats 800000 in
/-- The block's result, from the terms before it: whatever vectors hold the input `X`, its adjacency, the reciprocal
    square roots of its degrees and those repeated across the columns, the body's remaining operations give, at feature
    `g`, the supremum over the points of `max (X W₀ + X₁ W₁ + X₂ W₂ + b) 0`. -/
theorem pay1_apply (v114 : FVec Ideal S1024x512 .f32) (v115 : Vec Ideal S3x512x1024 .f32) (v116 : Vec Ideal S1024 .f32)
    (v130 : FVec Ideal S1024x1024 .f32) (v132 : FVec Ideal S1024 .f32) (v134 : FVec Ideal S1024x1024 .f32)
    (X : Fin 1024 → Fin 512 → EReal)
    (h114 : ∀ n f, v114 (ix2 n f) = X n f) (h130 : ∀ n m, v130 (ix2 n m) = adjK two X n m)
    (h132 : ∀ n, v132 (ix1 n) = Ideal.rsqrt (degK two X n)) (h134 : ∀ n m, v134 (ix2 n m) = Ideal.rsqrt (degK two X n))
    (u v : Fin 1) (g : Fin 1024) :
    k0_pay1 (F := Ideal) v114 v115 v116 v130 v132 v134 (ix3 u v g) = Cheb.pool (layerK two X (wOf v115) (vOf v116)) g := by
  unfold k0_pay1
  rw [colMax_eq]
  simp only [shapeCast_ab_1ab_apply, shapeCast_a_1a_apply,
    maximumf_apply, addf_apply, subf_apply, mulf_apply, truncf_apply, broadcast_apply, rowBroadcast_apply,
    matmul_nn_apply dot_S1024x512_S512x1024_S1024x1024_1_0_0_1_n_n rfl rfl rfl rfl rfl rfl,
    matmul_nn_apply dot_S1024x1024_S1024x512_S1024x512_1_0_0_1_n_n rfl rfl rfl rfl rfl rfl,
    tap_apply 0 (by decide), tap_apply 1 (by decide), tap_apply 2 (by decide), h114, h130, h132, h134, Ideal.ofBits_def, Ideal.ofBits_zero_f32]
  simp only [Cheb.pool, layerK, x2K, x1K, prop, proj, normK, wOf, vOf]
  rfl

/-- The third layer and the maximum over the points: from the second layer's terms, the body computes the pooled
    layer of the second layer's output. -/
theorem layer3_apply (v58 : FVec Ideal S1024x128 .f32) (v59 : Vec Ideal S3x128x512 .f32) (v60 : Vec Ideal S512 .f32)
    (v83 : FVec Ideal S1024x1024 .bf16) (v86 : FVec Ideal S1024x128 .f32) (v88 : FVec Ideal S128x512 .f32)
    (v89 : FVec Ideal S1024x128 .bf16) (v115 : Vec Ideal S3x512x1024 .f32) (v116 : Vec Ideal S1024 .f32) (u v : Fin 1) (g : Fin 1024) :
    k0_pay1 (F := Ideal) (k0_pay13 v58 v59 v60 v83 v86 v88 v89) v115 v116 (k0_pay14 v58 v59 v60 v83 v86 v88 v89)
        (k0_pay15 v58 v59 v60 v83 v86 v88 v89) (k0_pay16 v58 v59 v60 v83 v86 v88 v89) (ix3 u v g)
      = Cheb.pool (layerK two (fun n f => k0_pay13 (F := Ideal) v58 v59 v60 v83 v86 v88 v89 (ix2 n f)) (wOf v115) (vOf v116)) g :=
  pay1_apply _ v115 v116 _ _ _ _ (fun _ _ => rfl) (pay14_apply v58 v59 v60 v83 v86 v88 v89)
    (pay15_apply v58 v59 v60 v83 v86 v88 v89) (pay16_apply v58 v59 v60 v83 v86 v88 v89) u v g

end Cert.KernelIdeal.Block

end
-- ==== Proof.KernelBlock.lean ====
/-
  The fused body's output block is the pooled three-layer network of its input blocks.

  The body's one store writes, into the 1 × 1 × 1024 output block, a term nested from the cloud's block, the three
  stacks of weight matrices and the three bias vectors.  Read from the inside out it is three Chebyshev layers, each
  computed as `x - M x` and `2 (x₁ - M x₁) - x` against the normalized adjacency `M` of the layer's own input,
  followed by the maximum over the 1024 points: entry `(0, 0, g)` is the supremum over the points of the third layer's
  feature `g`.
-/
import proofs.«171429_j17910013625104_2_alg».proof.Proof.Gen.KernelIdeal.Frame
import proofs.«171429_j17910013625104_2_alg».proof.Proof.ChebNet
import proofs.«171429_j17910013625104_2_alg».proof.Proof.ChebOps
import proofs.«171429_j17910013625104_2_alg».proof.Proof.ChebLayer1
import proofs.«171429_j17910013625104_2_alg».proof.Proof.ChebLayer2
import proofs.«171429_j17910013625104_2_alg».proof.Proof.ChebLayer3
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Block

open Idealize.ShloMosaic Idealize.ShloMosaic.ValueIdx Cert.KernelIdeal Cert.KernelIdeal.Gen Cert.Cheb
open scoped BigOperators

/-- The zero offsets of a whole rank-3 block. -/
theorem off3_zero : (![0, 0, 0] : Fin 3 → Nat) = fun _ => 0 := funext fun a => by fin_cases a <;> rfl

/-- The zero offset of a whole rank-1 block. -/
theorem off1_zero : (![0] : Fin 1 → Nat) = fun _ => 0 := funext fun a => by fin_cases a <;> rfl

/-- The first layer: from the cloud's block, the first stack of weights and the first bias, the body computes the layer
    of the cloud read as a 1024 × 8 matrix. -/
theorem layer1_apply (x0 : Vec Ideal S1x1024x8 .f32) (x1 : Vec Ideal S3x8x128 .f32) (x2 : Vec Ideal S128 .f32)
    (n : Fin 1024) (g : Fin 128) :
    k0_pay8 (F := Ideal) (k0_pay2 x0) (k0_pay3 x1) x2 (k0_pay4 x0) (k0_pay5 x0) (k0_pay6 x0 x1) (k0_pay7 x0)
        (constant (F := Ideal) S1024x8 .f32 0x00000000#32) (ix2 n g)
      = layerK two (fun (n : Fin 1024) (d : Fin 8) => x0 (ix3 0 n d)) (wOf x1) (vOf x2) n g := by
  have e2 : (fun n f => k0_pay2 (F := Ideal) x0 (ix2 n f)) = fun (n : Fin 1024) (d : Fin 8) => x0 (ix3 0 n d) :=
    funext fun n => funext fun d => pay2_apply x0 n d
  rw [pay3_eq]
  refine pay8_apply _ x1 x2 _ _ _ _ (fun (n : Fin 1024) (d : Fin 8) => x0 (ix3 0 n d)) (pay2_apply x0)
    (fun n m => ?_) (fun n f => ?_) (fun n f => ?_) (fun n g => ?_) n g
  · rw [pay4_apply, e2]
  · rw [pay5_apply, e2]
  · rw [pay7_apply, e2]
  · rw [pay6_apply, e2]

set_option maxHeartbeats 800000 in
/-- What the body leaves in its output block: the three layers on the cloud's block, then the maximum over the points. -/
theorem out0_7_eq (x0 : Vec Ideal S1x1024x8 .f32) (x1 : Vec Ideal S3x8x128 .f32) (x2 : Vec Ideal S128 .f32)
    (x3 : Vec Ideal S3x128x512 .f32) (x4 : Vec Ideal S512 .f32) (x5 : Vec Ideal S3x512x1024 .f32) (x6 : Vec Ideal S1024 .f32) :
    (Cert.KernelIdeal.Gen.out0_7 (F := Ideal) x0 x1 x2 x3 x4 x5 x6 : S1x1x1024.Idx → EReal) = Cert.Cheb.poolK x0 x1 x2 x3 x4 x5 x6 := by
  unfold Cert.KernelIdeal.Gen.out0_7
  rw [View.canon_unit_zero off3_zero]
  simp only [View.ld_unit_zero (S := S1x1024x8) off3_zero, View.ld_unit_zero (S := S3x8x128) off3_zero,
    View.ld_unit_zero (S := S128) off1_zero, View.ld_unit_zero (S := S3x128x512) off3_zero,
    View.ld_unit_zero (S := S512) off1_zero, View.ld_unit_zero (S := S3x512x1024) off3_zero,
    View.ld_unit_zero (S := S1024) off1_zero]
  funext y
  obtain ⟨u, v, g, rfl⟩ : ∃ (u : Fin 1) (v : Fin 1) (g : Fin 1024), y = ix3 u v g := ⟨y 0, y 1, y 2, eq_ix3 y⟩
  refine (layer3_apply _ _ _ _ _ _ _ x5 x6 u v g).trans ?_
  show Cheb.pool (layerK two _ (wOf x5) (vOf x6)) g
    = Cheb.pool (layerK two (layerK two (layerK two (fun (n : Fin 1024) (d : Fin 8) => x0 (ix3 0 n d)) (wOf x1) (vOf x2))
        (wOf x3) (vOf x4)) (wOf x5) (vOf x6)) g
  refine congrArg (fun H => Cheb.pool (layerK two H (wOf x5) (vOf x6)) g) ?_
  funext n f
  refine (layer2_apply _ _ _ _ _ _ _ _ x3 x4 n f).trans ?_
  refine congrArg (fun H => layerK two H (wOf x3) (vOf x4) n f) ?_
  funext n' f'
  exact layer1_apply x0 x1 x2 n' f'

end Cert.KernelIdeal.Block

end
-- ==== Proof.ChebMath.lean ====
/-
  The mathematics of one Chebyshev graph-convolution layer.

  On real entries the layer that never forms the Laplacian and the layer through the Laplacian are the same
  function, and its values are real; and padding the coordinates of the rows with zeros (the weights padded
  to match, with anything) does not change the layer that never forms the Laplacian.

  The first two facts are shown by writing the layer once more over the real numbers (`rlayer`) and proving
  that each spelling, at coerced reals, is the coercion of the real layer: every degree is a finite sum of
  exponentials, hence a positive real, where the reciprocal square root and one over the square root are both
  the real inverse square root; and `Σ m, (δ n m - M n m) a m = a n - Σ m, M n m a m` in the reals.
  The third is a re-indexing of finite sums along an injection, the terms off its range being zero.
-/
import proofs.«171429_j17910013625104_2_alg».proof.Proof.ChebSpec

noncomputable section

namespace Cert.Cheb

open Idealize.ShloMosaic

variable {N A A' B : Type} [Fintype N] [Fintype A] [Fintype A'] [Fintype B]

/-! ### Coercions of finite sums and of maxima -/

theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

theorem coe_max (a b : ℝ) : ((max a b : ℝ) : EReal) = max (a : EReal) (b : EReal) :=
  EReal.coe_strictMono.monotone.map_max

/-! ### The layer over the real numbers -/

def rsq (x : N → A → ℝ) (n : N) : ℝ := ∑ d, x n d * x n d

def rinner (x : N → A → ℝ) (n m : N) : ℝ := ∑ d, x n d * x m d

def rdist (t : ℝ) (x : N → A → ℝ) (n m : N) : ℝ := rsq x n - t * rinner x n m + rsq x m

def radj (t : ℝ) (x : N → A → ℝ) (n m : N) : ℝ := Real.exp (-rdist t x n m)

def rdeg (t : ℝ) (x : N → A → ℝ) (n : N) : ℝ := ∑ m, radj t x n m

def rnorm (t : ℝ) (x : N → A → ℝ) (n m : N) : ℝ :=
  (Real.sqrt (rdeg t x n))⁻¹ * radj t x n m * (Real.sqrt (rdeg t x m))⁻¹

def rprop (M : N → N → ℝ) (a : N → A → ℝ) (n : N) (f : A) : ℝ := ∑ m, M n m * a m f

def rproj (a : N → A → ℝ) (w : A → B → ℝ) (n : N) (g : B) : ℝ := ∑ f, a n f * w f g

def rx1 (t : ℝ) (x : N → A → ℝ) (n : N) (f : A) : ℝ := x n f - rprop (rnorm t x) x n f

def rx2 (t : ℝ) (x : N → A → ℝ) (n : N) (f : A) : ℝ :=
  t * (rx1 t x n f - rprop (rnorm t x) (rx1 t x) n f) - x n f

def rlayer (t : ℝ) (x : N → A → ℝ) (w : Fin 3 → A → B → ℝ) (b : B → ℝ) (n : N) (g : B) : ℝ :=
  max (rproj x (w 0) n g + rproj (rx1 t x) (w 1) n g + rproj (rx2 t x) (w 2) n g + b g) 0

/-- A degree is a sum of exponentials over a nonempty set of points. -/
theorem rdeg_pos (t : ℝ) (x : N → A → ℝ) (n : N) : 0 < rdeg t x n :=
  Finset.sum_pos (fun _ _ => Real.exp_pos _) ⟨n, Finset.mem_univ n⟩

/-! ### Each piece at coerced reals is the coercion of its real counterpart -/

theorem sq_coe (x : N → A → ℝ) (n : N) : sq (fun n f => (x n f : EReal)) n = (rsq x n : EReal) := by
  simp only [sq, rsq, coe_sum, EReal.coe_mul]

theorem inner_coe (x : N → A → ℝ) (n m : N) :
    inner (fun n f => (x n f : EReal)) n m = (rinner x n m : EReal) := by
  simp only [inner, rinner, coe_sum, EReal.coe_mul]

theorem dist_coe (t : ℝ) (x : N → A → ℝ) (n m : N) :
    dist (t : EReal) (fun n f => (x n f : EReal)) n m = (rdist t x n m : EReal) := by
  simp only [dist, rdist, sq_coe, inner_coe, EReal.coe_add, EReal.coe_sub, EReal.coe_mul]

theorem adjK_coe (t : ℝ) (x : N → A → ℝ) (n m : N) :
    adjK (t : EReal) (fun n f => (x n f : EReal)) n m = (radj t x n m : EReal) := by
  unfold adjK radj
  rw [dist_coe, ← EReal.coe_zero, ← EReal.coe_sub, Ideal.exp_coe, zero_sub]

theorem adjR_coe (t : ℝ) (x : N → A → ℝ) (n m : N) :
    adjR (t : EReal) (fun n f => (x n f : EReal)) n m = (radj t x n m : EReal) := by
  unfold adjR radj
  rw [dist_coe, ← EReal.coe_neg, Ideal.exp_coe]

theorem degK_coe (t : ℝ) (x : N → A → ℝ) (n : N) :
    degK (t : EReal) (fun n f => (x n f : EReal)) n = (rdeg t x n : EReal) := by
  simp only [degK, rdeg, adjK_coe, coe_sum]

theorem degR_coe (t : ℝ) (x : N → A → ℝ) (n : N) :
    degR (t : EReal) (fun n f => (x n f : EReal)) n = (rdeg t x n : EReal) := by
  simp only [degR, rdeg, adjR_coe, coe_sum]

/-- The reciprocal square root of a positive real. -/
theorem rsqrt_coe_pos {d : ℝ} (hd : 0 < d) : Ideal.rsqrt (d : EReal) = (((Real.sqrt d)⁻¹ : ℝ) : EReal) := by
  rw [Ideal.rsqrt_coe, if_neg (not_lt.2 hd.le), if_neg hd.ne']

/-- One over the square root of a positive real. -/
theorem div_sqrt_coe_pos {d : ℝ} (hd : 0 < d) :
    Ideal.div 1 (Ideal.sqrt (d : EReal)) = (((Real.sqrt d)⁻¹ : ℝ) : EReal) := by
  have h0 : ((Real.sqrt d : ℝ) : EReal) ≠ 0 := EReal.coe_ne_zero.2 (Real.sqrt_pos.2 hd).ne'
  rw [Ideal.sqrt_coe, if_neg (not_lt.2 hd.le)]
  unfold Ideal.div
  rw [if_neg h0, one_mul, EReal.coe_inv]

theorem normK_coe (t : ℝ) (x : N → A → ℝ) (n m : N) :
    normK (t : EReal) (fun n f => (x n f : EReal)) n m = (rnorm t x n m : EReal) := by
  unfold normK rnorm
  rw [degK_coe, degK_coe, adjK_coe, rsqrt_coe_pos (rdeg_pos t x n), rsqrt_coe_pos (rdeg_pos t x m),
    EReal.coe_mul, EReal.coe_mul]

theorem normR_coe (t : ℝ) (x : N → A → ℝ) (n m : N) :
    normR (t : EReal) (fun n f => (x n f : EReal)) n m = (rnorm t x n m : EReal) := by
  unfold normR rnorm
  rw [degR_coe, degR_coe, adjR_coe, div_sqrt_coe_pos (rdeg_pos t x n), div_sqrt_coe_pos (rdeg_pos t x m),
    EReal.coe_mul, EReal.coe_mul]

theorem normK_fun (t : ℝ) (x : N → A → ℝ) :
    normK (t : EReal) (fun n f => (x n f : EReal)) = fun n m => (rnorm t x n m : EReal) := by
  funext n m; exact normK_coe t x n m

theorem prop_coe (M : N → N → ℝ) (a : N → A → ℝ) (n : N) (f : A) :
    prop (fun n m => (M n m : EReal)) (fun n f => (a n f : EReal)) n f = (rprop M a n f : EReal) := by
  simp only [prop, rprop, coe_sum, EReal.coe_mul]

theorem proj_coe (a : N → A → ℝ) (w : A → B → ℝ) (n : N) (g : B) :
    proj (fun n f => (a n f : EReal)) (fun f g => (w f g : EReal)) n g = (rproj a w n g : EReal) := by
  simp only [proj, rproj, coe_sum, EReal.coe_mul]

theorem x1K_coe (t : ℝ) (x : N → A → ℝ) (n : N) (f : A) :
    x1K (t : EReal) (fun n f => (x n f : EReal)) n f = (rx1 t x n f : EReal) := by
  unfold x1K rx1
  rw [normK_fun, prop_coe, EReal.coe_sub]

theorem x1K_fun (t : ℝ) (x : N → A → ℝ) :
    x1K (t : EReal) (fun n f => (x n f : EReal)) = fun n f => (rx1 t x n f : EReal) := by
  funext n f; exact x1K_coe t x n f

theorem x2K_coe (t : ℝ) (x : N → A → ℝ) (n : N) (f : A) :
    x2K (t : EReal) (fun n f => (x n f : EReal)) n f = (rx2 t x n f : EReal) := by
  unfold x2K rx2
  rw [x1K_fun, normK_fun, prop_coe, EReal.coe_sub, EReal.coe_mul, EReal.coe_sub]

theorem x2K_fun (t : ℝ) (x : N → A → ℝ) :
    x2K (t : EReal) (fun n f => (x n f : EReal)) = fun n f => (rx2 t x n f : EReal) := by
  funext n f; exact x2K_coe t x n f

theorem layerK_coe (t : ℝ) (x : N → A → ℝ) (w : Fin 3 → A → B → ℝ) (b : B → ℝ) (n : N) (g : B) :
    layerK (t : EReal) (fun n f => (x n f : EReal)) (fun k f g => (w k f g : EReal)) (fun g => (b g : EReal)) n g
      = (rlayer t x w b n g : EReal) := by
  simp only [layerK, rlayer, x1K_fun, x2K_fun, proj_coe, coe_max, EReal.coe_add, EReal.coe_zero]

/-! ### The Laplacian spelling -/

section Laplacian

variable [DecidableEq N]

/-- In the reals, multiplying by `I - M` is subtracting the product by 'M'. -/
theorem rprop_lap (M : N → N → ℝ) (a : N → A → ℝ) (n : N) (f : A) :
    rprop (fun n m => (if n = m then (1 : ℝ) else 0) - M n m) a n f = a n f - rprop M a n f := by
  simp only [rprop, sub_mul, Finset.sum_sub_distrib, ite_mul, one_mul, zero_mul, Finset.sum_ite_eq,
    Finset.mem_univ, if_true]

theorem lap_coe (t : ℝ) (x : N → A → ℝ) (n m : N) :
    lap (t : EReal) (fun n f => (x n f : EReal)) n m
      = (((if n = m then (1 : ℝ) else 0) - rnorm t x n m : ℝ) : EReal) := by
  unfold lap
  rw [normR_coe, EReal.coe_sub]
  congr 1
  split_ifs <;> simp

theorem lap_fun (t : ℝ) (x : N → A → ℝ) :
    lap (t : EReal) (fun n f => (x n f : EReal))
      = fun n m => (((if n = m then (1 : ℝ) else 0) - rnorm t x n m : ℝ) : EReal) := by
  funext n m; exact lap_coe t x n m

theorem x1R_coe (t : ℝ) (x : N → A → ℝ) (n : N) (f : A) :
    x1R (t : EReal) (fun n f => (x n f : EReal)) n f = (rx1 t x n f : EReal) := by
  unfold x1R rx1
  rw [lap_fun, prop_coe, rprop_lap]

theorem x1R_fun (t : ℝ) (x : N → A → ℝ) :
    x1R (t : EReal) (fun n f => (x n f : EReal)) = fun n f => (rx1 t x n f : EReal) := by
  funext n f; exact x1R_coe t x n f

theorem x2R_coe (t : ℝ) (x : N → A → ℝ) (n : N) (f : A) :
    x2R (t : EReal) (fun n f => (x n f : EReal)) n f = (rx2 t x n f : EReal) := by
  unfold x2R rx2
  rw [x1R_fun, lap_fun, prop_coe, rprop_lap]
  simp only [EReal.coe_sub, EReal.coe_mul]

theorem x2R_fun (t : ℝ) (x : N → A → ℝ) :
    x2R (t : EReal) (fun n f => (x n f : EReal)) = fun n f => (rx2 t x n f : EReal) := by
  funext n f; exact x2R_coe t x n f

theorem layerR_coe (t : ℝ) (x : N → A → ℝ) (w : Fin 3 → A → B → ℝ) (b : B → ℝ) (n : N) (g : B) :
    layerR (t : EReal) (fun n f => (x n f : EReal)) (fun k f g => (w k f g : EReal)) (fun g => (b g : EReal)) n g
      = (rlayer t x w b n g : EReal) := by
  simp only [layerR, rlayer, x1R_fun, x2R_fun, proj_coe, coe_max, EReal.coe_add, EReal.coe_zero]

/-- On real entries the two spellings of the layer are the same function. -/
theorem layer_eq {two : EReal} (htwo : IsReal two) {x : N → A → EReal} (hx : ∀ n f, IsReal (x n f))
    (w : Fin 3 → A → B → EReal) (hw : ∀ k f g, IsReal (w k f g)) (b : B → EReal) (hb : ∀ g, IsReal (b g)) :
    layerK two x w b = layerR two x w b := by
  obtain ⟨t, rfl⟩ := htwo
  choose x' hx' using hx
  choose w' hw' using hw
  choose b' hb' using hb
  obtain rfl : x = fun n f => (x' n f : EReal) := by funext n f; exact hx' n f
  obtain rfl : w = fun k f g => (w' k f g : EReal) := by funext k f g; exact hw' k f g
  obtain rfl : b = fun g => (b' g : EReal) := by funext g; exact hb' g
  funext n g
  rw [layerK_coe, layerR_coe]

end Laplacian

/-- On real entries the layer is real. -/
theorem layerK_real {two : EReal} (htwo : IsReal two) {x : N → A → EReal} (hx : ∀ n f, IsReal (x n f))
    (w : Fin 3 → A → B → EReal) (hw : ∀ k f g, IsReal (w k f g)) (b : B → EReal) (hb : ∀ g, IsReal (b g)) :
    ∀ n g, IsReal (layerK two x w b n g) := by
  obtain ⟨t, rfl⟩ := htwo
  choose x' hx' using hx
  choose w' hw' using hw
  choose b' hb' using hb
  obtain rfl : x = fun n f => (x' n f : EReal) := by funext n f; exact hx' n f
  obtain rfl : w = fun k f g => (w' k f g : EReal) := by funext k f g; exact hw' k f g
  obtain rfl : b = fun g => (b' g : EReal) := by funext g; exact hb' g
  intro n g
  exact ⟨_, layerK_coe t x' w' b' n g⟩

/-! ### Zero-padding the coordinates -/

/-- A sum over the larger index type whose terms vanish off the range of an injection is the sum over the
    smaller one. -/
theorem sum_pad (e : A → A') (he : Function.Injective e) (F : A → EReal) (F' : A' → EReal)
    (h : ∀ a, F' (e a) = F a) (h0 : ∀ a', a' ∉ Set.range e → F' a' = 0) : ∑ a', F' a' = ∑ a, F a :=
  (Fintype.sum_of_injective e he F F' h0 (fun a => (h a).symm)).symm

section Pad

variable (two : EReal) (e : A → A') (he : Function.Injective e) (x : N → A → EReal) (x' : N → A' → EReal)
  (hx : ∀ n a, x' n (e a) = x n a) (hx0 : ∀ n a', a' ∉ Set.range e → x' n a' = 0)

include he hx hx0

theorem sq_pad : sq x' = sq x := by
  funext n
  exact sum_pad e he (fun a => x n a * x n a) (fun a' => x' n a' * x' n a') (fun a => by simp only [hx])
    (fun a' ha => by simp only [hx0 n a' ha, mul_zero])

theorem inner_pad : inner x' = inner x := by
  funext n m
  exact sum_pad e he (fun a => x n a * x m a) (fun a' => x' n a' * x' m a') (fun a => by simp only [hx])
    (fun a' ha => by simp only [hx0 n a' ha, zero_mul])

theorem normK_pad : normK two x' = normK two x := by
  have hd : dist two x' = dist two x := by
    funext n m; simp only [dist, sq_pad e he x x' hx hx0, inner_pad e he x x' hx hx0]
  have ha : adjK two x' = adjK two x := by funext n m; simp only [adjK, hd]
  have hg : degK two x' = degK two x := by funext n; simp only [degK, ha]
  funext n m; simp only [normK, ha, hg]

theorem x1K_pad (n : N) (a : A) : x1K two x' n (e a) = x1K two x n a := by
  simp only [x1K, prop, normK_pad two e he x x' hx hx0, hx]

theorem x1K_pad_zero (n : N) (a' : A') (ha : a' ∉ Set.range e) : x1K two x' n a' = 0 := by
  have h0 : ∀ m, x' m a' = 0 := fun m => hx0 m a' ha
  simp only [x1K, prop, h0, mul_zero, Finset.sum_const_zero, sub_zero]

theorem x2K_pad (n : N) (a : A) : x2K two x' n (e a) = x2K two x n a := by
  simp only [x2K, prop, normK_pad two e he x x' hx hx0, x1K_pad two e he x x' hx hx0, hx]

theorem x2K_pad_zero (n : N) (a' : A') (ha : a' ∉ Set.range e) : x2K two x' n a' = 0 := by
  have h0 : ∀ m, x' m a' = 0 := fun m => hx0 m a' ha
  have h1 : ∀ m, x1K two x' m a' = 0 := fun m => x1K_pad_zero two e he x x' hx hx0 m a' ha
  simp only [x2K, prop, h0, h1, mul_zero, Finset.sum_const_zero, sub_zero]

omit hx hx0 in
/-- Projecting padded rows by padded weights is projecting the rows by the weights. -/
theorem proj_pad (a : N → A → EReal) (a' : N → A' → EReal) (w : A → B → EReal) (w' : A' → B → EReal)
    (ha : ∀ n f, a' n (e f) = a n f) (ha0 : ∀ n f', f' ∉ Set.range e → a' n f' = 0)
    (hw : ∀ f g, w' (e f) g = w f g) : proj a' w' = proj a w := by
  funext n g
  exact sum_pad e he (fun f => a n f * w f g) (fun f' => a' n f' * w' f' g) (fun f => by simp only [ha, hw])
    (fun f' hf => by simp only [ha0 n f' hf, zero_mul])

end Pad

/-- Padding the coordinates of the rows with zeros, the weights padded to match, does not change the layer. -/
theorem layerK_pad (two : EReal) (e : A → A') (he : Function.Injective e) (x : N → A → EReal) (x' : N → A' → EReal)
    (w : Fin 3 → A → B → EReal) (w' : Fin 3 → A' → B → EReal) (b : B → EReal)
    (hx : ∀ n a, x' n (e a) = x n a) (hx0 : ∀ n a', a' ∉ Set.range e → x' n a' = 0)
    (hw : ∀ k a g, w' k (e a) g = w k a g) :
    layerK two x' w' b = layerK two x w b := by
  funext n g
  unfold layerK
  rw [proj_pad e he x x' (w 0) (w' 0) hx hx0 (hw 0),
    proj_pad e he (x1K two x) (x1K two x') (w 1) (w' 1) (x1K_pad two e he x x' hx hx0)
      (x1K_pad_zero two e he x x' hx hx0) (hw 1),
    proj_pad e he (x2K two x) (x2K two x') (w 2) (w' 2) (x2K_pad two e he x x' hx hx0)
      (x2K_pad_zero two e he x x' hx hx0) (hw 2)]

end Cert.Cheb

end
-- ==== Proof.ChebNetMath.lean ====
/-
  The whole network: on real inputs and real convolution weights and biases, the padded-input network that never
  forms the Laplacian is the network through the Laplacian.

  Cloud by cloud: the first layer on the rows padded from 6 to 8 coordinates is the layer on the 6 coordinates
  (the padded coordinates are zero and the weights are padded to match), which is the layer through the
  Laplacian because its entries are real; each layer's values are real, so the second and the third layers
  agree too; the maximum over the points and the perceptron head are then applied to the same rows.
-/
import proofs.«171429_j17910013625104_2_alg».proof.Proof.ChebNet
import proofs.«171429_j17910013625104_2_alg».proof.Proof.ChebMath

noncomputable section

namespace Cert.Cheb

open Idealize.ShloMosaic Idealize.ShloMosaic.ValueIdx

/-- The constant is the real number 2: sign 0, exponent field 128, fraction 0, that is 2²³ · 2⁻²². -/
theorem two_real : IsReal two := by
  refine ⟨2, ?_⟩
  simp [two, Ideal.ofBits, Ideal.ieee]
  rw [← EReal.coe_mul]
  norm_num

/-- An index below 8 that is not the image of an index below 6 is at least 6. -/
theorem six_le_of_not_mem_range {d : Fin 8} (h : d ∉ Set.range (Fin.castLE (by norm_num : 6 ≤ 8))) : 6 ≤ d.val := by
  by_contra hlt
  exact h ⟨⟨d.val, by omega⟩, Fin.ext rfl⟩

theorem net_eq (a0 : (⟨3, ![32, 1024, 6]⟩ : Shape).Idx → EReal) (a1 : (⟨3, ![3, 6, 128]⟩ : Shape).Idx → EReal)
    (a2 : (⟨1, ![128]⟩ : Shape).Idx → EReal) (a3 : (⟨3, ![3, 128, 512]⟩ : Shape).Idx → EReal)
    (a4 : (⟨1, ![512]⟩ : Shape).Idx → EReal) (a5 : (⟨3, ![3, 512, 1024]⟩ : Shape).Idx → EReal)
    (a6 : (⟨1, ![1024]⟩ : Shape).Idx → EReal) (a7 : (⟨2, ![1024, 512]⟩ : Shape).Idx → EReal)
    (a8 : (⟨1, ![512]⟩ : Shape).Idx → EReal) (a9 : (⟨2, ![512, 128]⟩ : Shape).Idx → EReal)
    (a10 : (⟨1, ![128]⟩ : Shape).Idx → EReal) (a11 : (⟨2, ![128, 40]⟩ : Shape).Idx → EReal)
    (a12 : (⟨1, ![40]⟩ : Shape).Idx → EReal)
    (xp : (⟨3, ![32, 1024, 8]⟩ : Shape).Idx → EReal) (w1p : (⟨3, ![3, 8, 128]⟩ : Shape).Idx → EReal)
    (h0 : ∀ i, IsReal (a0 i)) (h1 : ∀ i, IsReal (a1 i)) (h2 : ∀ i, IsReal (a2 i)) (h3 : ∀ i, IsReal (a3 i))
    (h4 : ∀ i, IsReal (a4 i)) (h5 : ∀ i, IsReal (a5 i)) (h6 : ∀ i, IsReal (a6 i))
    (hxp : ∀ (b : Fin 32) (n : Fin 1024) (d : Fin 6), xp (ix3 b n (Fin.castLE (by norm_num) d)) = a0 (ix3 b n d))
    (hxp0 : ∀ (b : Fin 32) (n : Fin 1024) (d : Fin 8), 6 ≤ d.val → xp (ix3 b n d) = 0)
    (hwp : ∀ (k : Fin 3) (f : Fin 6) (g : Fin 128), w1p (ix3 k (Fin.castLE (by norm_num) f) g) = a1 (ix3 k f g)) :
    netK xp w1p a2 a3 a4 a5 a6 a7 a8 a9 a10 a11 a12 = netR a0 a1 a2 a3 a4 a5 a6 a7 a8 a9 a10 a11 a12 := by
  funext i
  -- the cloud this output row belongs to
  have hb : ∃ c : Fin 32, c = i 0 := ⟨i 0, rfl⟩
  obtain ⟨c, hc⟩ := hb
  -- the first layer on the padded rows is the layer on the six coordinates
  have e1 : layerK two (fun (n : Fin 1024) (d : Fin 8) => xp (ix3 c n d)) (wOf w1p) (vOf a2)
      = layerK two (fun (n : Fin 1024) (d : Fin 6) => a0 (ix3 c n d)) (wOf a1) (vOf a2) :=
    layerK_pad two (Fin.castLE (by norm_num : 6 ≤ 8)) (Fin.castLE_injective _)
      (fun (n : Fin 1024) (d : Fin 6) => a0 (ix3 c n d)) (fun (n : Fin 1024) (d : Fin 8) => xp (ix3 c n d))
      (wOf a1) (wOf w1p) (vOf a2) (fun n a => hxp c n a)
      (fun n a' ha => hxp0 c n a' (six_le_of_not_mem_range ha)) (fun k a g => hwp k a g)
  -- realness, layer after layer
  have r0 : ∀ (n : Fin 1024) (f : Fin 6), IsReal ((fun (n : Fin 1024) (d : Fin 6) => a0 (ix3 c n d)) n f) :=
    fun n f => h0 _
  have r1 := layerK_real two_real r0 (wOf a1) (fun k f g => h1 _) (vOf a2) (fun g => h2 _)
  have r2 := layerK_real two_real r1 (wOf a3) (fun k f g => h3 _) (vOf a4) (fun g => h4 _)
  -- the two spellings agree, layer after layer
  have q1 := layer_eq two_real r0 (wOf a1) (fun k f g => h1 _) (vOf a2) (fun g => h2 _)
  have q2 := layer_eq two_real r1 (wOf a3) (fun k f g => h3 _) (vOf a4) (fun g => h4 _)
  have q3 := layer_eq two_real r2 (wOf a5) (fun k f g => h5 _) (vOf a6) (fun g => h6 _)
  have key : layerK two (layerK two (layerK two (fun (n : Fin 1024) (d : Fin 8) => xp (ix3 c n d)) (wOf w1p) (vOf a2))
        (wOf a3) (vOf a4)) (wOf a5) (vOf a6)
      = layerR two (layerR two (layerR two (fun (n : Fin 1024) (d : Fin 6) => a0 (ix3 c n d)) (wOf a1) (vOf a2))
        (wOf a3) (vOf a4)) (wOf a5) (vOf a6) := by
    rw [e1, q3, q2, q1]
  -- both networks apply the maximum over the points and the head to these rows
  show head (pool (layerK two (layerK two (layerK two (fun (n : Fin 1024) (d : Fin 8) => xp (ix3 (i 0) n d))
        (wOf w1p) (vOf a2)) (wOf a3) (vOf a4)) (wOf a5) (vOf a6)))
      (mOf a7) (vOf a8) (mOf a9) (vOf a10) (mOf a11) (vOf a12) (i 1)
    = head (pool (layerR two (layerR two (layerR two (fun (n : Fin 1024) (d : Fin 6) => a0 (ix3 (i 0) n d))
        (wOf a1) (vOf a2)) (wOf a3) (vOf a4)) (wOf a5) (vOf a6)))
      (mOf a7) (vOf a8) (mOf a9) (vOf a10) (mOf a11) (vOf a12) (i 1)
  rw [← hc, key]

end Cert.Cheb

end
-- ==== Proof.PadRead.lean ====
/-
  The two host paddings read at an index: at an index inside the operand the padded array is the operand there,
  and in the high padding it is the padding value, the integer word 0 converted, which is the extended real 0.
-/
import proofs.«171429_j17910013625104_2_alg».proof.KernelIdeal
import Idealize.ShloMosaic.Lib.KernelVsHost
import Idealize.ShloMosaic.Lib.ValueIdx

noncomputable section

namespace Cert.KernelIdeal.PadRead

open Cert.KernelIdeal Idealize.ShloMosaic Idealize.ShloMosaic.ValueIdx

variable [Facts₀]
open Facts₀

/-- The padding value at its one index: the integer 0 as an extended real. -/
theorem padval_apply (i : S_.Idx) : sitofp (F := Ideal) .f32 (constantI S_ 32 0#32) i = (0 : EReal) := by
  show (((0#32 : BitVec 32).toInt : ℝ) : EReal) = 0
  simp

/-- The padded clouds at a coordinate below 6 are the clouds. -/
theorem xpad_inside (x : S32x1024x6.Idx → EReal) (b : Fin 32) (n : Fin 1024) (d : Fin 6) :
    pad S32x1024x8 ![0, 0, 0] ![0, 0, 2] ![0, 0, 0] x (sitofp (F := Ideal) .f32 (constantI S_ 32 0#32))
      pads_S32x1024x6_S32x1024x8_000_000_020 h_S_ (ix3 b n (Fin.castLE (by norm_num) d)) = x (ix3 b n d) := by
  refine pad_apply_of_inside _ _ _ x _ _ _ _ (ix3 b n d) (fun a => ?_)
  fin_cases a <;> simp [ix3]

/-- The padded clouds at a coordinate from 6 on are zero. -/
theorem xpad_outside (x : S32x1024x6.Idx → EReal) (b : Fin 32) (n : Fin 1024) (d : Fin 8) (hd : 6 ≤ d.val) :
    pad S32x1024x8 ![0, 0, 0] ![0, 0, 2] ![0, 0, 0] x (sitofp (F := Ideal) .f32 (constantI S_ 32 0#32))
      pads_S32x1024x6_S32x1024x8_000_000_020 h_S_ (ix3 b n d) = 0 := by
  have h := pad_apply_of_not_inside (![0, 0, 0] : Fin 3 → Nat) ![0, 0, 2] ![0, 0, 0] x
    (sitofp (F := Ideal) .f32 (constantI S_ 32 0#32)) pads_S32x1024x6_S32x1024x8_000_000_020 h_S_ (ix3 b n d)
    (2 : Fin 3) (by
      rintro ⟨_, _, h3⟩
      have h4 : d.val / 1 < 6 := h3
      omega)
  rw [h, padval_apply]

/-- The padded first weights at an input feature below 6 are the weights. -/
theorem wpad_inside (w : S3x6x128.Idx → EReal) (k : Fin 3) (f : Fin 6) (g : Fin 128) :
    pad S3x8x128 ![0, 0, 0] ![0, 2, 0] ![0, 0, 0] w (sitofp (F := Ideal) .f32 (constantI S_ 32 0#32))
      pads_S3x6x128_S3x8x128_000_020_000 h_S_ (ix3 k (Fin.castLE (by norm_num) f) g) = w (ix3 k f g) := by
  refine pad_apply_of_inside _ _ _ w _ _ _ _ (ix3 k f g) (fun a => ?_)
  fin_cases a <;> simp [ix3]

end Cert.KernelIdeal.PadRead

end
-- ==== Proof.PreReal.lean ====
/-
  Under the precondition every entry of the first seven inputs is a real number.

  The precondition is the conjunction, over the thirteen inputs, of "every entry has absolute value below
  plus infinity".  An extended real whose absolute value max x (-x) is below the top element is neither
  the bottom nor the top element, so it is the coercion of a real.
-/
import proofs.«171429_j17910013625104_2_alg».proof.Pre_finite_inputs
import proofs.«171429_j17910013625104_2_alg».proof.Proof.ChebSpec
import Idealize.ShloMosaic.Lib.ReduceAll
import Idealize.ShloMosaic.Lib.ValueIdx

noncomputable section

namespace Cert.Pre_finite_inputs.Real

open Cert.Pre_finite_inputs Idealize.ShloMosaic Idealize.ShloMosaic.ValueIdx

variable [Facts]
open Facts

/-- The scalar shape has one index. -/
instance : Subsingleton S_.Idx := ⟨fun _ _ => funext fun d => d.elim0⟩

/-- The comparison word of "less than" is 1 only when the left side is smaller. -/
theorem lt_of_cmp_olt {a b : EReal} (h : Ideal.cmp .olt a b = 1#1) : a < b := by
  by_contra hn
  have h0 : Ideal.cmp .olt a b = 0#1 := by simp [Ideal.cmp, hn]
  rw [h0] at h
  exact absurd h (by decide)

/-- The word 0x7F800000 is plus infinity. -/
theorem inf_eq_top : Ideal.ofBits .f32 0x7F800000#32 = (⊤ : EReal) := by
  simp [Ideal.ofBits, Ideal.ieee]

/-- An extended real whose absolute value is below plus infinity is a real number. -/
theorem real_of_abs_lt_inf (x : EReal)
    (h : Ideal.cmp .olt (max x (-x)) (Ideal.ofBits .f32 0x7F800000#32) = 1#1) : Cert.Cheb.IsReal x := by
  have hlt := lt_of_cmp_olt h
  rw [inf_eq_top] at hlt
  induction x using EReal.rec with
  | bot => simp at hlt
  | coe r => exact ⟨r, rfl⟩
  | top => simp at hlt

/-- One input: if the conjunction over its entries of "absolute value below plus infinity" is 1, every entry is real. -/
theorem real_of_all {s : Shape} {axes : List (Fin s.rank)} (x : FVec Ideal s .f32)
    (hb : S_.BroadcastsInDim s (![] : Fin 0 → Fin s.rank)) (hr : s.ReducesTo axes S_) (hu : 0 < S_.numel) (j : S_.Idx)
    (e : Host.reduce IntOp.andi (cmpf .olt (Host.absf x) (broadcastInDim s ![] hb (constant S_ .f32 0x7F800000#32)))
      (constantI S_ 1 1#1) hr hu j = 1#1) (i : s.Idx) : Cert.Cheb.IsReal (x i) :=
  real_of_abs_lt_inf (x i) (Host.reduce_andi_all _ _ hr hu j e i)

theorem real_of_pre (x0 : FVec Ideal S32x1024x6 .f32) (x1 : FVec Ideal S3x6x128 .f32) (x2 : FVec Ideal S128 .f32)
    (x3 : FVec Ideal S3x128x512 .f32) (x4 : FVec Ideal S512 .f32) (x5 : FVec Ideal S3x512x1024 .f32)
    (x6 : FVec Ideal S1024 .f32) (x7 : FVec Ideal S1024x512 .f32) (x8 : FVec Ideal S512 .f32)
    (x9 : FVec Ideal S512x128 .f32) (x10 : FVec Ideal S128 .f32) (x11 : FVec Ideal S128x40 .f32)
    (x12 : FVec Ideal S40 .f32)
    (h : Cert.Pre_finite_inputs.fn (F := Ideal) x0 x1 x2 x3 x4 x5 x6 x7 x8 x9 x10 x11 x12 = fun _ => 1#1) :
    (∀ i, Cert.Cheb.IsReal (x0 i)) ∧ (∀ i, Cert.Cheb.IsReal (x1 i)) ∧ (∀ i, Cert.Cheb.IsReal (x2 i)) ∧
    (∀ i, Cert.Cheb.IsReal (x3 i)) ∧ (∀ i, Cert.Cheb.IsReal (x4 i)) ∧ (∀ i, Cert.Cheb.IsReal (x5 i)) ∧
    (∀ i, Cert.Cheb.IsReal (x6 i)) := by
  have h' := congrFun h ix0
  dsimp only [fn, fn_part1, fn_part2, fn_part3] at h'
  -- the thirteen bits, split from the last to the first
  obtain ⟨h', _⟩ := IntOp.andi_eq_one.1 h'
  obtain ⟨h', _⟩ := IntOp.andi_eq_one.1 h'
  obtain ⟨h', _⟩ := IntOp.andi_eq_one.1 h'
  obtain ⟨h', _⟩ := IntOp.andi_eq_one.1 h'
  obtain ⟨h', _⟩ := IntOp.andi_eq_one.1 h'
  obtain ⟨h', _⟩ := IntOp.andi_eq_one.1 h'
  obtain ⟨h', e6⟩ := IntOp.andi_eq_one.1 h'
  obtain ⟨h', e5⟩ := IntOp.andi_eq_one.1 h'
  obtain ⟨h', e4⟩ := IntOp.andi_eq_one.1 h'
  obtain ⟨h', e3⟩ := IntOp.andi_eq_one.1 h'
  obtain ⟨h', e2⟩ := IntOp.andi_eq_one.1 h'
  obtain ⟨e0, e1⟩ := IntOp.andi_eq_one.1 h'
  exact ⟨real_of_all x0 _ _ _ _ e0, real_of_all x1 _ _ _ _ e1, real_of_all x2 _ _ _ _ e2, real_of_all x3 _ _ _ _ e3,
    real_of_all x4 _ _ _ _ e4, real_of_all x5 _ _ _ _ e5, real_of_all x6 _ _ _ _ e6⟩

end Cert.Pre_finite_inputs.Real

end
-- ==== Proof.LibAfterAppend.lean ====
/-
  A straight line of host operations read back in two stretches.

  The contents of the buffers after a list of host operations is the fold of the operations' results over the
  contents before it.  The fold over a list cut in two is the fold over the second part of the fold over the first:
  running one stretch after another is running the two in turn.  So a long program can be read back one stretch at a
  time, each stretch's result stated once as a function of the buffers it reads.
-/
import Idealize.ShloMosaic.Lib.StableHlo.Run

noncomputable section

namespace Idealize.ShloMosaic.StableHlo

variable {τ : Topo} {sig : RefSig} {Val : EltTy → Type}

/-- The buffers after the operations `A` followed by the operations `B` are the buffers after `B` run from the buffers
    after `A`. -/
theorem after_append (A B : List (HloOp τ sig Val)) (V : Valuation τ sig Val) :
    after (A ++ B) V = after B (after A V) := by
  induction A generalizing V with
  | nil => rfl
  | cons a A ih => exact ih _

end Idealize.ShloMosaic.StableHlo

end
-- ==== Proof.RefRun.lean ====
/-
  The reference program's run, read back layer by layer.

  The host program is a straight line of 200 operations.  Run from the launch memory it ends with every buffer at
  the fold of the operations' results over the launch contents.  Read back at the result buffer in one piece, that
  fold is a term in which every layer's input occurs 58 times, so through three layers the first input occurs some
  200,000 times; read back in four stretches it is four small terms.  The stretches are the three
  graph-convolution layers (60 operations each, ending with the maximum against zero) and the tail (the maximum
  over the points and the perceptron head, 20 operations).  Each stretch is read from ANY contents `V` of the
  buffers: its result buffer ends at the staged function of the reference (`val_main_v51`, `val_main_v103`,
  `val_main_v155`, `val_main_v170`) of what `V` holds at the buffers the stretch reads.  No operation writes an
  argument's buffer, so the arguments are unchanged after any part of the line.  The fold over the whole list
  is the four folds in turn.
-/
import proofs.«171429_j17910013625104_2_alg».proof.Proof.RefOps
import proofs.«171429_j17910013625104_2_alg».proof.Proof.RefRead
import proofs.«171429_j17910013625104_2_alg».proof.Proof.LibAfterAppend

noncomputable section

namespace Cert.ReferenceIdeal.RunP

open Cert.ReferenceIdeal Cert.ReferenceIdeal.Gen Cert.ReferenceIdeal.Read Idealize.ShloMosaic Idealize.ShloMosaic.TcCoe
  Idealize.SL.Sem Idealize.ShloMosaic.StableHlo

variable {F : FTy → Type} [FloatOps F]

/-! ## The four stretches -/

/-- The first layer: operations 0–59, up to the first maximum against zero. -/
abbrev opsA : List (HloOp τ sig (Elt F)) := (Value.ops (F := F)).take 60
/-- The second layer: operations 60–119. -/
abbrev opsB : List (HloOp τ sig (Elt F)) := ((Value.ops (F := F)).drop 60).take 60
/-- The third layer: operations 120–179. -/
abbrev opsC : List (HloOp τ sig (Elt F)) := ((Value.ops (F := F)).drop 120).take 60
/-- The tail: operations 180–199. -/
abbrev opsD : List (HloOp τ sig (Elt F)) := (Value.ops (F := F)).drop 180

/-- A list is its first 60 entries, the next 60, the next 60 and the rest. -/
theorem split4 {α : Type} (l : List α) :
    l = l.take 60 ++ ((l.drop 60).take 60 ++ ((l.drop 120).take 60 ++ l.drop 180)) := by
  have h1 : (l.drop 60).drop 60 = l.drop 120 := by simp [List.drop_drop]
  have h2 : (l.drop 120).drop 60 = l.drop 180 := by simp [List.drop_drop]
  rw [← h2, List.take_append_drop, ← h1, List.take_append_drop, List.take_append_drop]

theorem ops_split : (Value.ops (F := F)) = opsA ++ (opsB ++ (opsC ++ opsD)) := split4 _

/-! ## No operation writes an argument -/

/-- Every operation of the line leaves the thirteen arguments' buffers alone. -/
theorem ops_keep : (Value.ops (F := F)).Forall fun op =>
    (Proc.devRef .tc main_arg0) ∉ op.writes ∧ (Proc.devRef .tc main_arg1) ∉ op.writes ∧ (Proc.devRef .tc main_arg2) ∉ op.writes ∧ (Proc.devRef .tc main_arg3) ∉ op.writes ∧ (Proc.devRef .tc main_arg4) ∉ op.writes ∧ (Proc.devRef .tc main_arg5) ∉ op.writes ∧ (Proc.devRef .tc main_arg6) ∉ op.writes ∧ (Proc.devRef .tc main_arg7) ∉ op.writes ∧ (Proc.devRef .tc main_arg8) ∉ op.writes ∧ (Proc.devRef .tc main_arg9) ∉ op.writes ∧ (Proc.devRef .tc main_arg10) ∉ op.writes ∧ (Proc.devRef .tc main_arg11) ∉ op.writes ∧ (Proc.devRef .tc main_arg12) ∉ op.writes := by
  simp only [Value.ops, List.Forall, StableHlo.nullary_writes, StableHlo.unary_writes, StableHlo.binary_writes,
    StableHlo.reshape_writes, Finset.mem_singleton]
  repeat' apply And.intro
  all_goals exact StableHlo.devRef_ne_of_ne (by decide)

/-- An argument's buffer after any part of the line holds what it held before. -/
theorem keep0 (l : List (HloOp τ sig (Elt F))) (hl : ∀ op ∈ l, op ∈ Value.ops (F := F)) (V : Valuation τ sig (Elt F)) :
    after l V (Proc.devRef .tc main_arg0) = V (Proc.devRef .tc main_arg0) :=
  after_of_forall_not_mem l V fun op h => ((List.forall_iff_forall_mem.mp ops_keep) op (hl op h)).1
theorem keep1 (l : List (HloOp τ sig (Elt F))) (hl : ∀ op ∈ l, op ∈ Value.ops (F := F)) (V : Valuation τ sig (Elt F)) :
    after l V (Proc.devRef .tc main_arg1) = V (Proc.devRef .tc main_arg1) :=
  after_of_forall_not_mem l V fun op h => ((List.forall_iff_forall_mem.mp ops_keep) op (hl op h)).2.1
theorem keep2 (l : List (HloOp τ sig (Elt F))) (hl : ∀ op ∈ l, op ∈ Value.ops (F := F)) (V : Valuation τ sig (Elt F)) :
    after l V (Proc.devRef .tc main_arg2) = V (Proc.devRef .tc main_arg2) :=
  after_of_forall_not_mem l V fun op h => ((List.forall_iff_forall_mem.mp ops_keep) op (hl op h)).2.2.1
theorem keep3 (l : List (HloOp τ sig (Elt F))) (hl : ∀ op ∈ l, op ∈ Value.ops (F := F)) (V : Valuation τ sig (Elt F)) :
    after l V (Proc.devRef .tc main_arg3) = V (Proc.devRef .tc main_arg3) :=
  after_of_forall_not_mem l V fun op h => ((List.forall_iff_forall_mem.mp ops_keep) op (hl op h)).2.2.2.1
theorem keep4 (l : List (HloOp τ sig (Elt F))) (hl : ∀ op ∈ l, op ∈ Value.ops (F := F)) (V : Valuation τ sig (Elt F)) :
    after l V (Proc.devRef .tc main_arg4) = V (Proc.devRef .tc main_arg4) :=
  after_of_forall_not_mem l V fun op h => ((List.forall_iff_forall_mem.mp ops_keep) op (hl op h)).2.2.2.2.1
theorem keep5 (l : List (HloOp τ sig (Elt F))) (hl : ∀ op ∈ l, op ∈ Value.ops (F := F)) (V : Valuation τ sig (Elt F)) :
    after l V (Proc.devRef .tc main_arg5) = V (Proc.devRef .tc main_arg5) :=
  after_of_forall_not_mem l V fun op h => ((List.forall_iff_forall_mem.mp ops_keep) op (hl op h)).2.2.2.2.2.1
theorem keep6 (l : List (HloOp τ sig (Elt F))) (hl : ∀ op ∈ l, op ∈ Value.ops (F := F)) (V : Valuation τ sig (Elt F)) :
    after l V (Proc.devRef .tc main_arg6) = V (Proc.devRef .tc main_arg6) :=
  after_of_forall_not_mem l V fun op h => ((List.forall_iff_forall_mem.mp ops_keep) op (hl op h)).2.2.2.2.2.2.1
theorem keep7 (l : List (HloOp τ sig (Elt F))) (hl : ∀ op ∈ l, op ∈ Value.ops (F := F)) (V : Valuation τ sig (Elt F)) :
    after l V (Proc.devRef .tc main_arg7) = V (Proc.devRef .tc main_arg7) :=
  after_of_forall_not_mem l V fun op h => ((List.forall_iff_forall_mem.mp ops_keep) op (hl op h)).2.2.2.2.2.2.2.1
theorem keep8 (l : List (HloOp τ sig (Elt F))) (hl : ∀ op ∈ l, op ∈ Value.ops (F := F)) (V : Valuation τ sig (Elt F)) :
    after l V (Proc.devRef .tc main_arg8) = V (Proc.devRef .tc main_arg8) :=
  after_of_forall_not_mem l V fun op h => ((List.forall_iff_forall_mem.mp ops_keep) op (hl op h)).2.2.2.2.2.2.2.2.1
theorem keep9 (l : List (HloOp τ sig (Elt F))) (hl : ∀ op ∈ l, op ∈ Value.ops (F := F)) (V : Valuation τ sig (Elt F)) :
    after l V (Proc.devRef .tc main_arg9) = V (Proc.devRef .tc main_arg9) :=
  after_of_forall_not_mem l V fun op h => ((List.forall_iff_forall_mem.mp ops_keep) op (hl op h)).2.2.2.2.2.2.2.2.2.1
theorem keep10 (l : List (HloOp τ sig (Elt F))) (hl : ∀ op ∈ l, op ∈ Value.ops (F := F)) (V : Valuation τ sig (Elt F)) :
    after l V (Proc.devRef .tc main_arg10) = V (Proc.devRef .tc main_arg10) :=
  after_of_forall_not_mem l V fun op h => ((List.forall_iff_forall_mem.mp ops_keep) op (hl op h)).2.2.2.2.2.2.2.2.2.2.1
theorem keep11 (l : List (HloOp τ sig (Elt F))) (hl : ∀ op ∈ l, op ∈ Value.ops (F := F)) (V : Valuation τ sig (Elt F)) :
    after l V (Proc.devRef .tc main_arg11) = V (Proc.devRef .tc main_arg11) :=
  after_of_forall_not_mem l V fun op h => ((List.forall_iff_forall_mem.mp ops_keep) op (hl op h)).2.2.2.2.2.2.2.2.2.2.2.1
theorem keep12 (l : List (HloOp τ sig (Elt F))) (hl : ∀ op ∈ l, op ∈ Value.ops (F := F)) (V : Valuation τ sig (Elt F)) :
    after l V (Proc.devRef .tc main_arg12) = V (Proc.devRef .tc main_arg12) :=
  after_of_forall_not_mem l V fun op h => ((List.forall_iff_forall_mem.mp ops_keep) op (hl op h)).2.2.2.2.2.2.2.2.2.2.2.2

/-! ## Each stretch read back -/

set_option maxHeartbeats 16000000 in
/-- The first layer's result buffer after the first stretch, from any contents. -/
theorem stretchA (V : Valuation τ sig (Elt F)) (a0 : (⟨S32x1024x6, .f32⟩ : BufTy).Contents (Elt F)) (a1 : (⟨S3x6x128, .f32⟩ : BufTy).Contents (Elt F)) (a2 : (⟨S128, .f32⟩ : BufTy).Contents (Elt F))
    (h0 : V (Proc.devRef .tc main_arg0) = a0) (h1 : V (Proc.devRef .tc main_arg1) = a1) (h2 : V (Proc.devRef .tc main_arg2) = a2) :
    after (opsA (F := F)) V (Proc.devRef .tc main_v51) = val_main_v51 (F := F) a0 a1 a2 := by
  simp only [opsA, Value.ops, List.take_succ_cons, List.take_zero, List.drop_succ_cons, List.drop_zero]
  after_results_simp
  simp only [h0, h1, h2]
  rfl

set_option maxHeartbeats 16000000 in
/-- The second layer's result buffer after the second stretch, from contents that hold the first layer's result. -/
theorem stretchB (V : Valuation τ sig (Elt F)) (a0 : (⟨S32x1024x6, .f32⟩ : BufTy).Contents (Elt F)) (a1 : (⟨S3x6x128, .f32⟩ : BufTy).Contents (Elt F)) (a2 : (⟨S128, .f32⟩ : BufTy).Contents (Elt F)) (a3 : (⟨S3x128x512, .f32⟩ : BufTy).Contents (Elt F)) (a4 : (⟨S512, .f32⟩ : BufTy).Contents (Elt F))
    (hp : V (Proc.devRef .tc main_v51) = val_main_v51 (F := F) a0 a1 a2)
    (h3 : V (Proc.devRef .tc main_arg3) = a3) (h4 : V (Proc.devRef .tc main_arg4) = a4) :
    after (opsB (F := F)) V (Proc.devRef .tc main_v103) = val_main_v103 (F := F) a0 a1 a2 a3 a4 := by
  simp only [opsB, Value.ops, List.take_succ_cons, List.take_zero, List.drop_succ_cons, List.drop_zero]
  after_results_simp
  simp only [hp, h3, h4]
  rfl

set_option maxHeartbeats 16000000 in
/-- The third layer's result buffer after the third stretch, from contents that hold the second layer's result. -/
theorem stretchC (V : Valuation τ sig (Elt F)) (a0 : (⟨S32x1024x6, .f32⟩ : BufTy).Contents (Elt F)) (a1 : (⟨S3x6x128, .f32⟩ : BufTy).Contents (Elt F)) (a2 : (⟨S128, .f32⟩ : BufTy).Contents (Elt F)) (a3 : (⟨S3x128x512, .f32⟩ : BufTy).Contents (Elt F)) (a4 : (⟨S512, .f32⟩ : BufTy).Contents (Elt F)) (a5 : (⟨S3x512x1024, .f32⟩ : BufTy).Contents (Elt F)) (a6 : (⟨S1024, .f32⟩ : BufTy).Contents (Elt F))
    (hp : V (Proc.devRef .tc main_v103) = val_main_v103 (F := F) a0 a1 a2 a3 a4)
    (h5 : V (Proc.devRef .tc main_arg5) = a5) (h6 : V (Proc.devRef .tc main_arg6) = a6) :
    after (opsC (F := F)) V (Proc.devRef .tc main_v155) = val_main_v155 (F := F) a0 a1 a2 a3 a4 a5 a6 := by
  simp only [opsC, Value.ops, List.take_succ_cons, List.take_zero, List.drop_succ_cons, List.drop_zero]
  after_results_simp
  simp only [hp, h5, h6]
  rfl

set_option maxHeartbeats 16000000 in
/-- The program's result buffer after the tail, from contents that hold the third layer's result. -/
theorem stretchD (V : Valuation τ sig (Elt F)) (a0 : (⟨S32x1024x6, .f32⟩ : BufTy).Contents (Elt F)) (a1 : (⟨S3x6x128, .f32⟩ : BufTy).Contents (Elt F)) (a2 : (⟨S128, .f32⟩ : BufTy).Contents (Elt F)) (a3 : (⟨S3x128x512, .f32⟩ : BufTy).Contents (Elt F)) (a4 : (⟨S512, .f32⟩ : BufTy).Contents (Elt F)) (a5 : (⟨S3x512x1024, .f32⟩ : BufTy).Contents (Elt F)) (a6 : (⟨S1024, .f32⟩ : BufTy).Contents (Elt F)) (a7 : (⟨S1024x512, .f32⟩ : BufTy).Contents (Elt F)) (a8 : (⟨S512, .f32⟩ : BufTy).Contents (Elt F)) (a9 : (⟨S512x128, .f32⟩ : BufTy).Contents (Elt F)) (a10 : (⟨S128, .f32⟩ : BufTy).Contents (Elt F)) (a11 : (⟨S128x40, .f32⟩ : BufTy).Contents (Elt F)) (a12 : (⟨S40, .f32⟩ : BufTy).Contents (Elt F))
    (hp : V (Proc.devRef .tc main_v155) = val_main_v155 (F := F) a0 a1 a2 a3 a4 a5 a6)
    (h7 : V (Proc.devRef .tc main_arg7) = a7) (h8 : V (Proc.devRef .tc main_arg8) = a8) (h9 : V (Proc.devRef .tc main_arg9) = a9) (h10 : V (Proc.devRef .tc main_arg10) = a10) (h11 : V (Proc.devRef .tc main_arg11) = a11) (h12 : V (Proc.devRef .tc main_arg12) = a12) :
    after (opsD (F := F)) V (Proc.devRef .tc main_v170) = val_main_v170 (F := F) a0 a1 a2 a3 a4 a5 a6 a7 a8 a9 a10 a11 a12 := by
  simp only [opsD, Value.ops, List.take_succ_cons, List.take_zero, List.drop_succ_cons, List.drop_zero]
  after_results_simp
  simp only [hp, h7, h8, h9, h10, h11, h12]
  rfl

/-! ## The whole line -/

theorem subA : ∀ op ∈ opsA (F := F), op ∈ Value.ops (F := F) := fun _ h => List.mem_of_mem_take h
theorem subB : ∀ op ∈ opsB (F := F), op ∈ Value.ops (F := F) := fun _ h => List.mem_of_mem_drop (List.mem_of_mem_take h)
theorem subC : ∀ op ∈ opsC (F := F), op ∈ Value.ops (F := F) := fun _ h => List.mem_of_mem_drop (List.mem_of_mem_take h)

/-- The result buffer after the whole line, from any contents: the program's staged result of the arguments' contents. -/
theorem result (V : Valuation τ sig (Elt F)) :
    after (Value.ops (F := F)) V (Proc.devRef .tc main_v170)
      = val_main_v170 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) := by
  rw [ops_split, after_append, after_append, after_append]
  exact stretchD (after opsC (after opsB (after opsA V))) _ _ _ _ _ _ _ _ _ _ _ _ _
    (stretchC (after opsB (after opsA V)) _ _ _ _ _ _ _
      (stretchB (after opsA V) _ _ _ _ _ (stretchA V _ _ _ rfl rfl rfl) (keep3 _ subA V) (keep4 _ subA V))
      ((keep5 _ subB _).trans (keep5 _ subA V)) ((keep6 _ subB _).trans (keep6 _ subA V)))
    ((keep7 _ subC _).trans ((keep7 _ subB _).trans (keep7 _ subA V)))
    ((keep8 _ subC _).trans ((keep8 _ subB _).trans (keep8 _ subA V)))
    ((keep9 _ subC _).trans ((keep9 _ subB _).trans (keep9 _ subA V)))
    ((keep10 _ subC _).trans ((keep10 _ subB _).trans (keep10 _ subA V)))
    ((keep11 _ subC _).trans ((keep11 _ subB _).trans (keep11 _ subA V)))
    ((keep12 _ subC _).trans ((keep12 _ subB _).trans (keep12 _ subA V)))

/-- On every device, from any memory with zero counters: every weakly fair execution of @main terminates with the
    result buffer at the program's staged result of the launch contents of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v170)
        = val_main_v170 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12) :=
  (θ_run defs _ _).mono (fun _ h c => ⟨(h c main_v170).trans (result (launchContents m c)),
      (h c main_arg0).trans (keep0 _ (fun _ h => h) _),
      (h c main_arg1).trans (keep1 _ (fun _ h => h) _),
      (h c main_arg2).trans (keep2 _ (fun _ h => h) _),
      (h c main_arg3).trans (keep3 _ (fun _ h => h) _),
      (h c main_arg4).trans (keep4 _ (fun _ h => h) _),
      (h c main_arg5).trans (keep5 _ (fun _ h => h) _),
      (h c main_arg6).trans (keep6 _ (fun _ h => h) _),
      (h c main_arg7).trans (keep7 _ (fun _ h => h) _),
      (h c main_arg8).trans (keep8 _ (fun _ h => h) _),
      (h c main_arg9).trans (keep9 _ (fun _ h => h) _),
      (h c main_arg10).trans (keep10 _ (fun _ h => h) _),
      (h c main_arg11).trans (keep11 _ (fun _ h => h) _),
      (h c main_arg12).trans (keep12 _ (fun _ h => h) _)⟩)
    (run_seq Value.scopedRefs_eq Value.scopedSems_eq defs main (fun _ => Value.ops) Value.main_eq (fun _ => Value.ops_sub) m ρ)

end Cert.ReferenceIdeal.RunP

end
-- ==== Proof.RefCommon.lean ====
/-
  Two facts that the reading of every graph-convolution layer uses.

  The binary32 word 0x3F800000 is the number one.  The identity matrix is built by comparing a row counter
  with a column counter, both 32-bit words of numbers below 1024, and converting the one-bit answer to a
  number: the entry at (n, m) is one when n = m and zero otherwise, because two numbers below 2^32 have the
  same 32-bit word only when they are equal.
-/
import Idealize.ShloMosaic.PureOps.Ideal.Laws
import Idealize.ShloMosaic.Lib.ValueIdx

noncomputable section

namespace Cert.ReferenceIdeal.RefValue

open Idealize.ShloMosaic

/-- The binary32 word of one. -/
theorem one_word : Ideal.ofBits .f32 0x3F800000#32 = (1 : EReal) := by
  simp [Ideal.ofBits, Ideal.ieee]
  rw [← EReal.coe_mul]
  norm_num

/-- Two numbers below 1024 with the same 32-bit word are equal. -/
theorem word_inj (n m : Fin 1024) (h : BitVec.ofNat 32 n.val = BitVec.ofNat 32 m.val) : n = m := by
  have h' := congrArg BitVec.toNat h
  simp only [BitVec.toNat_ofNat] at h'
  have hn := n.isLt
  have hm := m.isLt
  exact Fin.ext (by omega)

/-- The identity matrix's entry: the comparison of the two counters, converted to a number. -/
theorem eye_entry (n m : Fin 1024) :
    (FloatOps.uitofp (F := Ideal) .f32
        (IntOp.cmpi .eq (IntOp.addi (BitVec.ofNat 32 n.val) 0#32) (BitVec.ofNat 32 m.val)) : EReal)
      = if n = m then 1 else 0 := by
  show (((IntOp.cmpi .eq (IntOp.addi (BitVec.ofNat 32 n.val) 0#32) (BitVec.ofNat 32 m.val)).toNat : ℝ) : EReal) = _
  by_cases h : n = m
  · subst h
    simp [IntOp.cmpi, IntOp.addi]
  · have hw : ¬ BitVec.ofNat 32 n.val = BitVec.ofNat 32 m.val := fun e => h (word_inj n m e)
    simp [IntOp.cmpi, IntOp.addi, hw, h]

end Cert.ReferenceIdeal.RefValue

end
-- ==== Proof.RefLayer1.lean ====
/-
  The first graph-convolution layer of the reference program, read as mathematics.

  The program computes the layer on all 32 clouds at once, as about fifty array operations.  Each lemma below
  reads one named intermediate array at an entry: for cloud `b`, whose rows are `x n = a0 (b, n, ·)`,
  the array holds the corresponding quantity of the layer at the points `n`, `m` (or at point `n` and feature `f`):
  the inner products, the squared norms, the squared distance, the Gaussian adjacency, the degrees, one over
  their square roots, the identity matrix, the normalized adjacency, the Laplacian, the first- and second-order
  terms, the three projections, the bias, and the maximum against zero.  A broadcast reads its operand at the
  coordinates it keeps; a slice of the stacked weights followed by a reshape reads weight matrix `k`.
-/
import proofs.«171429_j17910013625104_2_alg».proof.Proof.RefRead
import proofs.«171429_j17910013625104_2_alg».proof.Proof.ChebNet
import proofs.«171429_j17910013625104_2_alg».proof.Proof.RefCommon

noncomputable section

namespace Cert.ReferenceIdeal.RefValue

open Cert.ReferenceIdeal Cert.ReferenceIdeal.Read Idealize.ShloMosaic Idealize.ShloMosaic.ValueIdx

/-- Two indices of a rank-1, rank-2 or rank-3 array are equal when their coordinates are. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

section

variable (a0 : (⟨S32x1024x6, .f32⟩ : BufTy).Contents (Elt Ideal))
  (a1 : (⟨S3x6x128, .f32⟩ : BufTy).Contents (Elt Ideal))
  (a2 : (⟨S128, .f32⟩ : BufTy).Contents (Elt Ideal))

/-- The inner products of the rows of cloud `b`. -/
theorem inner1 (b : Fin 32) (n m : Fin 1024) :
    val_main_v0 (F := Ideal) a0 (ix3 b n m)
      = Cheb.inner (fun (n : Fin 1024) (d : Fin 6) => a0 (ix3 b n d)) n m := by
  rw [val_main_v0_apply]
  unfold Cheb.inner
  refine Finset.sum_congr rfl fun k _ => ?_
  rw [show lidx_main_v0 (ix3 b n m) k = ix3 b n k by idx3,
    show ridx_main_v0 (ix3 b n m) k = ix3 b m k by idx3]

/-- The squared norms: the sum of the squares, started from the zero word. -/
theorem sq1 (b : Fin 32) (n : Fin 1024) :
    val_main_v2 (F := Ideal) a0 (ix2 b n)
      = Cheb.sq (fun (n : Fin 1024) (d : Fin 6) => a0 (ix3 b n d)) n := by
  rw [val_main_v2_apply, val_main_cst_apply, Ideal.ofBits_def, Ideal.ofBits_zero_f32, zero_add]
  unfold Cheb.sq
  refine Finset.sum_congr rfl fun k _ => ?_
  rw [val_main_v1_apply, show idx_main_v2 (ix2 b n) k = ix3 b n k by idx3]
  rfl

/-- The squared distance, expanded: the norm of row `n` broadcast along the columns, minus twice the inner
    product, plus the norm of row `m` broadcast along the rows. -/
theorem dist1 (b : Fin 32) (n m : Fin 1024) :
    val_main_v10 (F := Ideal) a0 (ix3 b n m)
      = Cheb.dist Cheb.two (fun (n : Fin 1024) (d : Fin 6) => a0 (ix3 b n d)) n m := by
  rw [val_main_v10_apply, val_main_v7_apply, val_main_v6_apply, val_main_v3_apply, val_main_v5_apply,
    val_main_v4_apply, val_main_cst_0_apply, val_main_v9_apply, val_main_v8_apply,
    show idx_main_v3 (idx_main_v6 (ix3 b n m)) = ix2 b n by idx2,
    show idx_main_v8 (idx_main_v9 (ix3 b n m)) = ix2 b m by idx2,
    sq1 a0 b n, sq1 a0 b m, inner1 a0 b n m]
  rfl

/-- The Gaussian adjacency: the exponential of the negated distance. -/
theorem adj1 (b : Fin 32) (n m : Fin 1024) :
    val_main_v12 (F := Ideal) a0 (ix3 b n m)
      = Cheb.adjR Cheb.two (fun (n : Fin 1024) (d : Fin 6) => a0 (ix3 b n d)) n m := by
  rw [val_main_v12_apply, val_main_v11_apply, dist1 a0 b n m]
  rfl

/-- The degrees: the adjacency rows summed, from the zero word. -/
theorem deg1 (b : Fin 32) (n : Fin 1024) :
    val_main_v13 (F := Ideal) a0 (ix2 b n)
      = Cheb.degR Cheb.two (fun (n : Fin 1024) (d : Fin 6) => a0 (ix3 b n d)) n := by
  rw [val_main_v13_apply, val_main_cst_1_apply, Ideal.ofBits_def, Ideal.ofBits_zero_f32, zero_add]
  unfold Cheb.degR
  refine Finset.sum_congr rfl fun k _ => ?_
  rw [show idx_main_v13 (ix2 b n) k = ix3 b n k by idx3, adj1 a0 b n k]

/-- One over the square root of the degree. -/
theorem dis1 (b : Fin 32) (n : Fin 1024) :
    val_main_v16 (F := Ideal) a0 (ix2 b n)
      = Ideal.div 1 (Ideal.sqrt (Cheb.degR Cheb.two (fun (n : Fin 1024) (d : Fin 6) => a0 (ix3 b n d)) n)) := by
  rw [val_main_v16_apply, val_main_v15_apply, val_main_cst_2_apply, val_main_v14_apply, deg1 a0 b n,
    Ideal.ofBits_def, one_word]
  rfl

/-- The identity matrix: a row counter compared with a column counter. -/
theorem eye1 (n m : Fin 1024) :
    val_main_v22 (F := Ideal) (ix2 n m) = if n = m then (1 : EReal) else 0 := by
  rw [val_main_v22_apply, val_main_v21_apply, val_main_v20_apply, val_main_v17_apply, val_main_v19_apply,
    val_main_c_apply, val_main_v18_apply]
  exact eye_entry n m

/-- The symmetrically normalized adjacency. -/
theorem norm1 (b : Fin 32) (n m : Fin 1024) :
    val_main_v28 (F := Ideal) a0 (ix3 b n m)
      = Cheb.normR Cheb.two (fun (n : Fin 1024) (d : Fin 6) => a0 (ix3 b n d)) n m := by
  rw [val_main_v28_apply, val_main_v25_apply, val_main_v24_apply, val_main_v23_apply, val_main_v27_apply,
    val_main_v26_apply,
    show idx_main_v23 (idx_main_v24 (ix3 b n m)) = ix2 b n by idx2,
    show idx_main_v26 (idx_main_v27 (ix3 b n m)) = ix2 b m by idx2,
    dis1 a0 b n, dis1 a0 b m, adj1 a0 b n m]
  rfl

/-- The Laplacian: the identity minus the normalized adjacency. -/
theorem lap1 (b : Fin 32) (n m : Fin 1024) :
    val_main_v31 (F := Ideal) a0 (ix3 b n m)
      = Cheb.lap Cheb.two (fun (n : Fin 1024) (d : Fin 6) => a0 (ix3 b n d)) n m := by
  rw [val_main_v31_apply, val_main_v30_apply, val_main_v29_apply,
    show idx_main_v29 (idx_main_v30 (ix3 b n m)) = ix2 n m by idx2, eye1 n m, norm1 a0 b n m]
  rfl

/-- The first-order term: the Laplacian applied to the rows. -/
theorem x1_1 (b : Fin 32) (n : Fin 1024) (f : Fin 6) :
    val_main_v32 (F := Ideal) a0 (ix3 b n f)
      = Cheb.x1R Cheb.two (fun (n : Fin 1024) (d : Fin 6) => a0 (ix3 b n d)) n f := by
  rw [val_main_v32_apply]
  unfold Cheb.x1R Cheb.prop
  refine Finset.sum_congr rfl fun k _ => ?_
  rw [show lidx_main_v32 (ix3 b n f) k = ix3 b n k by idx3,
    show ridx_main_v32 (ix3 b n f) k = ix3 b k f by idx3, lap1 a0 b n k]

/-- The Laplacian applied to the first-order term. -/
theorem lx1_1 (b : Fin 32) (n : Fin 1024) (f : Fin 6) :
    val_main_v40 (F := Ideal) a0 (ix3 b n f)
      = Cheb.prop (Cheb.lap Cheb.two (fun (n : Fin 1024) (d : Fin 6) => a0 (ix3 b n d)))
          (Cheb.x1R Cheb.two (fun (n : Fin 1024) (d : Fin 6) => a0 (ix3 b n d))) n f := by
  rw [val_main_v40_apply]
  unfold Cheb.prop
  refine Finset.sum_congr rfl fun k _ => ?_
  rw [show lidx_main_v40 (ix3 b n f) k = ix3 b n k by idx3,
    show ridx_main_v40 (ix3 b n f) k = ix3 b k f by idx3, lap1 a0 b n k, x1_1 a0 b k f]

/-- The second-order term: twice that, minus the rows. -/
theorem x2_1 (b : Fin 32) (n : Fin 1024) (f : Fin 6) :
    val_main_v43 (F := Ideal) a0 (ix3 b n f)
      = Cheb.x2R Cheb.two (fun (n : Fin 1024) (d : Fin 6) => a0 (ix3 b n d)) n f := by
  rw [val_main_v43_apply, val_main_v42_apply, val_main_v41_apply, val_main_cst_3_apply, lx1_1 a0 b n f]
  rfl

/-- Weight matrix 0: slice 0 of the stacked weights, reshaped to a matrix. -/
theorem w0_1 (f : Fin 6) (g : Fin 128) :
    val_main_v34 (F := Ideal) a1 (ix2 f g) = Cheb.wOf a1 0 f g := by
  rw [val_main_v34_apply, val_main_v33_apply]
  exact congrArg a1 (funext fun a => Fin.ext (by
    have hf := f.isLt
    have hg := g.isLt
    match a with
    | ⟨0, _⟩ => rfl
    | ⟨1, _⟩ => show (f.val * 128 + g.val) / 128 % 6 = f.val; omega
    | ⟨2, _⟩ => show (f.val * 128 + g.val) % 128 = g.val; omega))

/-- Weight matrix 1: slice 1 of the stacked weights, reshaped to a matrix. -/
theorem w1_1 (f : Fin 6) (g : Fin 128) :
    val_main_v37 (F := Ideal) a1 (ix2 f g) = Cheb.wOf a1 1 f g := by
  rw [val_main_v37_apply, val_main_v36_apply]
  exact congrArg a1 (funext fun a => Fin.ext (by
    have hf := f.isLt
    have hg := g.isLt
    match a with
    | ⟨0, _⟩ => rfl
    | ⟨1, _⟩ => show (f.val * 128 + g.val) / 128 % 6 = f.val; omega
    | ⟨2, _⟩ => show (f.val * 128 + g.val) % 128 = g.val; omega))

/-- Weight matrix 2: slice 2 of the stacked weights, reshaped to a matrix. -/
theorem w2_1 (f : Fin 6) (g : Fin 128) :
    val_main_v45 (F := Ideal) a1 (ix2 f g) = Cheb.wOf a1 2 f g := by
  rw [val_main_v45_apply, val_main_v44_apply]
  exact congrArg a1 (funext fun a => Fin.ext (by
    have hf := f.isLt
    have hg := g.isLt
    match a with
    | ⟨0, _⟩ => rfl
    | ⟨1, _⟩ => show (f.val * 128 + g.val) / 128 % 6 = f.val; omega
    | ⟨2, _⟩ => show (f.val * 128 + g.val) % 128 = g.val; omega))

/-- The rows projected by weight matrix 0. -/
theorem p0_1 (b : Fin 32) (n : Fin 1024) (g : Fin 128) :
    val_main_v35 (F := Ideal) a0 a1 (ix3 b n g)
      = Cheb.proj (fun (n : Fin 1024) (d : Fin 6) => a0 (ix3 b n d)) (Cheb.wOf a1 0) n g := by
  rw [val_main_v35_apply]
  unfold Cheb.proj
  refine Finset.sum_congr rfl fun k _ => ?_
  rw [show lidx_main_v35 (ix3 b n g) k = ix3 b n k by idx3,
    show ridx_main_v35 (ix3 b n g) k = ix2 k g by idx2, w0_1 a1 k g]

/-- The first-order term projected by weight matrix 1. -/
theorem p1_1 (b : Fin 32) (n : Fin 1024) (g : Fin 128) :
    val_main_v38 (F := Ideal) a0 a1 (ix3 b n g)
      = Cheb.proj (Cheb.x1R Cheb.two (fun (n : Fin 1024) (d : Fin 6) => a0 (ix3 b n d))) (Cheb.wOf a1 1) n g := by
  rw [val_main_v38_apply]
  unfold Cheb.proj
  refine Finset.sum_congr rfl fun k _ => ?_
  rw [show lidx_main_v38 (ix3 b n g) k = ix3 b n k by idx3,
    show ridx_main_v38 (ix3 b n g) k = ix2 k g by idx2, x1_1 a0 b n k, w1_1 a1 k g]

/-- The second-order term projected by weight matrix 2. -/
theorem p2_1 (b : Fin 32) (n : Fin 1024) (g : Fin 128) :
    val_main_v46 (F := Ideal) a0 a1 (ix3 b n g)
      = Cheb.proj (Cheb.x2R Cheb.two (fun (n : Fin 1024) (d : Fin 6) => a0 (ix3 b n d))) (Cheb.wOf a1 2) n g := by
  rw [val_main_v46_apply]
  unfold Cheb.proj
  refine Finset.sum_congr rfl fun k _ => ?_
  rw [show lidx_main_v46 (ix3 b n g) k = ix3 b n k by idx3,
    show ridx_main_v46 (ix3 b n g) k = ix2 k g by idx2, x2_1 a0 b n k, w2_1 a1 k g]

/-- The layer at an entry: the three projections and the bias, added in the program's order, and the maximum
    against the zero word. -/
theorem out1 (b : Fin 32) (n : Fin 1024) (g : Fin 128) :
    val_main_v51 (F := Ideal) a0 a1 a2 (ix3 b n g)
      = Cheb.layerR Cheb.two (fun (n : Fin 1024) (d : Fin 6) => a0 (ix3 b n d)) (Cheb.wOf a1) (Cheb.vOf a2) n g := by
  rw [val_main_v51_apply, val_main_v50_apply, val_main_v47_apply, val_main_v39_apply, p0_1 a0 a1 b n g,
    p1_1 a0 a1 b n g, p2_1 a0 a1 b n g, val_main_v49_apply, val_main_v48_apply, val_main_call0_v0_apply,
    val_main_call0_cst_apply, Ideal.ofBits_def, Ideal.ofBits_zero_f32,
    show idx_main_v48 (idx_main_v49 (ix3 b n g)) = ix1 g by idx1]
  rfl

end

end Cert.ReferenceIdeal.RefValue

end
-- ==== Proof.RefLayer2.lean ====
/-
  The second graph-convolution layer of the reference program, read as mathematics.

  The program computes the layer on all 32 clouds at once, as about fifty array operations.  Each lemma below
  reads one named intermediate array at an entry: for cloud `b`, whose rows `x n` are the first layer's result at `(b, n, ·)` (kept as it is: the first layer is never opened here),
  the array holds the corresponding quantity of the layer at the points `n`, `m` (or at point `n` and feature `f`):
  the inner products, the squared norms, the squared distance, the Gaussian adjacency, the degrees, one over
  their square roots, the identity matrix, the normalized adjacency, the Laplacian, the first- and second-order
  terms, the three projections, the bias, and the maximum against zero.  A broadcast reads its operand at the
  coordinates it keeps; a slice of the stacked weights followed by a reshape reads weight matrix `k`.
-/
import proofs.«171429_j17910013625104_2_alg».proof.Proof.RefRead
import proofs.«171429_j17910013625104_2_alg».proof.Proof.ChebNet
import proofs.«171429_j17910013625104_2_alg».proof.Proof.RefCommon

noncomputable section

namespace Cert.ReferenceIdeal.RefValue

open Cert.ReferenceIdeal Cert.ReferenceIdeal.Read Idealize.ShloMosaic Idealize.ShloMosaic.ValueIdx

/-- Two indices of a rank-1, rank-2 or rank-3 array are equal when their coordinates are. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

section

variable (a0 : (⟨S32x1024x6, .f32⟩ : BufTy).Contents (Elt Ideal))
  (a1 : (⟨S3x6x128, .f32⟩ : BufTy).Contents (Elt Ideal))
  (a2 : (⟨S128, .f32⟩ : BufTy).Contents (Elt Ideal))
  (a3 : (⟨S3x128x512, .f32⟩ : BufTy).Contents (Elt Ideal))
  (a4 : (⟨S512, .f32⟩ : BufTy).Contents (Elt Ideal))

/-- The inner products of the rows of cloud `b`. -/
theorem inner2 (b : Fin 32) (n m : Fin 1024) :
    val_main_v52 (F := Ideal) a0 a1 a2 (ix3 b n m)
      = Cheb.inner (fun (n : Fin 1024) (d : Fin 128) => val_main_v51 (F := Ideal) a0 a1 a2 (ix3 b n d)) n m := by
  rw [val_main_v52_apply]
  unfold Cheb.inner
  refine Finset.sum_congr rfl fun k _ => ?_
  rw [show lidx_main_v52 (ix3 b n m) k = ix3 b n k by idx3,
    show ridx_main_v52 (ix3 b n m) k = ix3 b m k by idx3]

/-- The squared norms: the sum of the squares, started from the zero word. -/
theorem sq2 (b : Fin 32) (n : Fin 1024) :
    val_main_v54 (F := Ideal) a0 a1 a2 (ix2 b n)
      = Cheb.sq (fun (n : Fin 1024) (d : Fin 128) => val_main_v51 (F := Ideal) a0 a1 a2 (ix3 b n d)) n := by
  rw [val_main_v54_apply, val_main_cst_4_apply, Ideal.ofBits_def, Ideal.ofBits_zero_f32, zero_add]
  unfold Cheb.sq
  refine Finset.sum_congr rfl fun k _ => ?_
  rw [val_main_v53_apply, show idx_main_v54 (ix2 b n) k = ix3 b n k by idx3]
  rfl

/-- The squared distance, expanded: the norm of row `n` broadcast along the columns, minus twice the inner
    product, plus the norm of row `m` broadcast along the rows. -/
theorem dist2 (b : Fin 32) (n m : Fin 1024) :
    val_main_v62 (F := Ideal) a0 a1 a2 (ix3 b n m)
      = Cheb.dist Cheb.two (fun (n : Fin 1024) (d : Fin 128) => val_main_v51 (F := Ideal) a0 a1 a2 (ix3 b n d)) n m := by
  rw [val_main_v62_apply, val_main_v59_apply, val_main_v58_apply, val_main_v55_apply, val_main_v57_apply,
    val_main_v56_apply, val_main_cst_5_apply, val_main_v61_apply, val_main_v60_apply,
    show idx_main_v55 (idx_main_v58 (ix3 b n m)) = ix2 b n by idx2,
    show idx_main_v60 (idx_main_v61 (ix3 b n m)) = ix2 b m by idx2,
    sq2 a0 a1 a2 b n, sq2 a0 a1 a2 b m, inner2 a0 a1 a2 b n m]
  rfl

/-- The Gaussian adjacency: the exponential of the negated distance. -/
theorem adj2 (b : Fin 32) (n m : Fin 1024) :
    val_main_v64 (F := Ideal) a0 a1 a2 (ix3 b n m)
      = Cheb.adjR Cheb.two (fun (n : Fin 1024) (d : Fin 128) => val_main_v51 (F := Ideal) a0 a1 a2 (ix3 b n d)) n m := by
  rw [val_main_v64_apply, val_main_v63_apply, dist2 a0 a1 a2 b n m]
  rfl

/-- The degrees: the adjacency rows summed, from the zero word. -/
theorem deg2 (b : Fin 32) (n : Fin 1024) :
    val_main_v65 (F := Ideal) a0 a1 a2 (ix2 b n)
      = Cheb.degR Cheb.two (fun (n : Fin 1024) (d : Fin 128) => val_main_v51 (F := Ideal) a0 a1 a2 (ix3 b n d)) n := by
  rw [val_main_v65_apply, val_main_cst_6_apply, Ideal.ofBits_def, Ideal.ofBits_zero_f32, zero_add]
  unfold Cheb.degR
  refine Finset.sum_congr rfl fun k _ => ?_
  rw [show idx_main_v65 (ix2 b n) k = ix3 b n k by idx3, adj2 a0 a1 a2 b n k]

/-- One over the square root of the degree. -/
theorem dis2 (b : Fin 32) (n : Fin 1024) :
    val_main_v68 (F := Ideal) a0 a1 a2 (ix2 b n)
      = Ideal.div 1 (Ideal.sqrt (Cheb.degR Cheb.two (fun (n : Fin 1024) (d : Fin 128) => val_main_v51 (F := Ideal) a0 a1 a2 (ix3 b n d)) n)) := by
  rw [val_main_v68_apply, val_main_v67_apply, val_main_cst_7_apply, val_main_v66_apply, deg2 a0 a1 a2 b n,
    Ideal.ofBits_def, one_word]
  rfl

/-- The identity matrix: a row counter compared with a column counter. -/
theorem eye2 (n m : Fin 1024) :
    val_main_v74 (F := Ideal) (ix2 n m) = if n = m then (1 : EReal) else 0 := by
  rw [val_main_v74_apply, val_main_v73_apply, val_main_v72_apply, val_main_v69_apply, val_main_v71_apply,
    val_main_c_8_apply, val_main_v70_apply]
  exact eye_entry n m

/-- The symmetrically normalized adjacency. -/
theorem norm2 (b : Fin 32) (n m : Fin 1024) :
    val_main_v80 (F := Ideal) a0 a1 a2 (ix3 b n m)
      = Cheb.normR Cheb.two (fun (n : Fin 1024) (d : Fin 128) => val_main_v51 (F := Ideal) a0 a1 a2 (ix3 b n d)) n m := by
  rw [val_main_v80_apply, val_main_v77_apply, val_main_v76_apply, val_main_v75_apply, val_main_v79_apply,
    val_main_v78_apply,
    show idx_main_v75 (idx_main_v76 (ix3 b n m)) = ix2 b n by idx2,
    show idx_main_v78 (idx_main_v79 (ix3 b n m)) = ix2 b m by idx2,
    dis2 a0 a1 a2 b n, dis2 a0 a1 a2 b m, adj2 a0 a1 a2 b n m]
  rfl

/-- The Laplacian: the identity minus the normalized adjacency. -/
theorem lap2 (b : Fin 32) (n m : Fin 1024) :
    val_main_v83 (F := Ideal) a0 a1 a2 (ix3 b n m)
      = Cheb.lap Cheb.two (fun (n : Fin 1024) (d : Fin 128) => val_main_v51 (F := Ideal) a0 a1 a2 (ix3 b n d)) n m := by
  rw [val_main_v83_apply, val_main_v82_apply, val_main_v81_apply,
    show idx_main_v81 (idx_main_v82 (ix3 b n m)) = ix2 n m by idx2, eye2 n m, norm2 a0 a1 a2 b n m]
  rfl

/-- The first-order term: the Laplacian applied to the rows. -/
theorem x1_2 (b : Fin 32) (n : Fin 1024) (f : Fin 128) :
    val_main_v84 (F := Ideal) a0 a1 a2 (ix3 b n f)
      = Cheb.x1R Cheb.two (fun (n : Fin 1024) (d : Fin 128) => val_main_v51 (F := Ideal) a0 a1 a2 (ix3 b n d)) n f := by
  rw [val_main_v84_apply]
  unfold Cheb.x1R Cheb.prop
  refine Finset.sum_congr rfl fun k _ => ?_
  rw [show lidx_main_v84 (ix3 b n f) k = ix3 b n k by idx3,
    show ridx_main_v84 (ix3 b n f) k = ix3 b k f by idx3, lap2 a0 a1 a2 b n k]

/-- The Laplacian applied to the first-order term. -/
theorem lx1_2 (b : Fin 32) (n : Fin 1024) (f : Fin 128) :
    val_main_v92 (F := Ideal) a0 a1 a2 (ix3 b n f)
      = Cheb.prop (Cheb.lap Cheb.two (fun (n : Fin 1024) (d : Fin 128) => val_main_v51 (F := Ideal) a0 a1 a2 (ix3 b n d)))
          (Cheb.x1R Cheb.two (fun (n : Fin 1024) (d : Fin 128) => val_main_v51 (F := Ideal) a0 a1 a2 (ix3 b n d))) n f := by
  rw [val_main_v92_apply]
  unfold Cheb.prop
  refine Finset.sum_congr rfl fun k _ => ?_
  rw [show lidx_main_v92 (ix3 b n f) k = ix3 b n k by idx3,
    show ridx_main_v92 (ix3 b n f) k = ix3 b k f by idx3, lap2 a0 a1 a2 b n k, x1_2 a0 a1 a2 b k f]

/-- The second-order term: twice that, minus the rows. -/
theorem x2_2 (b : Fin 32) (n : Fin 1024) (f : Fin 128) :
    val_main_v95 (F := Ideal) a0 a1 a2 (ix3 b n f)
      = Cheb.x2R Cheb.two (fun (n : Fin 1024) (d : Fin 128) => val_main_v51 (F := Ideal) a0 a1 a2 (ix3 b n d)) n f := by
  rw [val_main_v95_apply, val_main_v94_apply, val_main_v93_apply, val_main_cst_9_apply, lx1_2 a0 a1 a2 b n f]
  rfl

/-- Weight matrix 0: slice 0 of the stacked weights, reshaped to a matrix. -/
theorem w0_2 (f : Fin 128) (g : Fin 512) :
    val_main_v86 (F := Ideal) a3 (ix2 f g) = Cheb.wOf a3 0 f g := by
  rw [val_main_v86_apply, val_main_v85_apply]
  exact congrArg a3 (funext fun a => Fin.ext (by
    have hf := f.isLt
    have hg := g.isLt
    match a with
    | ⟨0, _⟩ => rfl
    | ⟨1, _⟩ => show (f.val * 512 + g.val) / 512 % 128 = f.val; omega
    | ⟨2, _⟩ => show (f.val * 512 + g.val) % 512 = g.val; omega))

/-- Weight matrix 1: slice 1 of the stacked weights, reshaped to a matrix. -/
theorem w1_2 (f : Fin 128) (g : Fin 512) :
    val_main_v89 (F := Ideal) a3 (ix2 f g) = Cheb.wOf a3 1 f g := by
  rw [val_main_v89_apply, val_main_v88_apply]
  exact congrArg a3 (funext fun a => Fin.ext (by
    have hf := f.isLt
    have hg := g.isLt
    match a with
    | ⟨0, _⟩ => rfl
    | ⟨1, _⟩ => show (f.val * 512 + g.val) / 512 % 128 = f.val; omega
    | ⟨2, _⟩ => show (f.val * 512 + g.val) % 512 = g.val; omega))

/-- Weight matrix 2: slice 2 of the stacked weights, reshaped to a matrix. -/
theorem w2_2 (f : Fin 128) (g : Fin 512) :
    val_main_v97 (F := Ideal) a3 (ix2 f g) = Cheb.wOf a3 2 f g := by
  rw [val_main_v97_apply, val_main_v96_apply]
  exact congrArg a3 (funext fun a => Fin.ext (by
    have hf := f.isLt
    have hg := g.isLt
    match a with
    | ⟨0, _⟩ => rfl
    | ⟨1, _⟩ => show (f.val * 512 + g.val) / 512 % 128 = f.val; omega
    | ⟨2, _⟩ => show (f.val * 512 + g.val) % 512 = g.val; omega))

/-- The rows projected by weight matrix 0. -/
theorem p0_2 (b : Fin 32) (n : Fin 1024) (g : Fin 512) :
    val_main_v87 (F := Ideal) a0 a1 a2 a3 (ix3 b n g)
      = Cheb.proj (fun (n : Fin 1024) (d : Fin 128) => val_main_v51 (F := Ideal) a0 a1 a2 (ix3 b n d)) (Cheb.wOf a3 0) n g := by
  rw [val_main_v87_apply]
  unfold Cheb.proj
  refine Finset.sum_congr rfl fun k _ => ?_
  rw [show lidx_main_v87 (ix3 b n g) k = ix3 b n k by idx3,
    show ridx_main_v87 (ix3 b n g) k = ix2 k g by idx2, w0_2 a3 k g]

/-- The first-order term projected by weight matrix 1. -/
theorem p1_2 (b : Fin 32) (n : Fin 1024) (g : Fin 512) :
    val_main_v90 (F := Ideal) a0 a1 a2 a3 (ix3 b n g)
      = Cheb.proj (Cheb.x1R Cheb.two (fun (n : Fin 1024) (d : Fin 128) => val_main_v51 (F := Ideal) a0 a1 a2 (ix3 b n d))) (Cheb.wOf a3 1) n g := by
  rw [val_main_v90_apply]
  unfold Cheb.proj
  refine Finset.sum_congr rfl fun k _ => ?_
  rw [show lidx_main_v90 (ix3 b n g) k = ix3 b n k by idx3,
    show ridx_main_v90 (ix3 b n g) k = ix2 k g by idx2, x1_2 a0 a1 a2 b n k, w1_2 a3 k g]

/-- The second-order term projected by weight matrix 2. -/
theorem p2_2 (b : Fin 32) (n : Fin 1024) (g : Fin 512) :
    val_main_v98 (F := Ideal) a0 a1 a2 a3 (ix3 b n g)
      = Cheb.proj (Cheb.x2R Cheb.two (fun (n : Fin 1024) (d : Fin 128) => val_main_v51 (F := Ideal) a0 a1 a2 (ix3 b n d))) (Cheb.wOf a3 2) n g := by
  rw [val_main_v98_apply]
  unfold Cheb.proj
  refine Finset.sum_congr rfl fun k _ => ?_
  rw [show lidx_main_v98 (ix3 b n g) k = ix3 b n k by idx3,
    show ridx_main_v98 (ix3 b n g) k = ix2 k g by idx2, x2_2 a0 a1 a2 b n k, w2_2 a3 k g]

/-- The layer at an entry: the three projections and the bias, added in the program's order, and the maximum
    against the zero word. -/
theorem out2 (b : Fin 32) (n : Fin 1024) (g : Fin 512) :
    val_main_v103 (F := Ideal) a0 a1 a2 a3 a4 (ix3 b n g)
      = Cheb.layerR Cheb.two (fun (n : Fin 1024) (d : Fin 128) => val_main_v51 (F := Ideal) a0 a1 a2 (ix3 b n d)) (Cheb.wOf a3) (Cheb.vOf a4) n g := by
  rw [val_main_v103_apply, val_main_v102_apply, val_main_v99_apply, val_main_v91_apply, p0_2 a0 a1 a2 a3 b n g,
    p1_2 a0 a1 a2 a3 b n g, p2_2 a0 a1 a2 a3 b n g, val_main_v101_apply, val_main_v100_apply, val_main_call1_v0_apply,
    val_main_call1_cst_apply, Ideal.ofBits_def, Ideal.ofBits_zero_f32,
    show idx_main_v100 (idx_main_v101 (ix3 b n g)) = ix1 g by idx1]
  rfl

end

end Cert.ReferenceIdeal.RefValue

end
-- ==== Proof.RefLayer3.lean ====
/-
  The third graph-convolution layer of the reference program, read as mathematics.

  The program computes the layer on all 32 clouds at once, as about fifty array operations.  Each lemma below
  reads one named intermediate array at an entry: for cloud `b`, whose rows `x n` are the second layer's result at `(b, n, ·)` (kept as it is: the second layer is never opened here),
  the array holds the corresponding quantity of the layer at the points `n`, `m` (or at point `n` and feature `f`):
  the inner products, the squared norms, the squared distance, the Gaussian adjacency, the degrees, one over
  their square roots, the identity matrix, the normalized adjacency, the Laplacian, the first- and second-order
  terms, the three projections, the bias, and the maximum against zero.  A broadcast reads its operand at the
  coordinates it keeps; a slice of the stacked weights followed by a reshape reads weight matrix `k`.
-/
import proofs.«171429_j17910013625104_2_alg».proof.Proof.RefRead
import proofs.«171429_j17910013625104_2_alg».proof.Proof.ChebNet
import proofs.«171429_j17910013625104_2_alg».proof.Proof.RefCommon

noncomputable section

namespace Cert.ReferenceIdeal.RefValue

open Cert.ReferenceIdeal Cert.ReferenceIdeal.Read Idealize.ShloMosaic Idealize.ShloMosaic.ValueIdx

/-- Two indices of a rank-1, rank-2 or rank-3 array are equal when their coordinates are. -/
local macro "idx1" : tactic =>
  `(tactic| exact funext fun a => Fin.ext (by match a with | ⟨0, _⟩ => rfl))
local macro "idx2" : tactic =>
  `(tactic| exact funext fun a => Fin.ext (by match a with | ⟨0, _⟩ => rfl | ⟨1, _⟩ => rfl))
local macro "idx3" : tactic =>
  `(tactic| exact funext fun a => Fin.ext (by match a with | ⟨0, _⟩ => rfl | ⟨1, _⟩ => rfl | ⟨2, _⟩ => rfl))

section

variable (a0 : (⟨S32x1024x6, .f32⟩ : BufTy).Contents (Elt Ideal))
  (a1 : (⟨S3x6x128, .f32⟩ : BufTy).Contents (Elt Ideal))
  (a2 : (⟨S128, .f32⟩ : BufTy).Contents (Elt Ideal))
  (a3 : (⟨S3x128x512, .f32⟩ : BufTy).Contents (Elt Ideal))
  (a4 : (⟨S512, .f32⟩ : BufTy).Contents (Elt Ideal))
  (a5 : (⟨S3x512x1024, .f32⟩ : BufTy).Contents (Elt Ideal))
  (a6 : (⟨S1024, .f32⟩ : BufTy).Contents (Elt Ideal))

/-- The inner products of the rows of cloud `b`. -/
theorem inner3 (b : Fin 32) (n m : Fin 1024) :
    val_main_v104 (F := Ideal) a0 a1 a2 a3 a4 (ix3 b n m)
      = Cheb.inner (fun (n : Fin 1024) (d : Fin 512) => val_main_v103 (F := Ideal) a0 a1 a2 a3 a4 (ix3 b n d)) n m := by
  rw [val_main_v104_apply]
  unfold Cheb.inner
  refine Finset.sum_congr rfl fun k _ => ?_
  rw [show lidx_main_v104 (ix3 b n m) k = ix3 b n k by idx3,
    show ridx_main_v104 (ix3 b n m) k = ix3 b m k by idx3]

/-- The squared norms: the sum of the squares, started from the zero word. -/
theorem sq3 (b : Fin 32) (n : Fin 1024) :
    val_main_v106 (F := Ideal) a0 a1 a2 a3 a4 (ix2 b n)
      = Cheb.sq (fun (n : Fin 1024) (d : Fin 512) => val_main_v103 (F := Ideal) a0 a1 a2 a3 a4 (ix3 b n d)) n := by
  rw [val_main_v106_apply, val_main_cst_10_apply, Ideal.ofBits_def, Ideal.ofBits_zero_f32, zero_add]
  unfold Cheb.sq
  refine Finset.sum_congr rfl fun k _ => ?_
  rw [val_main_v105_apply, show idx_main_v106 (ix2 b n) k = ix3 b n k by idx3]
  rfl

/-- The squared distance, expanded: the norm of row `n` broadcast along the columns, minus twice the inner
    product, plus the norm of row `m` broadcast along the rows. -/
theorem dist3 (b : Fin 32) (n m : Fin 1024) :
    val_main_v114 (F := Ideal) a0 a1 a2 a3 a4 (ix3 b n m)
      = Cheb.dist Cheb.two (fun (n : Fin 1024) (d : Fin 512) => val_main_v103 (F := Ideal) a0 a1 a2 a3 a4 (ix3 b n d)) n m := by
  rw [val_main_v114_apply, val_main_v111_apply, val_main_v110_apply, val_main_v107_apply, val_main_v109_apply,
    val_main_v108_apply, val_main_cst_11_apply, val_main_v113_apply, val_main_v112_apply,
    show idx_main_v107 (idx_main_v110 (ix3 b n m)) = ix2 b n by idx2,
    show idx_main_v112 (idx_main_v113 (ix3 b n m)) = ix2 b m by idx2,
    sq3 a0 a1 a2 a3 a4 b n, sq3 a0 a1 a2 a3 a4 b m, inner3 a0 a1 a2 a3 a4 b n m]
  rfl

/-- The Gaussian adjacency: the exponential of the negated distance. -/
theorem adj3 (b : Fin 32) (n m : Fin 1024) :
    val_main_v116 (F := Ideal) a0 a1 a2 a3 a4 (ix3 b n m)
      = Cheb.adjR Cheb.two (fun (n : Fin 1024) (d : Fin 512) => val_main_v103 (F := Ideal) a0 a1 a2 a3 a4 (ix3 b n d)) n m := by
  rw [val_main_v116_apply, val_main_v115_apply, dist3 a0 a1 a2 a3 a4 b n m]
  rfl

/-- The degrees: the adjacency rows summed, from the zero word. -/
theorem deg3 (b : Fin 32) (n : Fin 1024) :
    val_main_v117 (F := Ideal) a0 a1 a2 a3 a4 (ix2 b n)
      = Cheb.degR Cheb.two (fun (n : Fin 1024) (d : Fin 512) => val_main_v103 (F := Ideal) a0 a1 a2 a3 a4 (ix3 b n d)) n := by
  rw [val_main_v117_apply, val_main_cst_12_apply, Ideal.ofBits_def, Ideal.ofBits_zero_f32, zero_add]
  unfold Cheb.degR
  refine Finset.sum_congr rfl fun k _ => ?_
  rw [show idx_main_v117 (ix2 b n) k = ix3 b n k by idx3, adj3 a0 a1 a2 a3 a4 b n k]

/-- One over the square root of the degree. -/
theorem dis3 (b : Fin 32) (n : Fin 1024) :
    val_main_v120 (F := Ideal) a0 a1 a2 a3 a4 (ix2 b n)
      = Ideal.div 1 (Ideal.sqrt (Cheb.degR Cheb.two (fun (n : Fin 1024) (d : Fin 512) => val_main_v103 (F := Ideal) a0 a1 a2 a3 a4 (ix3 b n d)) n)) := by
  rw [val_main_v120_apply, val_main_v119_apply, val_main_cst_13_apply, val_main_v118_apply, deg3 a0 a1 a2 a3 a4 b n,
    Ideal.ofBits_def, one_word]
  rfl

/-- The identity matrix: a row counter compared with a column counter. -/
theorem eye3 (n m : Fin 1024) :
    val_main_v126 (F := Ideal) (ix2 n m) = if n = m then (1 : EReal) else 0 := by
  rw [val_main_v126_apply, val_main_v125_apply, val_main_v124_apply, val_main_v121_apply, val_main_v123_apply,
    val_main_c_14_apply, val_main_v122_apply]
  exact eye_entry n m

/-- The symmetrically normalized adjacency. -/
theorem norm3 (b : Fin 32) (n m : Fin 1024) :
    val_main_v132 (F := Ideal) a0 a1 a2 a3 a4 (ix3 b n m)
      = Cheb.normR Cheb.two (fun (n : Fin 1024) (d : Fin 512) => val_main_v103 (F := Ideal) a0 a1 a2 a3 a4 (ix3 b n d)) n m := by
  rw [val_main_v132_apply, val_main_v129_apply, val_main_v128_apply, val_main_v127_apply, val_main_v131_apply,
    val_main_v130_apply,
    show idx_main_v127 (idx_main_v128 (ix3 b n m)) = ix2 b n by idx2,
    show idx_main_v130 (idx_main_v131 (ix3 b n m)) = ix2 b m by idx2,
    dis3 a0 a1 a2 a3 a4 b n, dis3 a0 a1 a2 a3 a4 b m, adj3 a0 a1 a2 a3 a4 b n m]
  rfl

/-- The Laplacian: the identity minus the normalized adjacency. -/
theorem lap3 (b : Fin 32) (n m : Fin 1024) :
    val_main_v135 (F := Ideal) a0 a1 a2 a3 a4 (ix3 b n m)
      = Cheb.lap Cheb.two (fun (n : Fin 1024) (d : Fin 512) => val_main_v103 (F := Ideal) a0 a1 a2 a3 a4 (ix3 b n d)) n m := by
  rw [val_main_v135_apply, val_main_v134_apply, val_main_v133_apply,
    show idx_main_v133 (idx_main_v134 (ix3 b n m)) = ix2 n m by idx2, eye3 n m, norm3 a0 a1 a2 a3 a4 b n m]
  rfl

/-- The first-order term: the Laplacian applied to the rows. -/
theorem x1_3 (b : Fin 32) (n : Fin 1024) (f : Fin 512) :
    val_main_v136 (F := Ideal) a0 a1 a2 a3 a4 (ix3 b n f)
      = Cheb.x1R Cheb.two (fun (n : Fin 1024) (d : Fin 512) => val_main_v103 (F := Ideal) a0 a1 a2 a3 a4 (ix3 b n d)) n f := by
  rw [val_main_v136_apply]
  unfold Cheb.x1R Cheb.prop
  refine Finset.sum_congr rfl fun k _ => ?_
  rw [show lidx_main_v136 (ix3 b n f) k = ix3 b n k by idx3,
    show ridx_main_v136 (ix3 b n f) k = ix3 b k f by idx3, lap3 a0 a1 a2 a3 a4 b n k]

/-- The Laplacian applied to the first-order term. -/
theorem lx1_3 (b : Fin 32) (n : Fin 1024) (f : Fin 512) :
    val_main_v144 (F := Ideal) a0 a1 a2 a3 a4 (ix3 b n f)
      = Cheb.prop (Cheb.lap Cheb.two (fun (n : Fin 1024) (d : Fin 512) => val_main_v103 (F := Ideal) a0 a1 a2 a3 a4 (ix3 b n d)))
          (Cheb.x1R Cheb.two (fun (n : Fin 1024) (d : Fin 512) => val_main_v103 (F := Ideal) a0 a1 a2 a3 a4 (ix3 b n d))) n f := by
  rw [val_main_v144_apply]
  unfold Cheb.prop
  refine Finset.sum_congr rfl fun k _ => ?_
  rw [show lidx_main_v144 (ix3 b n f) k = ix3 b n k by idx3,
    show ridx_main_v144 (ix3 b n f) k = ix3 b k f by idx3, lap3 a0 a1 a2 a3 a4 b n k, x1_3 a0 a1 a2 a3 a4 b k f]

/-- The second-order term: twice that, minus the rows. -/
theorem x2_3 (b : Fin 32) (n : Fin 1024) (f : Fin 512) :
    val_main_v147 (F := Ideal) a0 a1 a2 a3 a4 (ix3 b n f)
      = Cheb.x2R Cheb.two (fun (n : Fin 1024) (d : Fin 512) => val_main_v103 (F := Ideal) a0 a1 a2 a3 a4 (ix3 b n d)) n f := by
  rw [val_main_v147_apply, val_main_v146_apply, val_main_v145_apply, val_main_cst_15_apply, lx1_3 a0 a1 a2 a3 a4 b n f]
  rfl

/-- Weight matrix 0: slice 0 of the stacked weights, reshaped to a matrix. -/
theorem w0_3 (f : Fin 512) (g : Fin 1024) :
    val_main_v138 (F := Ideal) a5 (ix2 f g) = Cheb.wOf a5 0 f g := by
  rw [val_main_v138_apply, val_main_v137_apply]
  exact congrArg a5 (funext fun a => Fin.ext (by
    have hf := f.isLt
    have hg := g.isLt
    match a with
    | ⟨0, _⟩ => rfl
    | ⟨1, _⟩ => show (f.val * 1024 + g.val) / 1024 % 512 = f.val; omega
    | ⟨2, _⟩ => show (f.val * 1024 + g.val) % 1024 = g.val; omega))

/-- Weight matrix 1: slice 1 of the stacked weights, reshaped to a matrix. -/
theorem w1_3 (f : Fin 512) (g : Fin 1024) :
    val_main_v141 (F := Ideal) a5 (ix2 f g) = Cheb.wOf a5 1 f g := by
  rw [val_main_v141_apply, val_main_v140_apply]
  exact congrArg a5 (funext fun a => Fin.ext (by
    have hf := f.isLt
    have hg := g.isLt
    match a with
    | ⟨0, _⟩ => rfl
    | ⟨1, _⟩ => show (f.val * 1024 + g.val) / 1024 % 512 = f.val; omega
    | ⟨2, _⟩ => show (f.val * 1024 + g.val) % 1024 = g.val; omega))

/-- Weight matrix 2: slice 2 of the stacked weights, reshaped to a matrix. -/
theorem w2_3 (f : Fin 512) (g : Fin 1024) :
    val_main_v149 (F := Ideal) a5 (ix2 f g) = Cheb.wOf a5 2 f g := by
  rw [val_main_v149_apply, val_main_v148_apply]
  exact congrArg a5 (funext fun a => Fin.ext (by
    have hf := f.isLt
    have hg := g.isLt
    match a with
    | ⟨0, _⟩ => rfl
    | ⟨1, _⟩ => show (f.val * 1024 + g.val) / 1024 % 512 = f.val; omega
    | ⟨2, _⟩ => show (f.val * 1024 + g.val) % 1024 = g.val; omega))

/-- The rows projected by weight matrix 0. -/
theorem p0_3 (b : Fin 32) (n : Fin 1024) (g : Fin 1024) :
    val_main_v139 (F := Ideal) a0 a1 a2 a3 a4 a5 (ix3 b n g)
      = Cheb.proj (fun (n : Fin 1024) (d : Fin 512) => val_main_v103 (F := Ideal) a0 a1 a2 a3 a4 (ix3 b n d)) (Cheb.wOf a5 0) n g := by
  rw [val_main_v139_apply]
  unfold Cheb.proj
  refine Finset.sum_congr rfl fun k _ => ?_
  rw [show lidx_main_v139 (ix3 b n g) k = ix3 b n k by idx3,
    show ridx_main_v139 (ix3 b n g) k = ix2 k g by idx2, w0_3 a5 k g]

/-- The first-order term projected by weight matrix 1. -/
theorem p1_3 (b : Fin 32) (n : Fin 1024) (g : Fin 1024) :
    val_main_v142 (F := Ideal) a0 a1 a2 a3 a4 a5 (ix3 b n g)
      = Cheb.proj (Cheb.x1R Cheb.two (fun (n : Fin 1024) (d : Fin 512) => val_main_v103 (F := Ideal) a0 a1 a2 a3 a4 (ix3 b n d))) (Cheb.wOf a5 1) n g := by
  rw [val_main_v142_apply]
  unfold Cheb.proj
  refine Finset.sum_congr rfl fun k _ => ?_
  rw [show lidx_main_v142 (ix3 b n g) k = ix3 b n k by idx3,
    show ridx_main_v142 (ix3 b n g) k = ix2 k g by idx2, x1_3 a0 a1 a2 a3 a4 b n k, w1_3 a5 k g]

/-- The second-order term projected by weight matrix 2. -/
theorem p2_3 (b : Fin 32) (n : Fin 1024) (g : Fin 1024) :
    val_main_v150 (F := Ideal) a0 a1 a2 a3 a4 a5 (ix3 b n g)
      = Cheb.proj (Cheb.x2R Cheb.two (fun (n : Fin 1024) (d : Fin 512) => val_main_v103 (F := Ideal) a0 a1 a2 a3 a4 (ix3 b n d))) (Cheb.wOf a5 2) n g := by
  rw [val_main_v150_apply]
  unfold Cheb.proj
  refine Finset.sum_congr rfl fun k _ => ?_
  rw [show lidx_main_v150 (ix3 b n g) k = ix3 b n k by idx3,
    show ridx_main_v150 (ix3 b n g) k = ix2 k g by idx2, x2_3 a0 a1 a2 a3 a4 b n k, w2_3 a5 k g]

/-- The layer at an entry: the three projections and the bias, added in the program's order, and the maximum
    against the zero word. -/
theorem out3 (b : Fin 32) (n : Fin 1024) (g : Fin 1024) :
    val_main_v155 (F := Ideal) a0 a1 a2 a3 a4 a5 a6 (ix3 b n g)
      = Cheb.layerR Cheb.two (fun (n : Fin 1024) (d : Fin 512) => val_main_v103 (F := Ideal) a0 a1 a2 a3 a4 (ix3 b n d)) (Cheb.wOf a5) (Cheb.vOf a6) n g := by
  rw [val_main_v155_apply, val_main_v154_apply, val_main_v151_apply, val_main_v143_apply, p0_3 a0 a1 a2 a3 a4 a5 b n g,
    p1_3 a0 a1 a2 a3 a4 a5 b n g, p2_3 a0 a1 a2 a3 a4 a5 b n g, val_main_v153_apply, val_main_v152_apply, val_main_call2_v0_apply,
    val_main_call2_cst_apply, Ideal.ofBits_def, Ideal.ofBits_zero_f32,
    show idx_main_v152 (idx_main_v153 (ix3 b n g)) = ix1 g by idx1]
  rfl

end

end Cert.ReferenceIdeal.RefValue

end
-- ==== Proof.RefLayers.lean ====
/-
  The reference program's three graph-convolution layers, read as mathematics.

  The results of the program's three calls of the maximum against zero are the three layers' outputs.  Each is
  the layer through the Laplacian, `Cheb.layerR`, cloud by cloud: of the input's rows for the first layer,
  of the previous layer's rows for the second and the third, with that layer's three weight matrices and bias.
  Each layer is read entry by entry in its own module (`out1`, `out2`, `out3`), array by array, the previous
  layer's result kept as an array and never opened; here an index is split into its three coordinates.
-/
import proofs.«171429_j17910013625104_2_alg».proof.Proof.RefLayer1
import proofs.«171429_j17910013625104_2_alg».proof.Proof.RefLayer2
import proofs.«171429_j17910013625104_2_alg».proof.Proof.RefLayer3

noncomputable section

namespace Cert.ReferenceIdeal.RefValue

open Cert.ReferenceIdeal Cert.ReferenceIdeal.Read Idealize.ShloMosaic Idealize.ShloMosaic.ValueIdx

/-- The first layer's result is the layer through the Laplacian, cloud by cloud. -/
theorem layer1 (a0 : (⟨S32x1024x6, .f32⟩ : BufTy).Contents (Elt Ideal)) (a1 : (⟨S3x6x128, .f32⟩ : BufTy).Contents (Elt Ideal)) (a2 : (⟨S128, .f32⟩ : BufTy).Contents (Elt Ideal)) :
    (val_main_v51 (F := Ideal) a0 a1 a2 : S32x1024x128.Idx → EReal) = fun i =>
      Cheb.layerR Cheb.two (fun (n : Fin 1024) (d : Fin 6) => a0 (ix3 (i 0) n d)) (Cheb.wOf a1) (Cheb.vOf a2)
        (i 1) (i 2) := by
  funext i
  obtain ⟨b, n, g, rfl⟩ : ∃ (b : Fin 32) (n : Fin 1024) (g : Fin 128), i = ix3 b n g :=
    ⟨i 0, i 1, i 2, eq_ix3 i⟩
  exact out1 a0 a1 a2 b n g

/-- The second layer's result is the layer through the Laplacian, cloud by cloud. -/
theorem layer2 (a0 : (⟨S32x1024x6, .f32⟩ : BufTy).Contents (Elt Ideal)) (a1 : (⟨S3x6x128, .f32⟩ : BufTy).Contents (Elt Ideal)) (a2 : (⟨S128, .f32⟩ : BufTy).Contents (Elt Ideal))
    (a3 : (⟨S3x128x512, .f32⟩ : BufTy).Contents (Elt Ideal)) (a4 : (⟨S512, .f32⟩ : BufTy).Contents (Elt Ideal)) :
    (val_main_v103 (F := Ideal) a0 a1 a2 a3 a4 : S32x1024x512.Idx → EReal) = fun i =>
      Cheb.layerR Cheb.two (fun (n : Fin 1024) (d : Fin 128) => val_main_v51 (F := Ideal) a0 a1 a2 (ix3 (i 0) n d)) (Cheb.wOf a3) (Cheb.vOf a4)
        (i 1) (i 2) := by
  funext i
  obtain ⟨b, n, g, rfl⟩ : ∃ (b : Fin 32) (n : Fin 1024) (g : Fin 512), i = ix3 b n g :=
    ⟨i 0, i 1, i 2, eq_ix3 i⟩
  exact out2 a0 a1 a2 a3 a4 b n g

/-- The third layer's result is the layer through the Laplacian, cloud by cloud. -/
theorem layer3 (a0 : (⟨S32x1024x6, .f32⟩ : BufTy).Contents (Elt Ideal)) (a1 : (⟨S3x6x128, .f32⟩ : BufTy).Contents (Elt Ideal)) (a2 : (⟨S128, .f32⟩ : BufTy).Contents (Elt Ideal))
    (a3 : (⟨S3x128x512, .f32⟩ : BufTy).Contents (Elt Ideal)) (a4 : (⟨S512, .f32⟩ : BufTy).Contents (Elt Ideal)) (a5 : (⟨S3x512x1024, .f32⟩ : BufTy).Contents (Elt Ideal)) (a6 : (⟨S1024, .f32⟩ : BufTy).Contents (Elt Ideal)) :
    (val_main_v155 (F := Ideal) a0 a1 a2 a3 a4 a5 a6 : S32x1024x1024.Idx → EReal) = fun i =>
      Cheb.layerR Cheb.two (fun (n : Fin 1024) (d : Fin 512) => val_main_v103 (F := Ideal) a0 a1 a2 a3 a4 (ix3 (i 0) n d)) (Cheb.wOf a5) (Cheb.vOf a6)
        (i 1) (i 2) := by
  funext i
  obtain ⟨b, n, g, rfl⟩ : ∃ (b : Fin 32) (n : Fin 1024) (g : Fin 1024), i = ix3 b n g :=
    ⟨i 0, i 1, i 2, eq_ix3 i⟩
  exact out3 a0 a1 a2 a3 a4 a5 a6 b n g

end Cert.ReferenceIdeal.RefValue

end
-- ==== Proof.RefTail.lean ====
/-
  The reference's last stages: the maximum over the points of each cloud, then the three-layer perceptron.
  The maximum is a fold of the binary maximum from the least extended real over the point axis, which is the
  supremum over the points; each dense layer is a sum over the shared axis plus the bias entry, the first two
  followed by the maximum against zero.
-/
import proofs.«171429_j17910013625104_2_alg».proof.Proof.RefRead
import proofs.«171429_j17910013625104_2_alg».proof.Proof.ChebNet
import Idealize.ShloMosaic.Lib.ValueIdx
import Idealize.ShloMosaic.PureOps.Reduce
import Idealize.ShloMosaic.PureOps.Ideal.Laws

noncomputable section

namespace Cert.ReferenceIdeal.RefTail

open Cert.ReferenceIdeal Cert.ReferenceIdeal.Gen Cert.ReferenceIdeal.Read Idealize.ShloMosaic Idealize.ShloMosaic.TcCoe
  Idealize.SL.Sem Idealize.ShloMosaic.ValueIdx

/-- Cloud `b`, feature `g`, with point `k` put back on the reduced axis, is the index `(b, k, g)`. -/
theorem lift_point (h : S32x1024x1024.Reduces [1] S32x1024) (b : Fin 32) (g : Fin 1024) (k : Fin (S32x1024x1024.size 1)) :
    h.lift (ix2 b g) k = ix3 b (⟨k.val, k.isLt⟩ : Fin 1024) g := by
  funext c; apply Fin.ext
  fin_cases c <;> rfl

/-- The binary maximum from the least extended real, folded over a finite type, is the supremum. -/
theorem fold_max_bot {ι : Type} [Fintype ι] (f : ι → EReal) :
    (Finset.univ : Finset ι).fold (FloatOps.maximumf (F := Ideal) (φ := .f32)) (Ideal.ofBits .f32 0xFF800000#32) f
      = Finset.univ.sup f := by
  have hb : Ideal.ofBits .f32 0xFF800000#32 = (⊥ : EReal) := by simp [Ideal.ofBits, Ideal.ieee]
  rw [hb]
  rfl

/-- The reduction by maximum over the point axis, at cloud `b` and feature `g`: the supremum over the points. -/
theorem reduce_max_apply (x : FVec Ideal S32x1024x1024 .f32) (b : Fin 32) (g : Fin 1024) :
    Host.reduce FloatOps.maximumf x (val_main_cst_16 (F := Ideal)) reducesTo_S32x1024x1024_S32x1024_d1 h_S_ (ix2 b g)
      = Finset.univ.sup fun n : Fin 1024 => x (ix3 b n g) := by
  have h : S32x1024x1024.Reduces [1] S32x1024 := by decide
  rw [Host.reduce_eq_fold_single FloatOps.maximumf x _ reducesTo_S32x1024x1024_S32x1024_d1 h h_S_]
  have hf : (x ∘ h.lift (ix2 b g)) = fun k : Fin 1024 => x (ix3 b k g) :=
    funext fun k => congrArg x (lift_point h b g k)
  rw [val_main_cst_16_apply]
  exact (congrArg (fun f => Finset.fold (FloatOps.maximumf (F := Ideal) (φ := .f32)) (Ideal.ofBits .f32 0xFF800000#32) f
    (Finset.univ : Finset (Fin 1024))) hf).trans (fold_max_bot _)

/-- The pooled array at cloud `b` and feature `g`: the maximum over the points of the third layer's output. -/
theorem pooled_apply (a0 : (⟨S32x1024x6, .f32⟩ : BufTy).Contents (Elt Ideal)) (a1 : (⟨S3x6x128, .f32⟩ : BufTy).Contents (Elt Ideal)) (a2 : (⟨S128, .f32⟩ : BufTy).Contents (Elt Ideal)) (a3 : (⟨S3x128x512, .f32⟩ : BufTy).Contents (Elt Ideal)) (a4 : (⟨S512, .f32⟩ : BufTy).Contents (Elt Ideal)) (a5 : (⟨S3x512x1024, .f32⟩ : BufTy).Contents (Elt Ideal)) (a6 : (⟨S1024, .f32⟩ : BufTy).Contents (Elt Ideal)) (b : Fin 32) (g : Fin 1024) :
    val_main_v156 (F := Ideal) a0 a1 a2 a3 a4 a5 a6 (ix2 b g)
      = Cert.Cheb.pool (fun (n : Fin 1024) (g : Fin 1024) => val_main_v155 (F := Ideal) a0 a1 a2 a3 a4 a5 a6 (ix3 b n g)) g := by
  unfold val_main_v156
  exact reduce_max_apply _ b g

/-- A dense layer with its maximum against zero: at `(p, q)` the sum over the shared axis of row `p` of the input against column `q`
    of the weights, plus bias entry `q`, against zero. -/
theorem dense1_apply (a0 : (⟨S32x1024x6, .f32⟩ : BufTy).Contents (Elt Ideal)) (a1 : (⟨S3x6x128, .f32⟩ : BufTy).Contents (Elt Ideal)) (a2 : (⟨S128, .f32⟩ : BufTy).Contents (Elt Ideal)) (a3 : (⟨S3x128x512, .f32⟩ : BufTy).Contents (Elt Ideal)) (a4 : (⟨S512, .f32⟩ : BufTy).Contents (Elt Ideal)) (a5 : (⟨S3x512x1024, .f32⟩ : BufTy).Contents (Elt Ideal)) (a6 : (⟨S1024, .f32⟩ : BufTy).Contents (Elt Ideal)) (a7 : (⟨S1024x512, .f32⟩ : BufTy).Contents (Elt Ideal)) (a8 : (⟨S512, .f32⟩ : BufTy).Contents (Elt Ideal)) (p : Fin 32) (q : Fin 512) :
    val_main_v161 (F := Ideal) a0 a1 a2 a3 a4 a5 a6 a7 a8 (ix2 p q)
      = Cert.Cheb.denseRelu (fun k : Fin 1024 => val_main_v156 (F := Ideal) a0 a1 a2 a3 a4 a5 a6 (ix2 p k))
          (Cert.Cheb.mOf a7) (Cert.Cheb.vOf a8) q := by
  have el : ∀ k : Fin 1024, lidx_main_v157 (ix2 p q) k = ix2 p k := fun k => funext fun a => by
    match a with | ⟨0, _⟩ => rfl | ⟨1, _⟩ => rfl
  have er : ∀ k : Fin 1024, ridx_main_v157 (ix2 p q) k = ix2 k q := fun k => funext fun a => by
    match a with | ⟨0, _⟩ => rfl | ⟨1, _⟩ => rfl
  have eb : idx_main_v158 (idx_main_v159 (ix2 p q)) = ix1 q := funext fun a => by
    match a with | ⟨0, _⟩ => rfl
  rw [val_main_v161_apply, val_main_v160_apply, val_main_v157_apply, val_main_v159_apply, val_main_v158_apply,
    val_main_call3_v0_apply, val_main_call3_cst_apply, eb]
  simp only [el, er]
  rw [Ideal.ofBits_def, Ideal.ofBits_zero_f32]
  rfl

/-- A dense layer with its maximum against zero: at `(p, q)` the sum over the shared axis of row `p` of the input against column `q`
    of the weights, plus bias entry `q`, against zero. -/
theorem dense2_apply (a0 : (⟨S32x1024x6, .f32⟩ : BufTy).Contents (Elt Ideal)) (a1 : (⟨S3x6x128, .f32⟩ : BufTy).Contents (Elt Ideal)) (a2 : (⟨S128, .f32⟩ : BufTy).Contents (Elt Ideal)) (a3 : (⟨S3x128x512, .f32⟩ : BufTy).Contents (Elt Ideal)) (a4 : (⟨S512, .f32⟩ : BufTy).Contents (Elt Ideal)) (a5 : (⟨S3x512x1024, .f32⟩ : BufTy).Contents (Elt Ideal)) (a6 : (⟨S1024, .f32⟩ : BufTy).Contents (Elt Ideal)) (a7 : (⟨S1024x512, .f32⟩ : BufTy).Contents (Elt Ideal)) (a8 : (⟨S512, .f32⟩ : BufTy).Contents (Elt Ideal)) (a9 : (⟨S512x128, .f32⟩ : BufTy).Contents (Elt Ideal)) (a10 : (⟨S128, .f32⟩ : BufTy).Contents (Elt Ideal)) (p : Fin 32) (q : Fin 128) :
    val_main_v166 (F := Ideal) a0 a1 a2 a3 a4 a5 a6 a7 a8 a9 a10 (ix2 p q)
      = Cert.Cheb.denseRelu (fun k : Fin 512 => val_main_v161 (F := Ideal) a0 a1 a2 a3 a4 a5 a6 a7 a8 (ix2 p k))
          (Cert.Cheb.mOf a9) (Cert.Cheb.vOf a10) q := by
  have el : ∀ k : Fin 512, lidx_main_v162 (ix2 p q) k = ix2 p k := fun k => funext fun a => by
    match a with | ⟨0, _⟩ => rfl | ⟨1, _⟩ => rfl
  have er : ∀ k : Fin 512, ridx_main_v162 (ix2 p q) k = ix2 k q := fun k => funext fun a => by
    match a with | ⟨0, _⟩ => rfl | ⟨1, _⟩ => rfl
  have eb : idx_main_v163 (idx_main_v164 (ix2 p q)) = ix1 q := funext fun a => by
    match a with | ⟨0, _⟩ => rfl
  rw [val_main_v166_apply, val_main_v165_apply, val_main_v162_apply, val_main_v164_apply, val_main_v163_apply,
    val_main_call4_v0_apply, val_main_call4_cst_apply, eb]
  simp only [el, er]
  rw [Ideal.ofBits_def, Ideal.ofBits_zero_f32]
  rfl

/-- The last dense layer: at `(p, q)` the sum over the shared axis of row `p` of the input against column `q`
    of the weights, plus bias entry `q`. -/
theorem dense3_apply (a0 : (⟨S32x1024x6, .f32⟩ : BufTy).Contents (Elt Ideal)) (a1 : (⟨S3x6x128, .f32⟩ : BufTy).Contents (Elt Ideal)) (a2 : (⟨S128, .f32⟩ : BufTy).Contents (Elt Ideal)) (a3 : (⟨S3x128x512, .f32⟩ : BufTy).Contents (Elt Ideal)) (a4 : (⟨S512, .f32⟩ : BufTy).Contents (Elt Ideal)) (a5 : (⟨S3x512x1024, .f32⟩ : BufTy).Contents (Elt Ideal)) (a6 : (⟨S1024, .f32⟩ : BufTy).Contents (Elt Ideal)) (a7 : (⟨S1024x512, .f32⟩ : BufTy).Contents (Elt Ideal)) (a8 : (⟨S512, .f32⟩ : BufTy).Contents (Elt Ideal)) (a9 : (⟨S512x128, .f32⟩ : BufTy).Contents (Elt Ideal)) (a10 : (⟨S128, .f32⟩ : BufTy).Contents (Elt Ideal)) (a11 : (⟨S128x40, .f32⟩ : BufTy).Contents (Elt Ideal)) (a12 : (⟨S40, .f32⟩ : BufTy).Contents (Elt Ideal)) (p : Fin 32) (q : Fin 40) :
    val_main_v170 (F := Ideal) a0 a1 a2 a3 a4 a5 a6 a7 a8 a9 a10 a11 a12 (ix2 p q)
      = Cert.Cheb.dense (fun k : Fin 128 => val_main_v166 (F := Ideal) a0 a1 a2 a3 a4 a5 a6 a7 a8 a9 a10 (ix2 p k))
          (Cert.Cheb.mOf a11) (Cert.Cheb.vOf a12) q := by
  have el : ∀ k : Fin 128, lidx_main_v167 (ix2 p q) k = ix2 p k := fun k => funext fun a => by
    match a with | ⟨0, _⟩ => rfl | ⟨1, _⟩ => rfl
  have er : ∀ k : Fin 128, ridx_main_v167 (ix2 p q) k = ix2 k q := fun k => funext fun a => by
    match a with | ⟨0, _⟩ => rfl | ⟨1, _⟩ => rfl
  have eb : idx_main_v168 (idx_main_v169 (ix2 p q)) = ix1 q := funext fun a => by
    match a with | ⟨0, _⟩ => rfl
  rw [val_main_v170_apply, val_main_v167_apply, val_main_v169_apply, val_main_v168_apply, eb]
  simp only [el, er]
  rfl

/-- The reference's result from the third layer's output: pooled over the points, then the perceptron head. -/
theorem tail (a0 : (⟨S32x1024x6, .f32⟩ : BufTy).Contents (Elt Ideal)) (a1 : (⟨S3x6x128, .f32⟩ : BufTy).Contents (Elt Ideal)) (a2 : (⟨S128, .f32⟩ : BufTy).Contents (Elt Ideal)) (a3 : (⟨S3x128x512, .f32⟩ : BufTy).Contents (Elt Ideal)) (a4 : (⟨S512, .f32⟩ : BufTy).Contents (Elt Ideal)) (a5 : (⟨S3x512x1024, .f32⟩ : BufTy).Contents (Elt Ideal)) (a6 : (⟨S1024, .f32⟩ : BufTy).Contents (Elt Ideal)) (a7 : (⟨S1024x512, .f32⟩ : BufTy).Contents (Elt Ideal)) (a8 : (⟨S512, .f32⟩ : BufTy).Contents (Elt Ideal)) (a9 : (⟨S512x128, .f32⟩ : BufTy).Contents (Elt Ideal)) (a10 : (⟨S128, .f32⟩ : BufTy).Contents (Elt Ideal)) (a11 : (⟨S128x40, .f32⟩ : BufTy).Contents (Elt Ideal)) (a12 : (⟨S40, .f32⟩ : BufTy).Contents (Elt Ideal)) :
    (val_main_v170 (F := Ideal) a0 a1 a2 a3 a4 a5 a6 a7 a8 a9 a10 a11 a12 : S32x40.Idx → EReal) = fun i =>
      Cert.Cheb.head (Cert.Cheb.pool (fun (n : Fin 1024) (g : Fin 1024) => val_main_v155 (F := Ideal) a0 a1 a2 a3 a4 a5 a6 (ix3 (i 0) n g)))
        (Cert.Cheb.mOf a7) (Cert.Cheb.vOf a8) (Cert.Cheb.mOf a9) (Cert.Cheb.vOf a10) (Cert.Cheb.mOf a11) (Cert.Cheb.vOf a12) (i 1) := by
  funext i
  obtain ⟨p, q, rfl⟩ : ∃ (p : Fin 32) (q : Fin 40), i = ix2 p q := ⟨i 0, i 1, eq_ix2 i⟩
  show _ = Cert.Cheb.head (Cert.Cheb.pool (fun (n : Fin 1024) (g : Fin 1024) => val_main_v155 (F := Ideal) a0 a1 a2 a3 a4 a5 a6 (ix3 p n g)))
        (Cert.Cheb.mOf a7) (Cert.Cheb.vOf a8) (Cert.Cheb.mOf a9) (Cert.Cheb.vOf a10) (Cert.Cheb.mOf a11) (Cert.Cheb.vOf a12) q
  refine (dense3_apply a0 a1 a2 a3 a4 a5 a6 a7 a8 a9 a10 a11 a12 p q).trans ?_
  unfold Cert.Cheb.head
  refine congrArg (fun a => Cert.Cheb.dense a (Cert.Cheb.mOf a11) (Cert.Cheb.vOf a12) q) (funext fun k2 => ?_)
  refine (dense2_apply a0 a1 a2 a3 a4 a5 a6 a7 a8 a9 a10 p k2).trans ?_
  refine congrArg (fun a => Cert.Cheb.denseRelu a (Cert.Cheb.mOf a9) (Cert.Cheb.vOf a10) k2) (funext fun k1 => ?_)
  refine (dense1_apply a0 a1 a2 a3 a4 a5 a6 a7 a8 p k1).trans ?_
  refine congrArg (fun a => Cert.Cheb.denseRelu a (Cert.Cheb.mOf a7) (Cert.Cheb.vOf a8) k1) (funext fun f => ?_)
  exact pooled_apply a0 a1 a2 a3 a4 a5 a6 p f

/-- Given that each of the three graph-convolution stages is the layer through the Laplacian of the stage before it,
    the reference's result is the whole network: the stages substituted into one another, cloud by cloud, then
    pooled and passed through the head. -/
theorem v170_eq_netR
    (hl1 : ∀ a0 a1 a2, (val_main_v51 (F := Ideal) a0 a1 a2 : S32x1024x128.Idx → EReal) = fun i =>
      Cert.Cheb.layerR Cert.Cheb.two (fun (n : Fin 1024) (d : Fin 6) => a0 (ix3 (i 0) n d)) (Cert.Cheb.wOf a1) (Cert.Cheb.vOf a2) (i 1) (i 2))
    (hl2 : ∀ a0 a1 a2 a3 a4, (val_main_v103 (F := Ideal) a0 a1 a2 a3 a4 : S32x1024x512.Idx → EReal) = fun i =>
      Cert.Cheb.layerR Cert.Cheb.two (fun (n : Fin 1024) (d : Fin 128) => val_main_v51 (F := Ideal) a0 a1 a2 (ix3 (i 0) n d))
        (Cert.Cheb.wOf a3) (Cert.Cheb.vOf a4) (i 1) (i 2))
    (hl3 : ∀ a0 a1 a2 a3 a4 a5 a6, (val_main_v155 (F := Ideal) a0 a1 a2 a3 a4 a5 a6 : S32x1024x1024.Idx → EReal) = fun i =>
      Cert.Cheb.layerR Cert.Cheb.two (fun (n : Fin 1024) (d : Fin 512) => val_main_v103 (F := Ideal) a0 a1 a2 a3 a4 (ix3 (i 0) n d))
        (Cert.Cheb.wOf a5) (Cert.Cheb.vOf a6) (i 1) (i 2))
    (a0 : (⟨S32x1024x6, .f32⟩ : BufTy).Contents (Elt Ideal)) (a1 : (⟨S3x6x128, .f32⟩ : BufTy).Contents (Elt Ideal)) (a2 : (⟨S128, .f32⟩ : BufTy).Contents (Elt Ideal)) (a3 : (⟨S3x128x512, .f32⟩ : BufTy).Contents (Elt Ideal)) (a4 : (⟨S512, .f32⟩ : BufTy).Contents (Elt Ideal)) (a5 : (⟨S3x512x1024, .f32⟩ : BufTy).Contents (Elt Ideal)) (a6 : (⟨S1024, .f32⟩ : BufTy).Contents (Elt Ideal)) (a7 : (⟨S1024x512, .f32⟩ : BufTy).Contents (Elt Ideal)) (a8 : (⟨S512, .f32⟩ : BufTy).Contents (Elt Ideal)) (a9 : (⟨S512x128, .f32⟩ : BufTy).Contents (Elt Ideal)) (a10 : (⟨S128, .f32⟩ : BufTy).Contents (Elt Ideal)) (a11 : (⟨S128x40, .f32⟩ : BufTy).Contents (Elt Ideal)) (a12 : (⟨S40, .f32⟩ : BufTy).Contents (Elt Ideal)) :
    (val_main_v170 (F := Ideal) a0 a1 a2 a3 a4 a5 a6 a7 a8 a9 a10 a11 a12 : S32x40.Idx → EReal) = Cert.Cheb.netR a0 a1 a2 a3 a4 a5 a6 a7 a8 a9 a10 a11 a12 := by
  have e1 : ∀ b : Fin 32, (fun (n : Fin 1024) (d : Fin 128) => val_main_v51 (F := Ideal) a0 a1 a2 (ix3 b n d))
      = Cert.Cheb.layerR Cert.Cheb.two (fun (n : Fin 1024) (d : Fin 6) => a0 (ix3 b n d)) (Cert.Cheb.wOf a1) (Cert.Cheb.vOf a2) :=
    fun b => funext fun n => funext fun d => congrFun (hl1 a0 a1 a2) (ix3 b n d)
  have e2 : ∀ b : Fin 32, (fun (n : Fin 1024) (d : Fin 512) => val_main_v103 (F := Ideal) a0 a1 a2 a3 a4 (ix3 b n d))
      = Cert.Cheb.layerR Cert.Cheb.two (Cert.Cheb.layerR Cert.Cheb.two (fun (n : Fin 1024) (d : Fin 6) => a0 (ix3 b n d)) (Cert.Cheb.wOf a1) (Cert.Cheb.vOf a2)) (Cert.Cheb.wOf a3) (Cert.Cheb.vOf a4) := by
    intro b; funext n d
    refine (congrFun (hl2 a0 a1 a2 a3 a4) (ix3 b n d)).trans ?_
    show Cert.Cheb.layerR Cert.Cheb.two (fun (n : Fin 1024) (d : Fin 128) => val_main_v51 (F := Ideal) a0 a1 a2 (ix3 b n d))
      (Cert.Cheb.wOf a3) (Cert.Cheb.vOf a4) n d = _
    rw [e1 b]
  have e3 : ∀ b : Fin 32, (fun (n : Fin 1024) (g : Fin 1024) => val_main_v155 (F := Ideal) a0 a1 a2 a3 a4 a5 a6 (ix3 b n g))
      = Cert.Cheb.layerR Cert.Cheb.two (Cert.Cheb.layerR Cert.Cheb.two (Cert.Cheb.layerR Cert.Cheb.two (fun (n : Fin 1024) (d : Fin 6) => a0 (ix3 b n d)) (Cert.Cheb.wOf a1) (Cert.Cheb.vOf a2)) (Cert.Cheb.wOf a3) (Cert.Cheb.vOf a4)) (Cert.Cheb.wOf a5) (Cert.Cheb.vOf a6) := by
    intro b; funext n g
    refine (congrFun (hl3 a0 a1 a2 a3 a4 a5 a6) (ix3 b n g)).trans ?_
    show Cert.Cheb.layerR Cert.Cheb.two (fun (n : Fin 1024) (d : Fin 512) => val_main_v103 (F := Ideal) a0 a1 a2 a3 a4 (ix3 b n d))
      (Cert.Cheb.wOf a5) (Cert.Cheb.vOf a6) n g = _
    rw [e2 b]
  rw [tail]
  funext i
  unfold Cert.Cheb.netR
  rw [e3 (i 0)]

end Cert.ReferenceIdeal.RefTail

end
-- ==== Proof.lean ====
/-
  The certificate of a point-cloud classifier: three Chebyshev graph-convolution layers on each of 32 clouds of 1024
  points, a maximum over the points, and a three-layer perceptron head — as a Pallas kernel of two regions against its
  jnp reference.

  The frames of the two kernel programs are the generated ones; the reference's frame is its run with the result
  dropped.  The idealization changes nothing, so `preserves` is trivial.

  For the algebraic claim both runs end, on every device, at ONE function of the argument arrays, the network
  through the Laplacian `Cheb.netR`.  The reference's run ends at its staged term, which is that network layer by
  layer.  The kernel's run ends at the padded-input network `Cheb.netK` of the zero-padded clouds and first weights:
  the fused region writes, cloud by cloud, three layers in the form that never forms the Laplacian and the pooling; the
  second region applies the head.  Under the precondition every input entry is a real number, so every intermediate
  value is real and `x - M x = (I - M) x` holds, the reciprocal square root of a positive degree is one over its square
  root, and the two zero coordinates of the padding drop out of every sum: the two networks agree.
-/
import proofs.«171429_j17910013625104_2_alg».proof.Defs
import proofs.«171429_j17910013625104_2_alg».proof.Proof.Gen.Kernel
import proofs.«171429_j17910013625104_2_alg».proof.Proof.Gen.Kernel.Skeleton
import proofs.«171429_j17910013625104_2_alg».proof.Proof.Gen.Kernel.Launch
import proofs.«171429_j17910013625104_2_alg».proof.Proof.Gen.Kernel.Points
import proofs.«171429_j17910013625104_2_alg».proof.Proof.Gen.Kernel.Frame
import proofs.«171429_j17910013625104_2_alg».proof.Proof.Gen.KernelIdeal
import proofs.«171429_j17910013625104_2_alg».proof.Proof.Gen.KernelIdeal.Skeleton
import proofs.«171429_j17910013625104_2_alg».proof.Proof.Gen.KernelIdeal.Launch
import proofs.«171429_j17910013625104_2_alg».proof.Proof.Gen.KernelIdeal.Points
import proofs.«171429_j17910013625104_2_alg».proof.Proof.Gen.KernelIdeal.Frame
import proofs.«171429_j17910013625104_2_alg».proof.Proof.Gen.ReferenceIdeal
import proofs.«171429_j17910013625104_2_alg».proof.Proof.Gen.Pre_finite_inputs
import proofs.«171429_j17910013625104_2_alg».proof.Proof.KernelRun
import proofs.«171429_j17910013625104_2_alg».proof.Proof.KernelGlue
import proofs.«171429_j17910013625104_2_alg».proof.Proof.KernelBlock
import proofs.«171429_j17910013625104_2_alg».proof.Proof.ChebNetMath
import proofs.«171429_j17910013625104_2_alg».proof.Proof.PadRead
import proofs.«171429_j17910013625104_2_alg».proof.Proof.PreReal
import proofs.«171429_j17910013625104_2_alg».proof.Proof.RefRun
import proofs.«171429_j17910013625104_2_alg».proof.Proof.RefLayers
import proofs.«171429_j17910013625104_2_alg».proof.Proof.RefTail
import Idealize.ShloMosaic.Adequacy
import Idealize.ShloMosaic.Init

set_option maxRecDepth 16384

noncomputable section

namespace Cert.Proof

open Idealize.ShloMosaic Idealize.ShloMosaic.TcCoe Idealize.SL.Sem

theorem frame_p : Cert.frame_Kernel := fun m ρ _ => Cert.Kernel.Gen.frame m ρ

theorem frame_pi : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run m ρ)

/-- The idealization rewrote no operation. -/
theorem preserves : Cert.preserves_Kernel_KernelIdeal := trivial

/-- Both runs end at the network through the Laplacian of the kernel's argument arrays. -/
theorem algebraic : Cert.algebraic_KernelIdeal_ReferenceIdeal := by
  intro m ρ m' ρ' hpre hagree
  refine ⟨fun c => Cert.Cheb.netR (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10))
      (m ((c.tc : Thread Cert.KernelIdeal.nD Cert.KernelIdeal.τ).loc Cert.KernelIdeal.main_arg11))
      (m ((c.tc : Thread Cert.KernelIdeal.nD Cert.KernelIdeal.τ).loc Cert.KernelIdeal.main_arg12)), ?_, ?_⟩
  · refine (θ_run Cert.KernelIdeal.defs _ _).mono (fun r h c => ⟨(h c).1.trans ?_, (h c).2⟩)
      (Cert.KernelIdeal.RunValue.run_value (F := Ideal) m ρ)
    obtain ⟨h0, h1, h2, h3, h4, h5, h6⟩ := Cert.Pre_finite_inputs.Real.real_of_pre _ _ _ _ _ _ _ _ _ _ _ _ _ (hpre c)
    rw [Cert.KernelIdeal.Glue.value_of m ρ c Cert.KernelIdeal.Block.out0_7_eq]
    exact Cert.Cheb.net_eq _ _ _ _ _ _ _ _ _ _ _ _ _ _ _ h0 h1 h2 h3 h4 h5 h6
      (fun b n d => Cert.KernelIdeal.PadRead.xpad_inside _ b n d)
      (fun b n d hd => Cert.KernelIdeal.PadRead.xpad_outside _ b n d hd)
      (fun k f g => Cert.KernelIdeal.PadRead.wpad_inside _ k f g)
  · refine (θ_run Cert.ReferenceIdeal.defs _ _).mono (fun r h c => ⟨(h c).1.trans ?_, (h c).2⟩)
      (Cert.ReferenceIdeal.RunP.run m' ρ')
    obtain ⟨e0, e1, e2, e3, e4, e5, e6, e7, e8, e9, e10, e11, e12⟩ := hagree c
    rw [e0, e1, e2, e3, e4, e5, e6, e7, e8, e9, e10, e11, e12]
    exact Cert.ReferenceIdeal.RefTail.v170_eq_netR Cert.ReferenceIdeal.RefValue.layer1 Cert.ReferenceIdeal.RefValue.layer2
      Cert.ReferenceIdeal.RefValue.layer3 _ _ _ _ _ _ _ _ _ _ _ _ _

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
